-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x12 : Shape := ⟨2, ![50000, 12]⟩
abbrev S2x800000 : Shape := ⟨2, ![2, 800000]⟩
abbrev S800000x5 : Shape := ⟨2, ![800000, 5]⟩
abbrev S1x11 : Shape := ⟨2, ![1, 11]⟩
abbrev S23x64 : Shape := ⟨2, ![23, 64]⟩
abbrev S64 : Shape := ⟨1, ![64]⟩
abbrev S64x64 : Shape := ⟨2, ![64, 64]⟩
abbrev S133x64 : Shape := ⟨2, ![133, 64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S_ : Shape := ⟨0, ![]⟩

class Facts : Prop where
  bcast_S_S50000x12 : S_.BroadcastsInDim S50000x12 (![] : Fin 0 → Fin S50000x12.rank)
  reducesTo_S50000x12_S_d0_1 : S50000x12.ReducesTo [0, 1] S_
  h_S_ : 0 < S_.numel
  bcast_S_S800000x5 : S_.BroadcastsInDim S800000x5 (![] : Fin 0 → Fin S800000x5.rank)
  reducesTo_S800000x5_S_d0_1 : S800000x5.ReducesTo [0, 1] S_
  bcast_S_S1x11 : S_.BroadcastsInDim S1x11 (![] : Fin 0 → Fin S1x11.rank)
  reducesTo_S1x11_S_d0_1 : S1x11.ReducesTo [0, 1] S_
  bcast_S_S23x64 : S_.BroadcastsInDim S23x64 (![] : Fin 0 → Fin S23x64.rank)
  reducesTo_S23x64_S_d0_1 : S23x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S133x64 : S_.BroadcastsInDim S133x64 (![] : Fin 0 → Fin S133x64.rank)
  reducesTo_S133x64_S_d0_1 : S133x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x4 : S_.BroadcastsInDim S32x4 (![] : Fin 0 → Fin S32x4.rank)
  reducesTo_S32x4_S_d0_1 : S32x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg12 : FVec F S32x4 .f32) (main_arg13 : FVec F S4 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x4 .f32 := Host.absf main_arg12
  let main_cst_20 : FVec F S_ .f32 := constant S_ .f32 0x7F800000#32
  let main_v55 : FVec F S32x4 .f32 := broadcastInDim S32x4 ![] bcast_S_S32x4 main_cst_20
  let main_v56 : IVec S32x4 1 := cmpf .olt main_v54 main_v55
  let main_c_21 : IVec S_ 1 := constantI S_ 1 1#1
  let main_v57 : IVec S_ 1 := (fun x v => Host.reduce IntOp.andi x v reducesTo_S32x4_S_d0_1 h_S_) main_v56 main_c_21
  let main_v58 : IVec S_ 1 := andi main_v53 main_v57
  let main_v59 : FVec F S4 .f32 := Host.absf main_arg13
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  main_v63

def fn_part2 {F : FTy → Type} [FloatOps F] (main_arg8 : FVec F S133x64 .f32) (main_arg9 : FVec F S64 .f32) (main_arg10 : FVec F S64x32 .f32) (main_arg11 : FVec F S32 .f32) (main_arg12 : FVec F S32x4 .f32) (main_arg13 : FVec F S4 .f32) (main_v33 : IVec S_ 1) : IVec S_ 1 :=
  let main_v34 : FVec F S133x64 .f32 := Host.absf main_arg8
  let main_cst_12 : FVec F S_ .f32 := constant S_ .f32 0x7F800000#32
  let main_v35 : FVec F S133x64 .f32 := broadcastInDim S133x64 ![] bcast_S_S133x64 main_cst_12
  let main_v36 : IVec S133x64 1 := cmpf .olt main_v34 main_v35
  let main_c_13 : IVec S_ 1 := constantI S_ 1 1#1
  let main_v37 : IVec S_ 1 := (fun x v => Host.reduce IntOp.andi x v reducesTo_S133x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg10
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S133x64 .f32) (main_arg9 : FVec F S64 .f32) (main_arg10 : FVec F S64x32 .f32) (main_arg11 : FVec F S32 .f32) (main_arg12 : FVec F S32x4 .f32) (main_arg13 : FVec F S4 .f32) (main_v13 : IVec S_ 1) (main_v16 : IVec S23x64 1) : IVec S_ 1 :=
  let main_c_5 : IVec S_ 1 := constantI S_ 1 1#1
  let main_v17 : IVec S_ 1 := (fun x v => Host.reduce IntOp.andi x v reducesTo_S23x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x12 .f32) (main_arg1 : IVec S2x800000 32) (main_arg2 : FVec F S800000x5 .f32) (main_arg3 : FVec F S1x11 .f32) (main_arg4 : FVec F S23x64 .f32) (main_arg5 : FVec F S64 .f32) (main_arg6 : FVec F S64x64 .f32) (main_arg7 : FVec F S64 .f32) (main_arg8 : FVec F S133x64 .f32) (main_arg9 : FVec F S64 .f32) (main_arg10 : FVec F S64x32 .f32) (main_arg11 : FVec F S32 .f32) (main_arg12 : FVec F S32x4 .f32) (main_arg13 : FVec F S4 .f32) : IVec S_ 1 :=
  let main_v0 : FVec F S50000x12 .f32 := Host.absf main_arg0
  let main_cst : FVec F S_ .f32 := constant S_ .f32 0x7F800000#32
  let main_v1 : FVec F S50000x12 .f32 := broadcastInDim S50000x12 ![] bcast_S_S50000x12 main_cst
  let main_v2 : IVec S50000x12 1 := cmpf .olt main_v0 main_v1
  let main_c : IVec S_ 1 := constantI S_ 1 1#1
  let main_v3 : IVec S_ 1 := (fun x v => Host.reduce IntOp.andi x v reducesTo_S50000x12_S_d0_1 h_S_) main_v2 main_c
  let main_v4 : FVec F S800000x5 .f32 := Host.absf main_arg2
  let main_cst_0 : FVec F S_ .f32 := constant S_ .f32 0x7F800000#32
  let main_v5 : FVec F S800000x5 .f32 := broadcastInDim S800000x5 ![] bcast_S_S800000x5 main_cst_0
  let main_v6 : IVec S800000x5 1 := cmpf .olt main_v4 main_v5
  let main_c_1 : IVec S_ 1 := constantI S_ 1 1#1
  let main_v7 : IVec S_ 1 := (fun x v => Host.reduce IntOp.andi x v reducesTo_S800000x5_S_d0_1 h_S_) main_v6 main_c_1
  let main_v8 : IVec S_ 1 := andi main_v3 main_v7
  let main_v9 : FVec F S1x11 .f32 := Host.absf main_arg3
  let main_cst_2 : FVec F S_ .f32 := constant S_ .f32 0x7F800000#32
  let main_v10 : FVec F S1x11 .f32 := broadcastInDim S1x11 ![] bcast_S_S1x11 main_cst_2
  let main_v11 : IVec S1x11 1 := cmpf .olt main_v9 main_v10
  let main_c_3 : IVec S_ 1 := constantI S_ 1 1#1
  let main_v12 : IVec S_ 1 := (fun x v => Host.reduce IntOp.andi x v reducesTo_S1x11_S_d0_1 h_S_) main_v11 main_c_3
  let main_v13 : IVec S_ 1 := andi main_v8 main_v12
  let main_v14 : FVec F S23x64 .f32 := Host.absf main_arg4
  let main_cst_4 : FVec F S_ .f32 := constant S_ .f32 0x7F800000#32
  let main_v15 : FVec F S23x64 .f32 := broadcastInDim S23x64 ![] bcast_S_S23x64 main_cst_4
  let main_v16 : IVec S23x64 1 := cmpf .olt main_v14 main_v15
  fn_part1 (F := F) main_arg5 main_arg6 main_arg7 main_arg8 main_arg9 main_arg10 main_arg11 main_arg12 main_arg13 main_v13 main_v16
-- ==== Kernel.lean ====
abbrev S50000x12 : Shape := ⟨2, ![50000, 12]⟩
abbrev S2x800000 : Shape := ⟨2, ![2, 800000]⟩
abbrev S800000x5 : Shape := ⟨2, ![800000, 5]⟩
abbrev S1x11 : Shape := ⟨2, ![1, 11]⟩
abbrev S23x64 : Shape := ⟨2, ![23, 64]⟩
abbrev S64 : Shape := ⟨1, ![64]⟩
abbrev S64x64 : Shape := ⟨2, ![64, 64]⟩
abbrev S133x64 : Shape := ⟨2, ![133, 64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S12x64 : Shape := ⟨2, ![12, 64]⟩
abbrev S11x64 : Shape := ⟨2, ![11, 64]⟩
abbrev S1x64 : Shape := ⟨2, ![1, 64]⟩
abbrev S50000x64 : Shape := ⟨2, ![50000, 64]⟩
abbrev S10000x12 : Shape := ⟨2, ![10000, 12]⟩
abbrev S10000x1 : Shape := ⟨2, ![10000, 1]⟩
abbrev S10000x64 : Shape := ⟨2, ![10000, 64]⟩
abbrev S850000x64 : Shape := ⟨2, ![850000, 64]⟩
abbrev S800000x1 : Shape := ⟨2, ![800000, 1]⟩
abbrev S800000x64 : Shape := ⟨2, ![800000, 64]⟩
abbrev S5x64 : Shape := ⟨2, ![5, 64]⟩
abbrev S1x32 : Shape := ⟨2, ![1, 32]⟩
abbrev S1x4 : Shape := ⟨2, ![1, 4]⟩
abbrev S800000x4 : Shape := ⟨2, ![800000, 4]⟩
abbrev S16000x64 : Shape := ⟨2, ![16000, 64]⟩
abbrev S16000x5 : Shape := ⟨2, ![16000, 5]⟩
abbrev S16000x4 : Shape := ⟨2, ![16000, 4]⟩
abbrev S16000x32 : Shape := ⟨2, ![16000, 32]⟩

abbrev nBuf : Space → Nat
  | .hbm => 100
  | .vmem => 39
  | .smem => 0
  | _ => 0

abbrev bufTy : (tb : Table) → Fin (tcTables nBuf tb) → BufTy
  | .hbm, ⟨0, _⟩ => ⟨S50000x12, .f32⟩
  | .hbm, ⟨1, _⟩ => ⟨S2x800000, .i32⟩
  | .hbm, ⟨2, _⟩ => ⟨S800000x5, .f32⟩
  | .hbm, ⟨3, _⟩ => ⟨S1x11, .f32⟩
  | .hbm, ⟨4, _⟩ => ⟨S23x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S133x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x4, .f32⟩
  | .hbm, ⟨13, _⟩ => ⟨S4, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S50000, .i32⟩
  | .hbm, ⟨19, _⟩ => ⟨S850000, .i32⟩
  | .hbm, ⟨20, _⟩ => ⟨S850000, .i32⟩
  | .hbm, ⟨21, _⟩ => ⟨S_, .f32⟩
  | .hbm, ⟨22, _⟩ => ⟨S850000, .f32⟩
  | .hbm, ⟨23, _⟩ => ⟨S_, .f32⟩
  | .hbm, ⟨24, _⟩ => ⟨S50000, .f32⟩
  | .hbm, ⟨25, _⟩ => ⟨S850000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S12x64, .f32⟩
  | .hbm, ⟨37, _⟩ => ⟨S11x64, .f32⟩
  | .hbm, ⟨38, _⟩ => ⟨S1x64, .f32⟩
  | .hbm, ⟨39, _⟩ => ⟨S50000x64, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x64, .f32⟩
  | .hbm, ⟨49, _⟩ => ⟨S_, .f32⟩
  | .hbm, ⟨50, _⟩ => ⟨S50000x64, .f32⟩
  | .hbm, ⟨51, _⟩ => ⟨S850000x1, .i32⟩
  | .hbm, ⟨52, _⟩ => ⟨S50000x64, .f32⟩
  | .hbm, ⟨53, _⟩ => ⟨S1x64, .f32⟩
  | .hbm, ⟨54, _⟩ => ⟨S50000x64, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .bf16⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x64, .bf16⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x64, .bf16⟩
  | .hbm, ⟨88, _⟩ => ⟨S64x64, .f32⟩
  | .hbm, ⟨89, _⟩ => ⟨S64x64, .bf16⟩
  | .hbm, ⟨90, _⟩ => ⟨S64x64, .f32⟩
  | .hbm, ⟨91, _⟩ => ⟨S64x64, .bf16⟩
  | .hbm, ⟨92, _⟩ => ⟨S5x64, .f32⟩
  | .hbm, ⟨93, _⟩ => ⟨S5x64, .bf16⟩
  | .hbm, ⟨94, _⟩ => ⟨S64x32, .bf16⟩
  | .hbm, ⟨95, _⟩ => ⟨S32x4, .bf16⟩
  | .hbm, ⟨96, _⟩ => ⟨S1x64, .f32⟩
  | .hbm, ⟨97, _⟩ => ⟨S1x32, .f32⟩
  | .hbm, ⟨98, _⟩ => ⟨S1x4, .f32⟩
  | .hbm, ⟨99, _⟩ => ⟨S800000x4, .f32⟩
  | .local _ .vmem, ⟨0, _⟩ => ⟨S10000x12, .f32⟩
  | .local _ .vmem, ⟨1, _⟩ => ⟨S10000x12, .f32⟩
  | .local _ .vmem, ⟨2, _⟩ => ⟨S12x64, .f32⟩
  | .local _ .vmem, ⟨3, _⟩ => ⟨S1x64, .f32⟩
  | .local _ .vmem, ⟨4, _⟩ => ⟨S10000x1, .f32⟩
  | .local _ .vmem, ⟨5, _⟩ => ⟨S10000x1, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x1, .f32⟩
  | .local _ .vmem, ⟨11, _⟩ => ⟨S10000x1, .f32⟩
  | .local _ .vmem, ⟨12, _⟩ => ⟨S1x64, .f32⟩
  | .local _ .vmem, ⟨13, _⟩ => ⟨S64x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x1, .f32⟩
  | .local _ .vmem, ⟨19, _⟩ => ⟨S10000x1, .f32⟩
  | .local _ .vmem, ⟨20, _⟩ => ⟨S1x64, .f32⟩
  | .local _ .vmem, ⟨21, _⟩ => ⟨S10000x64, .bf16⟩
  | .local _ .vmem, ⟨22, _⟩ => ⟨S10000x64, .bf16⟩
  | .local _ .vmem, ⟨23, _⟩ => ⟨S16000x64, .bf16⟩
  | .local _ .vmem, ⟨24, _⟩ => ⟨S16000x64, .bf16⟩
  | .local _ .vmem, ⟨25, _⟩ => ⟨S16000x64, .bf16⟩
  | .local _ .vmem, ⟨26, _⟩ => ⟨S16000x64, .bf16⟩
  | .local _ .vmem, ⟨27, _⟩ => ⟨S16000x5, .f32⟩
  | .local _ .vmem, ⟨28, _⟩ => ⟨S16000x5, .f32⟩
  | .local _ .vmem, ⟨29, _⟩ => ⟨S64x64, .bf16⟩
  | .local _ .vmem, ⟨30, _⟩ => ⟨S64x64, .bf16⟩
  | .local _ .vmem, ⟨31, _⟩ => ⟨S5x64, .bf16⟩
  | .local _ .vmem, ⟨32, _⟩ => ⟨S1x64, .f32⟩
  | .local _ .vmem, ⟨33, _⟩ => ⟨S64x32, .bf16⟩
  | .local _ .vmem, ⟨34, _⟩ => ⟨S1x32, .f32⟩
  | .local _ .vmem, ⟨35, _⟩ => ⟨S32x4, .bf16⟩
  | .local _ .vmem, ⟨36, _⟩ => ⟨S1x4, .f32⟩
  | .local _ .vmem, ⟨37, _⟩ => ⟨S16000x4, .f32⟩
  | .local _ .vmem, ⟨38, _⟩ => ⟨S16000x4, .f32⟩
  | _, _ => ⟨S50000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_8 : Ref sig .tc := ⟨.hbm, 70, rfl⟩
abbrev main_v44 : Ref sig .tc := ⟨.hbm, 71, rfl⟩
abbrev main_v45 : Ref sig .tc := ⟨.hbm, 72, rfl⟩
abbrev main_c_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg9_0 : Ref sig .tc := ⟨.vmem, 35, rfl⟩
abbrev cc3_stg10_0 : Ref sig .tc := ⟨.vmem, 36, rfl⟩
abbrev cc3_stg11_0 : Ref sig .tc := ⟨.vmem, 37, rfl⟩
abbrev cc3_stg11_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem9_0 : DmaSem sig := 35
abbrev cc3_sem10_0 : DmaSem sig := 36
abbrev cc3_sem11_0 : DmaSem sig := 37
abbrev cc3_sem11_1 : DmaSem sig := 38

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S16000x5 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S5x64 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x32 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x32 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S32x4 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x4 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S16000x4 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  slices_S23x64_S12x64_0_0 : S23x64.Slices ![0, 0] S12x64
  slices_S23x64_S11x64_12_0 : S23x64.Slices ![12, 0] S11x64
  inb_S10000x12_S10000x12_0_0 : ∀ a, (![0, 0] : Fin 2 → Nat) a + S10000x12.size a ≤ S10000x12.size a
  h_S10000x12 : 0 < S10000x12.numel
  inb_S12x64_S12x64_0_0 : ∀ a, (![0, 0] : Fin 2 → Nat) a + S12x64.size a ≤ S12x64.size a
  h_S12x64 : 0 < S12x64.numel
  shapeCasts_S12x64_S12x64 : S12x64.ShapeCasts S12x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  packedbf16_S10000x64_S10000x64_0_0 : (Rect.unit (s := S10000x64) ![0, 0] S10000x64.size inb_S10000x64_S10000x64_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  slices_S133x64_S64x64_0_0 : S133x64.Slices ![0, 0] S64x64
  slices_S133x64_S64x64_64_0 : S133x64.Slices ![64, 0] S64x64
  slices_S133x64_S5x64_128_0 : S133x64.Slices ![128, 0] S5x64
  shapeCasts_S32_S1x32 : S32.ShapeCasts S1x32
  shapeCasts_S4_S1x4 : S4.ShapeCasts S1x4
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S16000x5_S16000x5_0_0 : ∀ a, (![0, 0] : Fin 2 → Nat) a + S16000x5.size a ≤ S16000x5.size a
  h_S16000x5 : 0 < S16000x5.numel
  shapeCasts_S64x64_S64x64 : S64x64.ShapeCasts S64x64
  inb_S5x64_S5x64_0_0 : ∀ a, (![0, 0] : Fin 2 → Nat) a + S5x64.size a ≤ S5x64.size a
  h_S5x64 : 0 < S5x64.numel
  shapeCasts_S5x64_S5x64 : S5x64.ShapeCasts S5x64
  broadcasts_S1x64_S16000x64 : S1x64.Broadcasts S16000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S16000x32 : S1x32.Broadcasts S16000x32
  inb_S32x4_S32x4_0_0 : ∀ a, (![0, 0] : Fin 2 → Nat) a + S32x4.size a ≤ S32x4.size a
  h_S32x4 : 0 < S32x4.numel
  shapeCasts_S32x4_S32x4 : S32x4.ShapeCasts S32x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S16000x4 : S1x4.Broadcasts S16000x4
  inb_S16000x4_S16000x4_0_0 : ∀ a, (![0, 0] : Fin 2 → Nat) a + S16000x4.size a ≤ S16000x4.size a
  h_S16000x4 : 0 < S16000x4.numel
  scatter_S50000_S850000x1_S850000_n_0_0_1_wf : ScatterDims.WF S50000 S850000x1 S850000 [] [0] [0] 1
  dot_S1x11_S11x64_S1x64_1_0_0_1_n_n_wf : DotDims.WF S1x11 S11x64 S1x64 [1] [0] [0] [1] [] []
  dot_S10000x12_S12x64_S10000x64_1_0_0_1_n_n_wf : DotDims.WF S10000x12 S12x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x64_S10000x64_1_0_0_1_n_n_wf : DotDims.WF S10000x64 S64x64 S10000x64 [1] [0] [0] [1] [] []
  gather_S50000x64_S800000x1_S800000x64_1_0_n_n_0_1_164_wf : GatherDims.WF S50000x64 S800000x1 S800000x64 [1] [0] [] [0] [] 1 ![1, 64]
  dot_S16000x64_S64x64_S16000x64_1_0_0_1_n_n_wf : DotDims.WF S16000x64 S64x64 S16000x64 [1] [0] [0] [1] [] []
  dot_S16000x5_S5x64_S16000x64_1_0_0_1_n_n_wf : DotDims.WF S16000x5 S5x64 S16000x64 [1] [0] [0] [1] [] []
  dot_S16000x64_S64x32_S16000x32_1_0_0_1_n_n_wf : DotDims.WF S16000x64 S64x32 S16000x32 [1] [0] [0] [1] [] []
  dot_S16000x32_S32x4_S16000x4_1_0_0_1_n_n_wf : DotDims.WF S16000x32 S32x4 S16000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x12.size a ≤ S50000x12.size a
  hwx0_0 : ∀ i : grid0.Coords, EltTy.bits .f32 = 32 ∨ (Rect.block (s := S50000x12) S10000x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x64.size a ≤ S12x64.size a
  hwx0_1 : ∀ i : grid0.Coords, EltTy.bits .f32 = 32 ∨ (Rect.block (s := S12x64) S12x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S50000x1.size a
  hwx0_3 : ∀ i : grid0.Coords, EltTy.bits .f32 = 32 ∨ (Rect.block (s := S50000x1) S10000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S50000x64.size a
  hwx0_4 : ∀ i : grid0.Coords, EltTy.bits .f32 = 32 ∨ (Rect.block (s := S50000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .f32 = 32 ∨ (Rect.block (s := S50000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S50000x1.size a
  hwx2_1 : ∀ i : grid2.Coords, EltTy.bits .f32 = 32 ∨ (Rect.block (s := S50000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S50000x64.size a
  hwx2_3 : ∀ i : grid2.Coords, EltTy.bits .bf16 = 32 ∨ (Rect.block (s := S50000x64) S10000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16000x64.size a ≤ S800000x64.size a
  hwx3_0 : ∀ i : grid3.Coords, EltTy.bits .bf16 = 32 ∨ (Rect.block (s := S800000x64) S16000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S16000x64.size a ≤ S800000x64.size a
  hwx3_1 : ∀ i : grid3.Coords, EltTy.bits .bf16 = 32 ∨ (Rect.block (s := S800000x64) S16000x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S16000x5.size a ≤ S800000x5.size a
  hwx3_2 : ∀ i : grid3.Coords, EltTy.bits .f32 = 32 ∨ (Rect.block (s := S800000x5) S16000x5.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .bf16 = 32 ∨ (Rect.block (s := S64x64) S64x64.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .bf16 = 32 ∨ (Rect.block (s := S64x64) S64x64.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S5x64.size a ≤ S5x64.size a
  hwx3_5 : ∀ i : grid3.Coords, EltTy.bits .bf16 = 32 ∨ (Rect.block (s := S5x64) S5x64.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x32.size a ≤ S64x32.size a
  hwx3_7 : ∀ i : grid3.Coords, EltTy.bits .bf16 = 32 ∨ (Rect.block (s := S64x32) S64x32.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x32.size a ≤ S1x32.size a
  hwx3_8 : ∀ i : grid3.Coords, EltTy.bits .f32 = 32 ∨ (Rect.block (s := S1x32) S1x32.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S32x4.size a ≤ S32x4.size a
  hwx3_9 : ∀ i : grid3.Coords, EltTy.bits .bf16 = 32 ∨ (Rect.block (s := S32x4) S32x4.size (cc3_transform_9 i) (hinb3_9 i)).WholeWords (EltTy.packing .bf16)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x4.size a ≤ S1x4.size a
  hwx3_10 : ∀ i : grid3.Coords, EltTy.bits .f32 = 32 ∨ (Rect.block (s := S1x4) S1x4.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S16000x4.size a ≤ S800000x4.size a
  hwx3_11 : ∀ i : grid3.Coords, EltTy.bits .f32 = 32 ∨ (Rect.block (s := S800000x4) S16000x4.size (cc3_transform_11 i) (hinb3_11 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S1x11_S11x64_S1x64_1_0_0_1_n_n : DotDims S1x11 S11x64 S1x64 where
  lhsContracting := [1]
  rhsContracting := [0]
  lhsNonContracting := [0]
  rhsNonContracting := [1]
  lhsBatch := []
  rhsBatch := []
  wf := dot_S1x11_S11x64_S1x64_1_0_0_1_n_n_wf
def dot_S10000x12_S12x64_S10000x64_1_0_0_1_n_n : DotDims S10000x12 S12x64 S10000x64 where
  lhsContracting := [1]
  rhsContracting := [0]
  lhsNonContracting := [0]
  rhsNonContracting := [1]
  lhsBatch := []
  rhsBatch := []
  wf := dot_S10000x12_S12x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def dot_S16000x5_S5x64_S16000x64_1_0_0_1_n_n : DotDims S16000x5 S5x64 S16000x64 where
  lhsContracting := [1]
  rhsContracting := [0]
  lhsNonContracting := [0]
  rhsNonContracting := [1]
  lhsBatch := []
  rhsBatch := []
  wf := dot_S16000x5_S5x64_S16000x64_1_0_0_1_n_n_wf
def dot_S16000x64_S64x32_S16000x32_1_0_0_1_n_n : DotDims S16000x64 S64x32 S16000x32 where
  lhsContracting := [1]
  rhsContracting := [0]
  lhsNonContracting := [0]
  rhsNonContracting := [1]
  lhsBatch := []
  rhsBatch := []
  wf := dot_S16000x64_S64x32_S16000x32_1_0_0_1_n_n_wf
def dot_S16000x32_S32x4_S16000x4_1_0_0_1_n_n : DotDims S16000x32 S32x4 S16000x4 where
  lhsContracting := [1]
  rhsContracting := [0]
  lhsNonContracting := [0]
  rhsNonContracting := [1]
  lhsBatch := []
  rhsBatch := []
  wf := dot_S16000x32_S32x4_S16000x4_1_0_0_1_n_n_wf

abbrev win0_0 : Pipeline.Window sig grid0 :=
  Pipeline.Window.ofSpec (Memref.whole main_arg0) S10000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S12x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S10000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v29) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v50) S16000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S16000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg2) S16000x5.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S5x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v64) S64x32.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v67) S1x32.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v65) S32x4.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v68) S1x4.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v69) S16000x4.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S50000x12 : Shape := ⟨2, ![50000, 12]⟩
abbrev S2x800000 : Shape := ⟨2, ![2, 800000]⟩
abbrev S800000x5 : Shape := ⟨2, ![800000, 5]⟩
abbrev S1x11 : Shape := ⟨2, ![1, 11]⟩
abbrev S23x64 : Shape := ⟨2, ![23, 64]⟩
abbrev S64 : Shape := ⟨1, ![64]⟩
abbrev S64x64 : Shape := ⟨2, ![64, 64]⟩
abbrev S133x64 : Shape := ⟨2, ![133, 64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S1x800000 : Shape := ⟨2, ![1, 800000]⟩
abbrev S800000 : Shape := ⟨1, ![800000]⟩
abbrev S50000x11 : Shape := ⟨2, ![50000, 11]⟩
abbrev S50000x23 : Shape := ⟨2, ![50000, 23]⟩
abbrev S50000x64 : Shape := ⟨2, ![50000, 64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S800000x1 : Shape := ⟨2, ![800000, 1]⟩
abbrev S800000x64 : Shape := ⟨2, ![800000, 64]⟩
abbrev S800000x133 : Shape := ⟨2, ![800000, 133]⟩
abbrev S800000x32 : Shape := ⟨2, ![800000, 32]⟩
abbrev S1x32 : Shape := ⟨2, ![1, 32]⟩
abbrev S800000x4 : Shape := ⟨2, ![800000, 4]⟩
abbrev S1x4 : Shape := ⟨2, ![1, 4]⟩

abbrev nBuf : Space → Nat
  | .hbm => 175
  | .vmem => 0
  | .smem => 0
  | _ => 0

abbrev hbmTy0_0 (i : Nat) : BufTy := match i % 128 with
  | 0 => ⟨S50000x12, .f32⟩
  | 1 => ⟨S2x800000, .i32⟩
  | 2 => ⟨S800000x5, .f32⟩
  | 3 => ⟨S1x11, .f32⟩
  | 4 => ⟨S23x64, .f32⟩
  | 5 => ⟨S64, .f32⟩
  | 6 => ⟨S64x64, .f32⟩
  | 7 => ⟨S64, .f32⟩
  | 8 => ⟨S133x64, .f32⟩
  | 9 => ⟨S64, .f32⟩
  | 10 => ⟨S64x32, .f32⟩
  | 11 => ⟨S32, .f32⟩
  | 12 => ⟨S32x4, .f32⟩
  | 13 => ⟨S4, .f32⟩
  | 14 => ⟨S1x800000, .i32⟩
  | 15 => ⟨S800000, .i32⟩
  | 16 => ⟨S1x800000, .i32⟩
  | 17 => ⟨S800000, .i32⟩
  | 18 => ⟨S50000x11, .f32⟩
  | 19 => ⟨S50000x23, .f32⟩
  | 20 => ⟨S50000x64, .f32⟩
  | 21 => ⟨S50000, .i32⟩
  | 22 => ⟨S850000, .i32⟩
  | 23 => ⟨S850000, .i32⟩
  | 24 => ⟨S_, .f32⟩
  | 25 => ⟨S850000, .f32⟩
  | 26 => ⟨S_, .f32⟩
  | 27 => ⟨S50000, .f32⟩
  | 28 => ⟨S850000x1, .i32⟩
  | 29 => ⟨S50000, .f32⟩
  | 30 => ⟨S_, .f32⟩
  | 31 => ⟨S50000, .f32⟩
  | 32 => ⟨S50000, .i1⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x64, .f32⟩
  | 66 => ⟨S850000x1, .f32⟩
  | 67 => ⟨S850000x64, .f32⟩
  | 68 => ⟨S850000x64, .f32⟩
  | 69 => ⟨S_, .f32⟩
  | 70 => ⟨S50000x64, .f32⟩
  | 71 => ⟨S850000x1, .i32⟩
  | 72 => ⟨S50000x64, .f32⟩
  | 73 => ⟨S1x64, .f32⟩
  | 74 => ⟨S50000x64, .f32⟩
  | 75 => ⟨S50000x64, .f32⟩
  | 76 => ⟨S_, .f32⟩
  | 77 => ⟨S50000x64, .f32⟩
  | 78 => ⟨S50000x64, .f32⟩
  | 79 => ⟨S50000x64, .f32⟩
  | 80 => ⟨S50000, .i32⟩
  | 81 => ⟨S850000, .i32⟩
  | 82 => ⟨S850000, .i32⟩
  | 83 => ⟨S_, .f32⟩
  | 84 => ⟨S850000, .f32⟩
  | 85 => ⟨S_, .f32⟩
  | 86 => ⟨S50000, .f32⟩
  | 87 => ⟨S850000x1, .i32⟩
  | 88 => ⟨S50000, .f32⟩
  | 89 => ⟨S_, .f32⟩
  | 90 => ⟨S50000, .f32⟩
  | 91 => ⟨S50000, .i1⟩
  | 92 => ⟨S50000, .f32⟩
  | 93 => ⟨S_, .f32⟩
  | 94 => ⟨S_, .f32⟩
  | 95 => ⟨S50000, .f32⟩
  | 96 => ⟨S50000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000, .f32⟩
  | 115 => ⟨S850000, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000x64, .f32⟩
  | 125 => ⟨S850000x1, .f32⟩
  | 126 => ⟨S850000x64, .f32⟩
  | 127 => ⟨S850000x64, .f32⟩
  | _ => ⟨S50000x12, .f32⟩

abbrev hbmTy0_1 (i : Nat) : BufTy := match i % 128 with
  | 0 => ⟨S_, .f32⟩
  | 1 => ⟨S50000x64, .f32⟩
  | 2 => ⟨S850000x1, .i32⟩
  | 3 => ⟨S50000x64, .f32⟩
  | 4 => ⟨S1x64, .f32⟩
  | 5 => ⟨S50000x64, .f32⟩
  | 6 => ⟨S50000x64, .f32⟩
  | 7 => ⟨S_, .f32⟩
  | 8 => ⟨S50000x64, .f32⟩
  | 9 => ⟨S50000x64, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x64, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x64, .f32⟩
  | 28 => ⟨S800000x133, .f32⟩
  | 29 => ⟨S800000x64, .f32⟩
  | 30 => ⟨S1x64, .f32⟩
  | 31 => ⟨S800000x64, .f32⟩
  | 32 => ⟨S800000x64, .f32⟩
  | 33 => ⟨S_, .f32⟩
  | 34 => ⟨S800000x64, .f32⟩
  | 35 => ⟨S800000x64, .f32⟩
  | 36 => ⟨S800000x32, .f32⟩
  | 37 => ⟨S1x32, .f32⟩
  | 38 => ⟨S800000x32, .f32⟩
  | 39 => ⟨S800000x32, .f32⟩
  | 40 => ⟨S_, .f32⟩
  | 41 => ⟨S800000x32, .f32⟩
  | 42 => ⟨S800000x32, .f32⟩
  | 43 => ⟨S800000x4, .f32⟩
  | 44 => ⟨S1x4, .f32⟩
  | 45 => ⟨S800000x4, .f32⟩
  | 46 => ⟨S800000x4, .f32⟩
  | _ => ⟨S50000x12, .f32⟩

abbrev hbmTy (i : Nat) : BufTy := match i / 128 with
  | 0 => hbmTy0_0 i
  | 1 => hbmTy0_1 i
  | _ => ⟨S50000x12, .f32⟩

abbrev bufTy : (tb : Table) → Fin (tcTables nBuf tb) → BufTy
  | .hbm, ⟨i, _⟩ => hbmTy i
  | _, _ => ⟨S50000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_call2_v0 : Ref sig .tc := ⟨.hbm, 94, rfl⟩
abbrev main_call2_v1 : Ref sig .tc := ⟨.hbm, 95, rfl⟩
abbrev main_v61 : Ref sig .tc := ⟨.hbm, 96, rfl⟩
abbrev main_c_13 : Ref sig .tc := ⟨.hbm, 97, rfl⟩
abbrev main_v62 : Ref sig .tc := ⟨.hbm, 98, rfl⟩
abbrev main_v63 : Ref sig .tc := ⟨.hbm, 99, rfl⟩
abbrev main_c_14 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_15 : Ref sig .tc := ⟨.hbm, 106, rfl⟩
abbrev main_v69 : Ref sig .tc := ⟨.hbm, 107, rfl⟩
abbrev main_v70 : Ref sig .tc := ⟨.hbm, 108, rfl⟩
abbrev main_c_16 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_17 : Ref sig .tc := ⟨.hbm, 116, rfl⟩
abbrev main_v77 : Ref sig .tc := ⟨.hbm, 117, rfl⟩
abbrev main_v78 : Ref sig .tc := ⟨.hbm, 118, rfl⟩
abbrev main_c_18 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_19 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_call3_cst : Ref sig .tc := ⟨.hbm, 135, rfl⟩
abbrev main_call3_v0 : Ref sig .tc := ⟨.hbm, 136, rfl⟩
abbrev main_v93 : Ref sig .tc := ⟨.hbm, 137, rfl⟩
abbrev main_c_20 : Ref sig .tc := ⟨.hbm, 138, rfl⟩
abbrev main_v94 : Ref sig .tc := ⟨.hbm, 139, rfl⟩
abbrev main_v95 : Ref sig .tc := ⟨.hbm, 140, rfl⟩
abbrev main_c_21 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_c_22 : Ref sig .tc := ⟨.hbm, 147, rfl⟩
abbrev main_v101 : Ref sig .tc := ⟨.hbm, 148, rfl⟩
abbrev main_v102 : Ref sig .tc := ⟨.hbm, 149, rfl⟩
abbrev main_c_23 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_call4_cst : Ref sig .tc := ⟨.hbm, 161, rfl⟩
abbrev main_call4_v0 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_call5_cst : Ref sig .tc := ⟨.hbm, 168, rfl⟩
abbrev main_call5_v0 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S1x11_S50000x11_0_1 : S1x11.BroadcastsInDim S50000x11 (![0, 1] : Fin 2 → Fin S50000x11.rank)
  concatenates_S50000x12_S50000x11_S50000x23_d1 : Shape.Concatenates [S50000x12, S50000x11] S50000x23 1
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x5_S800000x133_d1 : Shape.Concatenates [S800000x64, S800000x64, S800000x5] S800000x133 1
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S4_S1x4_1 : S4.BroadcastsInDim S1x4 (![1] : Fin 1 → Fin S1x4.rank)
  bcast_S1x4_S800000x4_0_1 : S1x4.BroadcastsInDim S800000x4 (![0, 1] : Fin 2 → Fin S800000x4.rank)
  dot_S50000x23_S23x64_S50000x64_1_0_0_1_n_n_wf : DotDims.WF S50000x23 S23x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  dot_S800000x133_S133x64_S800000x64_1_0_0_1_n_n_wf : DotDims.WF S800000x133 S133x64 S800000x64 [1] [0] [0] [1] [] []
  dot_S800000x64_S64x32_S800000x32_1_0_0_1_n_n_wf : DotDims.WF S800000x64 S64x32 S800000x32 [1] [0] [0] [1] [] []
  dot_S800000x32_S32x4_S800000x4_1_0_0_1_n_n_wf : DotDims.WF S800000x32 S32x4 S800000x4 [1] [0] [0] [1] [] []

variable [Facts₀]

def dot_S50000x23_S23x64_S50000x64_1_0_0_1_n_n : DotDims S50000x23 S23x64 S50000x64 where
  lhsContracting := [1]
  rhsContracting := [0]
  lhsNonContracting := [0]
  rhsNonContracting := [1]
  lhsBatch := []
  rhsBatch := []
  wf := dot_S50000x23_S23x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x133_S133x64_S800000x64_1_0_0_1_n_n : DotDims S800000x133 S133x64 S800000x64 where
  lhsContracting := [1]
  rhsContracting := [0]
  lhsNonContracting := [0]
  rhsNonContracting := [1]
  lhsBatch := []
  rhsBatch := []
  wf := dot_S800000x133_S133x64_S800000x64_1_0_0_1_n_n_wf
def dot_S800000x64_S64x32_S800000x32_1_0_0_1_n_n : DotDims S800000x64 S64x32 S800000x32 where
  lhsContracting := [1]
  rhsContracting := [0]
  lhsNonContracting := [0]
  rhsNonContracting := [1]
  lhsBatch := []
  rhsBatch := []
  wf := dot_S800000x64_S64x32_S800000x32_1_0_0_1_n_n_wf
def dot_S800000x32_S32x4_S800000x4_1_0_0_1_n_n : DotDims S800000x32 S32x4 S800000x4 where
  lhsContracting := [1]
  rhsContracting := [0]
  lhsNonContracting := [0]
  rhsNonContracting := [1]
  lhsBatch := []
  rhsBatch := []
  wf := dot_S800000x32_S32x4_S800000x4_1_0_0_1_n_n_wf

class Facts : Prop extends Facts₀ where

variable [Facts]
-- ==== Proof.KRun.lean ====
/-
  The run of the idealized kernel program with its RESULT named.

  The program is four pipelined regions among stretches of host operations.  Its frame run ends in a thread
  state that holds every unscoped buffer at the contents `W10`, the fold of the host stretches and of the
  regions' write-backs over the launch memory.  Reading the result buffer (and the fourteen argument buffers)
  off that last state gives: every weakly fair execution terminates, nothing faults, the result buffer ends at
  `W10` read at the result's reference, and the arguments end as launched.
-/
import proofs.«163663_j28123445854866_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents, and every argument buffer as launched. -/
theorem run_result : θ_run defs (onTc (τ := τ) (main (F := F))) ⟨m, fun _ => 0, ρ⟩ (fun r => ∀ c : Dev nD,
      r.2.mem ((c.tc : Thread nD τ).loc main_v69) = W10 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v69 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.KernelIdeal.KRun

end
-- ==== Proof.RefRun.lean ====
/-
  The reference program's run with its RESULT named.

  The reference is a straight line of 161 host operations.  Its contents after the run are the fold of the operations over
  the launch memory.  The line is cut into five stretches (the node features and the normaliser; the first aggregation and
  its relu; the second projection, aggregation and relu; the two endpoint gathers; the edge decoder), and the fold is read
  stretch by stretch: within a stretch each buffer is its operation's function of the buffers the stretch found, and those
  were read at the stretch before.  Composed, the result buffer holds the last stage's function of the fourteen arguments,
  `val_main_v122`, and the arguments end as launched.
-/
import proofs.«163663_j28123445854866_2_alg».proof.Proof.RefRead
import Idealize.ShloMosaic.Lib.StableHlo.Run
import Idealize.ShloMosaic.Lib.Pipeline.Frame

set_option maxRecDepth 16384

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-- The rewriting loop of the library's result lemmas, without its opening simplification: finishes the reads that a
    simplification pass leaves inside the pieces of a concatenation. -/
local macro "finish_results" : tactic =>
  `(tactic| repeat (first
               | rw [nullary_result] | rw [unary_result] | rw [binary_result] | rw [ternary_result] | rw [quaternary_result]
               | rw [reshape_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide)))

/-- Picking an entry of a literal three-element family. -/
theorem pick3_0 {α : Type} (a b d : α) : (![a, b, d] : Fin 3 → α) 0 = a := rfl
theorem pick3_1 {α : Type} (a b d : α) : (![a, b, d] : Fin 3 → α) 1 = b := rfl
theorem pick3_2 {α : Type} (a b d : α) : (![a, b, d] : Fin 3 → α) 2 = d := rfl

/-! ## The contents after each stretch -/

/-- After operations 1–24. -/
def B1 : Valuation τ sig (Elt F) := after ((ops (F := F)).take 24) (launchContents m c)
/-- After operations 25–65. -/
def B2 : Valuation τ sig (Elt F) := after (((ops (F := F)).take 65).drop 24) (B1 m c)
/-- After operations 66–124. -/
def B3 : Valuation τ sig (Elt F) := after (((ops (F := F)).take 124).drop 65) (B2 m c)
/-- After operations 125–142. -/
def B4 : Valuation τ sig (Elt F) := after (((ops (F := F)).take 142).drop 124) (B3 m c)

/-- The whole line is the five stretches one after the other. -/
theorem after_ops_eq : after (ops (F := F)) (launchContents m c) = after ((ops (F := F)).drop 142) (B4 m c) := by
  unfold B4 B3 B2 B1
  rw [← StableHlo.after_append, ← StableHlo.after_append, ← StableHlo.after_append, ← StableHlo.after_append]
  rfl

/-! ## The arguments are never written -/

/-- Every buffer the line writes, in order. -/
def written : List (Ref sig .tc) :=
  [main_v0, main_v1, main_v2, main_v3, main_v4, main_v5, main_v6, main_v7, main_v8, main_v9, main_cst, main_v10, main_cst_0, main_v11, main_v12, main_v13, main_cst_1, main_v14, main_v15, main_v16, main_cst_2, main_call0_v0, main_call0_v1, main_v17, main_c, main_v18, main_v19, main_c_3, main_v20, main_v21, main_v22, main_v23, main_v24, main_c_4, main_v25, main_v26, main_c_5, main_v27, main_v28, main_v29, main_v30, main_v31, main_v32, main_c_6, main_v33, main_v34, main_c_7, main_v35, main_v36, main_v37, main_v38, main_v39, main_v40, main_v41, main_v42, main_cst_8, main_v43, main_v44, main_v45, main_v46, main_v47, main_v48, main_call1_cst, main_call1_v0, main_v49, main_v50, main_v51, main_v52, main_v53, main_cst_9, main_v54, main_cst_10, main_v55, main_v56, main_v57, main_cst_11, main_v58, main_v59, main_v60, main_cst_12, main_call2_v0, main_call2_v1, main_v61, main_c_13, main_v62, main_v63, main_c_14, main_v64, main_v65, main_v66, main_v67, main_v68, main_c_15, main_v69, main_v70, main_c_16, main_v71, main_v72, main_v73, main_v74, main_v75, main_v76, main_c_17, main_v77, main_v78, main_c_18, main_v79, main_v80, main_v81, main_v82, main_v83, main_v84, main_v85, main_v86, main_cst_19, main_v87, main_v88, main_v89, main_v90, main_v91, main_v92, main_call3_cst, main_call3_v0, main_v93, main_c_20, main_v94, main_v95, main_c_21, main_v96, main_v97, main_v98, main_v99, main_v100, main_c_22, main_v101, main_v102, main_c_23, main_v103, main_v104, main_v105, main_v106, main_v107, main_v108, main_v109, main_v110, main_v111, main_v112, main_call4_cst, main_call4_v0, main_v113, main_v114, main_v115, main_v116, main_v117, main_call5_cst, main_call5_v0, main_v118, main_v119, main_v120, main_v121, main_v122]

/-- Each operation writes one buffer of that list. -/
theorem writes_sub : (ops (F := F)).Forall fun op => op.writes ⊆ (written.map (Proc.devRef (τ := τ) .tc)).toFinset := by
  simp only [ops, List.Forall, nullary_writes, unary_writes, binary_writes, ternary_writes, quaternary_writes, reshape_writes, nary_writes]
  repeat' apply And.intro
  all_goals exact Finset.singleton_subset_iff.mpr (List.mem_toFinset.mpr (List.mem_map.mpr ⟨_, by decide, rfl⟩))

/-- A buffer outside that list is left as it was by any stretch of the line. -/
theorem kept {r : Ref sig .tc} (hr : r ∉ written) (l : List (HloOp τ sig (Elt F))) (hl : ∀ op ∈ l, op ∈ ops (F := F))
    (V : Valuation τ sig (Elt F)) : after l V (Proc.devRef .tc r) = V (Proc.devRef .tc r) :=
  after_of_writes_sub l V
    (List.forall_iff_forall_mem.mpr fun op h => (List.forall_iff_forall_mem.mp (writes_sub (F := F))) op (hl op h)) hr

/-! ## Stretch 1: the index arrays, the first projection, the normaliser -/
set_option maxHeartbeats 4000000 in
theorem B1_v1 : B1 m c (Proc.devRef .tc main_v1) = val_main_v1 (F := F) (m ((c.tc : Thread nD τ).loc main_arg1)) := by
  unfold B1
  simp only [ops, List.take_succ_cons, List.take_zero, List.drop_succ_cons, List.drop_zero]
  after_results_simp
  try finish_results
  try rfl
set_option maxHeartbeats 4000000 in
theorem B1_v3 : B1 m c (Proc.devRef .tc main_v3) = val_main_v3 (F := F) (m ((c.tc : Thread nD τ).loc main_arg1)) := by
  unfold B1
  simp only [ops, List.take_succ_cons, List.take_zero, List.drop_succ_cons, List.drop_zero]
  after_results_simp
  try finish_results
  try rfl
set_option maxHeartbeats 4000000 in
theorem B1_v8 : B1 m c (Proc.devRef .tc main_v8) = val_main_v8 (F := F) (m ((c.tc : Thread nD τ).loc main_arg1)) := by
  unfold B1
  simp only [ops, List.take_succ_cons, List.take_zero, List.drop_succ_cons, List.drop_zero]
  after_results_simp
  try finish_results
  try rfl
set_option maxHeartbeats 4000000 in
theorem B1_v9 : B1 m c (Proc.devRef .tc main_v9) = val_main_v9 (F := F) (m ((c.tc : Thread nD τ).loc main_arg1)) := by
  unfold B1
  simp only [ops, List.take_succ_cons, List.take_zero, List.drop_succ_cons, List.drop_zero]
  after_results_simp
  try finish_results
  try rfl
set_option maxHeartbeats 4000000 in
theorem B1_v17 : B1 m c (Proc.devRef .tc main_v17) = val_main_v17 (F := F) (m ((c.tc : Thread nD τ).loc main_arg1)) := by
  unfold B1
  simp only [ops, List.take_succ_cons, List.take_zero, List.drop_succ_cons, List.drop_zero]
  after_results_simp
  try finish_results
  try rfl
set_option maxHeartbeats 4000000 in
theorem B1_v6 : B1 m c (Proc.devRef .tc main_v6) = val_main_v6 (F := F) (m ((c.tc : Thread nD τ).loc main_arg0)) (m ((c.tc : Thread nD τ).loc main_arg3)) (m ((c.tc : Thread nD τ).loc main_arg4)) := by
  unfold B1
  simp only [ops, List.take_succ_cons, List.take_zero, List.drop_succ_cons, List.drop_zero]
  after_results_simp
  try finish_results
  try rfl
theorem B1_arg2 : B1 m c (Proc.devRef .tc main_arg2) = m ((c.tc : Thread nD τ).loc main_arg2) :=
  (kept (by decide) _ (fun op h => List.mem_of_mem_take h) _).trans rfl
theorem B1_arg5 : B1 m c (Proc.devRef .tc main_arg5) = m ((c.tc : Thread nD τ).loc main_arg5) :=
  (kept (by decide) _ (fun op h => List.mem_of_mem_take h) _).trans rfl
theorem B1_arg6 : B1 m c (Proc.devRef .tc main_arg6) = m ((c.tc : Thread nD τ).loc main_arg6) :=
  (kept (by decide) _ (fun op h => List.mem_of_mem_take h) _).trans rfl
theorem B1_arg7 : B1 m c (Proc.devRef .tc main_arg7) = m ((c.tc : Thread nD τ).loc main_arg7) :=
  (kept (by decide) _ (fun op h => List.mem_of_mem_take h) _).trans rfl
theorem B1_arg8 : B1 m c (Proc.devRef .tc main_arg8) = m ((c.tc : Thread nD τ).loc main_arg8) :=
  (kept (by decide) _ (fun op h => List.mem_of_mem_take h) _).trans rfl
theorem B1_arg9 : B1 m c (Proc.devRef .tc main_arg9) = m ((c.tc : Thread nD τ).loc main_arg9) :=
  (kept (by decide) _ (fun op h => List.mem_of_mem_take h) _).trans rfl
theorem B1_arg10 : B1 m c (Proc.devRef .tc main_arg10) = m ((c.tc : Thread nD τ).loc main_arg10) :=
  (kept (by decide) _ (fun op h => List.mem_of_mem_take h) _).trans rfl
theorem B1_arg11 : B1 m c (Proc.devRef .tc main_arg11) = m ((c.tc : Thread nD τ).loc main_arg11) :=
  (kept (by decide) _ (fun op h => List.mem_of_mem_take h) _).trans rfl
theorem B1_arg12 : B1 m c (Proc.devRef .tc main_arg12) = m ((c.tc : Thread nD τ).loc main_arg12) :=
  (kept (by decide) _ (fun op h => List.mem_of_mem_take h) _).trans rfl
theorem B1_arg13 : B1 m c (Proc.devRef .tc main_arg13) = m ((c.tc : Thread nD τ).loc main_arg13) :=
  (kept (by decide) _ (fun op h => List.mem_of_mem_take h) _).trans rfl

/-! ## Stretch 2: the first aggregation and its relu -/
set_option maxHeartbeats 4000000 in
theorem B2_v49 : B2 m c (Proc.devRef .tc main_v49) = val_main_v49 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  unfold B2
  simp only [ops, List.take_succ_cons, List.take_zero, List.drop_succ_cons, List.drop_zero]
  after_results_simp
  try finish_results
  simp only [B1_v8 m c, B1_v9 m c, B1_v17 m c, B1_v6 m c, B1_arg5 m c]
  try rfl
set_option maxHeartbeats 4000000 in
theorem B2_v1 : B2 m c (Proc.devRef .tc main_v1) = val_main_v1 (F := F) (m ((c.tc : Thread nD τ).loc main_arg1)) := by
  unfold B2
  simp only [ops, List.take_succ_cons, List.take_zero, List.drop_succ_cons, List.drop_zero]
  after_results_simp
  try finish_results
  exact B1_v1 m c
set_option maxHeartbeats 4000000 in
theorem B2_v3 : B2 m c (Proc.devRef .tc main_v3) = val_main_v3 (F := F) (m ((c.tc : Thread nD τ).loc main_arg1)) := by
  unfold B2
  simp only [ops, List.take_succ_cons, List.take_zero, List.drop_succ_cons, List.drop_zero]
  after_results_simp
  try finish_results
  exact B1_v3 m c
theorem B2_arg2 : B2 m c (Proc.devRef .tc main_arg2) = m ((c.tc : Thread nD τ).loc main_arg2) :=
  (kept (by decide) _ (fun op h => List.mem_of_mem_take (List.mem_of_mem_drop h)) _).trans (B1_arg2 m c)
theorem B2_arg6 : B2 m c (Proc.devRef .tc main_arg6) = m ((c.tc : Thread nD τ).loc main_arg6) :=
  (kept (by decide) _ (fun op h => List.mem_of_mem_take (List.mem_of_mem_drop h)) _).trans (B1_arg6 m c)
theorem B2_arg7 : B2 m c (Proc.devRef .tc main_arg7) = m ((c.tc : Thread nD τ).loc main_arg7) :=
  (kept (by decide) _ (fun op h => List.mem_of_mem_take (List.mem_of_mem_drop h)) _).trans (B1_arg7 m c)
theorem B2_arg8 : B2 m c (Proc.devRef .tc main_arg8) = m ((c.tc : Thread nD τ).loc main_arg8) :=
  (kept (by decide) _ (fun op h => List.mem_of_mem_take (List.mem_of_mem_drop h)) _).trans (B1_arg8 m c)
theorem B2_arg9 : B2 m c (Proc.devRef .tc main_arg9) = m ((c.tc : Thread nD τ).loc main_arg9) :=
  (kept (by decide) _ (fun op h => List.mem_of_mem_take (List.mem_of_mem_drop h)) _).trans (B1_arg9 m c)
theorem B2_arg10 : B2 m c (Proc.devRef .tc main_arg10) = m ((c.tc : Thread nD τ).loc main_arg10) :=
  (kept (by decide) _ (fun op h => List.mem_of_mem_take (List.mem_of_mem_drop h)) _).trans (B1_arg10 m c)
theorem B2_arg11 : B2 m c (Proc.devRef .tc main_arg11) = m ((c.tc : Thread nD τ).loc main_arg11) :=
  (kept (by decide) _ (fun op h => List.mem_of_mem_take (List.mem_of_mem_drop h)) _).trans (B1_arg11 m c)
theorem B2_arg12 : B2 m c (Proc.devRef .tc main_arg12) = m ((c.tc : Thread nD τ).loc main_arg12) :=
  (kept (by decide) _ (fun op h => List.mem_of_mem_take (List.mem_of_mem_drop h)) _).trans (B1_arg12 m c)
theorem B2_arg13 : B2 m c (Proc.devRef .tc main_arg13) = m ((c.tc : Thread nD τ).loc main_arg13) :=
  (kept (by decide) _ (fun op h => List.mem_of_mem_take (List.mem_of_mem_drop h)) _).trans (B1_arg13 m c)

/-! ## Stretch 3: the second projection, aggregation and relu -/
set_option maxHeartbeats 4000000 in
theorem B3_v93 : B3 m c (Proc.devRef .tc main_v93) = val_main_v93 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold B3
  simp only [ops, List.take_succ_cons, List.take_zero, List.drop_succ_cons, List.drop_zero]
  after_results_simp
  try finish_results
  rw [B2_v1 m c, B2_v3 m c]
  simp only [B2_v49 m c, B2_arg6 m c, B2_arg7 m c]
  try rfl
set_option maxHeartbeats 4000000 in
theorem B3_v1 : B3 m c (Proc.devRef .tc main_v1) = val_main_v1 (F := F) (m ((c.tc : Thread nD τ).loc main_arg1)) := by
  unfold B3
  simp only [ops, List.take_succ_cons, List.take_zero, List.drop_succ_cons, List.drop_zero]
  after_results_simp
  try finish_results
  exact B2_v1 m c
set_option maxHeartbeats 4000000 in
theorem B3_v3 : B3 m c (Proc.devRef .tc main_v3) = val_main_v3 (F := F) (m ((c.tc : Thread nD τ).loc main_arg1)) := by
  unfold B3
  simp only [ops, List.take_succ_cons, List.take_zero, List.drop_succ_cons, List.drop_zero]
  after_results_simp
  try finish_results
  exact B2_v3 m c
theorem B3_arg2 : B3 m c (Proc.devRef .tc main_arg2) = m ((c.tc : Thread nD τ).loc main_arg2) :=
  (kept (by decide) _ (fun op h => List.mem_of_mem_take (List.mem_of_mem_drop h)) _).trans (B2_arg2 m c)
theorem B3_arg8 : B3 m c (Proc.devRef .tc main_arg8) = m ((c.tc : Thread nD τ).loc main_arg8) :=
  (kept (by decide) _ (fun op h => List.mem_of_mem_take (List.mem_of_mem_drop h)) _).trans (B2_arg8 m c)
theorem B3_arg9 : B3 m c (Proc.devRef .tc main_arg9) = m ((c.tc : Thread nD τ).loc main_arg9) :=
  (kept (by decide) _ (fun op h => List.mem_of_mem_take (List.mem_of_mem_drop h)) _).trans (B2_arg9 m c)
theorem B3_arg10 : B3 m c (Proc.devRef .tc main_arg10) = m ((c.tc : Thread nD τ).loc main_arg10) :=
  (kept (by decide) _ (fun op h => List.mem_of_mem_take (List.mem_of_mem_drop h)) _).trans (B2_arg10 m c)
theorem B3_arg11 : B3 m c (Proc.devRef .tc main_arg11) = m ((c.tc : Thread nD τ).loc main_arg11) :=
  (kept (by decide) _ (fun op h => List.mem_of_mem_take (List.mem_of_mem_drop h)) _).trans (B2_arg11 m c)
theorem B3_arg12 : B3 m c (Proc.devRef .tc main_arg12) = m ((c.tc : Thread nD τ).loc main_arg12) :=
  (kept (by decide) _ (fun op h => List.mem_of_mem_take (List.mem_of_mem_drop h)) _).trans (B2_arg12 m c)
theorem B3_arg13 : B3 m c (Proc.devRef .tc main_arg13) = m ((c.tc : Thread nD τ).loc main_arg13) :=
  (kept (by decide) _ (fun op h => List.mem_of_mem_take (List.mem_of_mem_drop h)) _).trans (B2_arg13 m c)

/-! ## Stretch 4: the rows of the node array at each edge's two endpoints -/
set_option maxHeartbeats 4000000 in
theorem B4_v100 : B4 m c (Proc.devRef .tc main_v100) = val_main_v100 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold B4
  simp only [ops, List.take_succ_cons, List.take_zero, List.drop_succ_cons, List.drop_zero]
  after_results_simp
  try finish_results
  simp only [B3_v93 m c, B3_v1 m c, B3_v3 m c]
  try rfl
set_option maxHeartbeats 4000000 in
theorem B4_v107 : B4 m c (Proc.devRef .tc main_v107) = val_main_v107 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold B4
  simp only [ops, List.take_succ_cons, List.take_zero, List.drop_succ_cons, List.drop_zero]
  after_results_simp
  try finish_results
  simp only [B3_v93 m c, B3_v1 m c, B3_v3 m c]
  try rfl
theorem B4_arg2 : B4 m c (Proc.devRef .tc main_arg2) = m ((c.tc : Thread nD τ).loc main_arg2) :=
  (kept (by decide) _ (fun op h => List.mem_of_mem_take (List.mem_of_mem_drop h)) _).trans (B3_arg2 m c)
theorem B4_arg8 : B4 m c (Proc.devRef .tc main_arg8) = m ((c.tc : Thread nD τ).loc main_arg8) :=
  (kept (by decide) _ (fun op h => List.mem_of_mem_take (List.mem_of_mem_drop h)) _).trans (B3_arg8 m c)
theorem B4_arg9 : B4 m c (Proc.devRef .tc main_arg9) = m ((c.tc : Thread nD τ).loc main_arg9) :=
  (kept (by decide) _ (fun op h => List.mem_of_mem_take (List.mem_of_mem_drop h)) _).trans (B3_arg9 m c)
theorem B4_arg10 : B4 m c (Proc.devRef .tc main_arg10) = m ((c.tc : Thread nD τ).loc main_arg10) :=
  (kept (by decide) _ (fun op h => List.mem_of_mem_take (List.mem_of_mem_drop h)) _).trans (B3_arg10 m c)
theorem B4_arg11 : B4 m c (Proc.devRef .tc main_arg11) = m ((c.tc : Thread nD τ).loc main_arg11) :=
  (kept (by decide) _ (fun op h => List.mem_of_mem_take (List.mem_of_mem_drop h)) _).trans (B3_arg11 m c)
theorem B4_arg12 : B4 m c (Proc.devRef .tc main_arg12) = m ((c.tc : Thread nD τ).loc main_arg12) :=
  (kept (by decide) _ (fun op h => List.mem_of_mem_take (List.mem_of_mem_drop h)) _).trans (B3_arg12 m c)
theorem B4_arg13 : B4 m c (Proc.devRef .tc main_arg13) = m ((c.tc : Thread nD τ).loc main_arg13) :=
  (kept (by decide) _ (fun op h => List.mem_of_mem_take (List.mem_of_mem_drop h)) _).trans (B3_arg13 m c)

/-! ## Stretch 5: the decoder, and the run -/

set_option maxHeartbeats 4000000 in
/-- The result buffer after the whole line is the last stage's function of the arguments. -/
theorem result_eq : after (ops (F := F)) (launchContents m c) (Proc.devRef .tc main_v122) = val_main_v122 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_ops_eq m c]
  simp only [ops, List.take_succ_cons, List.take_zero, List.drop_succ_cons, List.drop_zero]
  after_results_simp
  dsimp only [pick3_0, pick3_1, pick3_2]
  rw [B4_v100 m c, B4_v107 m c, B4_arg2 m c]
  simp only [B4_arg8 m c, B4_arg9 m c, B4_arg10 m c, B4_arg11 m c, B4_arg12 m c, B4_arg13 m c]
  rfl

set_option maxRecDepth 8192 in
set_option maxHeartbeats 64400000 in
/-- Every weakly fair execution of the reference terminates without a fault, the result at `val_main_v122` of the arguments,
    the arguments as launched. -/
theorem run (ρ : Dev nD → PrngReg) :
    θ_run defs (onTc (τ := τ) (main (F := F))) ⟨m, fun _ => 0, ρ⟩ fun r => ∀ c : Dev nD,
      r.2.mem ((c.tc : Thread nD τ).loc main_v122) = val_main_v122 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v122).trans (result_eq m c),
      (h c main_arg0).trans (kept (by decide) _ (fun _ h => h) _),
      (h c main_arg1).trans (kept (by decide) _ (fun _ h => h) _),
      (h c main_arg2).trans (kept (by decide) _ (fun _ h => h) _),
      (h c main_arg3).trans (kept (by decide) _ (fun _ h => h) _),
      (h c main_arg4).trans (kept (by decide) _ (fun _ h => h) _),
      (h c main_arg5).trans (kept (by decide) _ (fun _ h => h) _),
      (h c main_arg6).trans (kept (by decide) _ (fun _ h => h) _),
      (h c main_arg7).trans (kept (by decide) _ (fun _ h => h) _),
      (h c main_arg8).trans (kept (by decide) _ (fun _ h => h) _),
      (h c main_arg9).trans (kept (by decide) _ (fun _ h => h) _),
      (h c main_arg10).trans (kept (by decide) _ (fun _ h => h) _),
      (h c main_arg11).trans (kept (by decide) _ (fun _ h => h) _),
      (h c main_arg12).trans (kept (by decide) _ (fun _ h => h) _),
      (h c main_arg13).trans (kept (by decide) _ (fun _ h => h) _)⟩)
    (run_after m ρ)

end Cert.ReferenceIdeal.RefRun

end
-- ==== Proof.KPersist.lean ====
/-
  Buffers that no later host operation and no region's write-back changes.

  The program's buffer contents at each boundary between a stretch of host operations and a pipelined region are a fold
  over the launch memory.  The index arrays (sources, destinations, their self-loop extensions), the normaliser column and
  the argument arrays are written once, before the first region, and are afterwards only read: an input window's array is
  left as it was found, a buffer that is no array of a region is untouched by it, and a stretch of host operations leaves
  every buffer it does not write.  So each of them reads, at every later boundary, what it read on entry to the first region.
-/
import proofs.«163663_j28123445854866_2_alg».proof.Proof.Gen.KernelIdeal.Frame

set_option maxRecDepth 16384

noncomputable section

namespace Cert.KernelIdeal.KPersist

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-! ## From each later boundary back to the first region's entry -/

theorem W4_main_v15 (c : Dev nD) : W4 m ρ c (Proc.devRef .tc main_v15) = W3 m ρ c (Proc.devRef .tc main_v15) :=
  ((W4_arr m ρ c 3).trans (((dat0 (V3 m ρ) c).arrAt_in 3 rfl _).trans (A_eq0 (V3 m ρ) c 3)))
theorem W5_main_v15 (c : Dev nD) : W5 m ρ c (Proc.devRef .tc main_v15) = W3 m ρ c (Proc.devRef .tc main_v15) :=
  (StableHlo.after_of_forall_not_mem (b := Proc.devRef .tc main_v15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_v15 m ρ c)
theorem W6_main_v15 (c : Dev nD) : W6 m ρ c (Proc.devRef .tc main_v15) = W3 m ρ c (Proc.devRef .tc main_v15) :=
  ((W6_arr m ρ c 1).trans (((dat1 (V5 m ρ) c).arrAt_in 1 rfl _).trans (A_eq1 (V5 m ρ) c 1))).trans (W5_main_v15 m ρ c)
theorem W7_main_v15 (c : Dev nD) : W7 m ρ c (Proc.devRef .tc main_v15) = W3 m ρ c (Proc.devRef .tc main_v15) :=
  (StableHlo.after_of_forall_not_mem (b := Proc.devRef .tc main_v15) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_main_v15 m ρ c)

theorem W4_main_v5 (c : Dev nD) : W4 m ρ c (Proc.devRef .tc main_v5) = W3 m ρ c (Proc.devRef .tc main_v5) :=
  (W4_of_ne m ρ c main_v5 (by decide))
theorem W5_main_v5 (c : Dev nD) : W5 m ρ c (Proc.devRef .tc main_v5) = W3 m ρ c (Proc.devRef .tc main_v5) :=
  (StableHlo.after_of_forall_not_mem (b := Proc.devRef .tc main_v5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_v5 m ρ c)
theorem W6_main_v5 (c : Dev nD) : W6 m ρ c (Proc.devRef .tc main_v5) = W3 m ρ c (Proc.devRef .tc main_v5) :=
  (W6_of_ne m ρ c main_v5 (by decide)).trans (W5_main_v5 m ρ c)

theorem W4_main_v6 (c : Dev nD) : W4 m ρ c (Proc.devRef .tc main_v6) = W3 m ρ c (Proc.devRef .tc main_v6) :=
  (W4_of_ne m ρ c main_v6 (by decide))
theorem W5_main_v6 (c : Dev nD) : W5 m ρ c (Proc.devRef .tc main_v6) = W3 m ρ c (Proc.devRef .tc main_v6) :=
  (StableHlo.after_of_forall_not_mem (b := Proc.devRef .tc main_v6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_v6 m ρ c)
theorem W6_main_v6 (c : Dev nD) : W6 m ρ c (Proc.devRef .tc main_v6) = W3 m ρ c (Proc.devRef .tc main_v6) :=
  (W6_of_ne m ρ c main_v6 (by decide)).trans (W5_main_v6 m ρ c)

theorem W4_main_v1 (c : Dev nD) : W4 m ρ c (Proc.devRef .tc main_v1) = W3 m ρ c (Proc.devRef .tc main_v1) :=
  (W4_of_ne m ρ c main_v1 (by decide))
theorem W5_main_v1 (c : Dev nD) : W5 m ρ c (Proc.devRef .tc main_v1) = W3 m ρ c (Proc.devRef .tc main_v1) :=
  (StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_v1 m ρ c)
theorem W6_main_v1 (c : Dev nD) : W6 m ρ c (Proc.devRef .tc main_v1) = W3 m ρ c (Proc.devRef .tc main_v1) :=
  (W6_of_ne m ρ c main_v1 (by decide)).trans (W5_main_v1 m ρ c)
theorem W7_main_v1 (c : Dev nD) : W7 m ρ c (Proc.devRef .tc main_v1) = W3 m ρ c (Proc.devRef .tc main_v1) :=
  (StableHlo.after_of_forall_not_mem (b := Proc.devRef .tc main_v1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_main_v1 m ρ c)
theorem W8_main_v1 (c : Dev nD) : W8 m ρ c (Proc.devRef .tc main_v1) = W3 m ρ c (Proc.devRef .tc main_v1) :=
  (W8_of_ne m ρ c main_v1 (by decide)).trans (W7_main_v1 m ρ c)

theorem W4_main_v3 (c : Dev nD) : W4 m ρ c (Proc.devRef .tc main_v3) = W3 m ρ c (Proc.devRef .tc main_v3) :=
  (W4_of_ne m ρ c main_v3 (by decide))
theorem W5_main_v3 (c : Dev nD) : W5 m ρ c (Proc.devRef .tc main_v3) = W3 m ρ c (Proc.devRef .tc main_v3) :=
  (StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_v3 m ρ c)
theorem W6_main_v3 (c : Dev nD) : W6 m ρ c (Proc.devRef .tc main_v3) = W3 m ρ c (Proc.devRef .tc main_v3) :=
  (W6_of_ne m ρ c main_v3 (by decide)).trans (W5_main_v3 m ρ c)
theorem W7_main_v3 (c : Dev nD) : W7 m ρ c (Proc.devRef .tc main_v3) = W3 m ρ c (Proc.devRef .tc main_v3) :=
  (StableHlo.after_of_forall_not_mem (b := Proc.devRef .tc main_v3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_main_v3 m ρ c)
theorem W8_main_v3 (c : Dev nD) : W8 m ρ c (Proc.devRef .tc main_v3) = W3 m ρ c (Proc.devRef .tc main_v3) :=
  (W8_of_ne m ρ c main_v3 (by decide)).trans (W7_main_v3 m ρ c)

theorem W4_main_arg5 (c : Dev nD) : W4 m ρ c (Proc.devRef .tc main_arg5) = W3 m ρ c (Proc.devRef .tc main_arg5) :=
  (W4_of_ne m ρ c main_arg5 (by decide))

theorem W4_main_arg6 (c : Dev nD) : W4 m ρ c (Proc.devRef .tc main_arg6) = W3 m ρ c (Proc.devRef .tc main_arg6) :=
  (W4_of_ne m ρ c main_arg6 (by decide))
theorem W5_main_arg6 (c : Dev nD) : W5 m ρ c (Proc.devRef .tc main_arg6) = W3 m ρ c (Proc.devRef .tc main_arg6) :=
  (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_arg6 m ρ c)

theorem W4_main_arg7 (c : Dev nD) : W4 m ρ c (Proc.devRef .tc main_arg7) = W3 m ρ c (Proc.devRef .tc main_arg7) :=
  (W4_of_ne m ρ c main_arg7 (by decide))
theorem W5_main_arg7 (c : Dev nD) : W5 m ρ c (Proc.devRef .tc main_arg7) = W3 m ρ c (Proc.devRef .tc main_arg7) :=
  (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_arg7 m ρ c)
theorem W6_main_arg7 (c : Dev nD) : W6 m ρ c (Proc.devRef .tc main_arg7) = W3 m ρ c (Proc.devRef .tc main_arg7) :=
  (W6_of_ne m ρ c main_arg7 (by decide)).trans (W5_main_arg7 m ρ c)

theorem W4_main_arg2 (c : Dev nD) : W4 m ρ c (Proc.devRef .tc main_arg2) = W3 m ρ c (Proc.devRef .tc main_arg2) :=
  (W4_of_ne m ρ c main_arg2 (by decide))
theorem W5_main_arg2 (c : Dev nD) : W5 m ρ c (Proc.devRef .tc main_arg2) = W3 m ρ c (Proc.devRef .tc main_arg2) :=
  (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_arg2 m ρ c)
theorem W6_main_arg2 (c : Dev nD) : W6 m ρ c (Proc.devRef .tc main_arg2) = W3 m ρ c (Proc.devRef .tc main_arg2) :=
  (W6_of_ne m ρ c main_arg2 (by decide)).trans (W5_main_arg2 m ρ c)
theorem W7_main_arg2 (c : Dev nD) : W7 m ρ c (Proc.devRef .tc main_arg2) = W3 m ρ c (Proc.devRef .tc main_arg2) :=
  (StableHlo.after_of_forall_not_mem (b := Proc.devRef .tc main_arg2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_main_arg2 m ρ c)
theorem W8_main_arg2 (c : Dev nD) : W8 m ρ c (Proc.devRef .tc main_arg2) = W3 m ρ c (Proc.devRef .tc main_arg2) :=
  (W8_of_ne m ρ c main_arg2 (by decide)).trans (W7_main_arg2 m ρ c)
theorem W9_main_arg2 (c : Dev nD) : W9 m ρ c (Proc.devRef .tc main_arg2) = W3 m ρ c (Proc.devRef .tc main_arg2) :=
  (StableHlo.after_of_forall_not_mem (b := Proc.devRef .tc main_arg2) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_main_arg2 m ρ c)

theorem W4_main_arg8 (c : Dev nD) : W4 m ρ c (Proc.devRef .tc main_arg8) = W3 m ρ c (Proc.devRef .tc main_arg8) :=
  (W4_of_ne m ρ c main_arg8 (by decide))
theorem W5_main_arg8 (c : Dev nD) : W5 m ρ c (Proc.devRef .tc main_arg8) = W3 m ρ c (Proc.devRef .tc main_arg8) :=
  (StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_arg8 m ρ c)
theorem W6_main_arg8 (c : Dev nD) : W6 m ρ c (Proc.devRef .tc main_arg8) = W3 m ρ c (Proc.devRef .tc main_arg8) :=
  (W6_of_ne m ρ c main_arg8 (by decide)).trans (W5_main_arg8 m ρ c)
theorem W7_main_arg8 (c : Dev nD) : W7 m ρ c (Proc.devRef .tc main_arg8) = W3 m ρ c (Proc.devRef .tc main_arg8) :=
  (StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_main_arg8 m ρ c)
theorem W8_main_arg8 (c : Dev nD) : W8 m ρ c (Proc.devRef .tc main_arg8) = W3 m ρ c (Proc.devRef .tc main_arg8) :=
  (W8_of_ne m ρ c main_arg8 (by decide)).trans (W7_main_arg8 m ρ c)

theorem W4_main_arg9 (c : Dev nD) : W4 m ρ c (Proc.devRef .tc main_arg9) = W3 m ρ c (Proc.devRef .tc main_arg9) :=
  (W4_of_ne m ρ c main_arg9 (by decide))
theorem W5_main_arg9 (c : Dev nD) : W5 m ρ c (Proc.devRef .tc main_arg9) = W3 m ρ c (Proc.devRef .tc main_arg9) :=
  (StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_arg9 m ρ c)
theorem W6_main_arg9 (c : Dev nD) : W6 m ρ c (Proc.devRef .tc main_arg9) = W3 m ρ c (Proc.devRef .tc main_arg9) :=
  (W6_of_ne m ρ c main_arg9 (by decide)).trans (W5_main_arg9 m ρ c)
theorem W7_main_arg9 (c : Dev nD) : W7 m ρ c (Proc.devRef .tc main_arg9) = W3 m ρ c (Proc.devRef .tc main_arg9) :=
  (StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_main_arg9 m ρ c)
theorem W8_main_arg9 (c : Dev nD) : W8 m ρ c (Proc.devRef .tc main_arg9) = W3 m ρ c (Proc.devRef .tc main_arg9) :=
  (W8_of_ne m ρ c main_arg9 (by decide)).trans (W7_main_arg9 m ρ c)

theorem W4_main_arg10 (c : Dev nD) : W4 m ρ c (Proc.devRef .tc main_arg10) = W3 m ρ c (Proc.devRef .tc main_arg10) :=
  (W4_of_ne m ρ c main_arg10 (by decide))
theorem W5_main_arg10 (c : Dev nD) : W5 m ρ c (Proc.devRef .tc main_arg10) = W3 m ρ c (Proc.devRef .tc main_arg10) :=
  (StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_arg10 m ρ c)
theorem W6_main_arg10 (c : Dev nD) : W6 m ρ c (Proc.devRef .tc main_arg10) = W3 m ρ c (Proc.devRef .tc main_arg10) :=
  (W6_of_ne m ρ c main_arg10 (by decide)).trans (W5_main_arg10 m ρ c)
theorem W7_main_arg10 (c : Dev nD) : W7 m ρ c (Proc.devRef .tc main_arg10) = W3 m ρ c (Proc.devRef .tc main_arg10) :=
  (StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_main_arg10 m ρ c)
theorem W8_main_arg10 (c : Dev nD) : W8 m ρ c (Proc.devRef .tc main_arg10) = W3 m ρ c (Proc.devRef .tc main_arg10) :=
  (W8_of_ne m ρ c main_arg10 (by decide)).trans (W7_main_arg10 m ρ c)

theorem W4_main_arg11 (c : Dev nD) : W4 m ρ c (Proc.devRef .tc main_arg11) = W3 m ρ c (Proc.devRef .tc main_arg11) :=
  (W4_of_ne m ρ c main_arg11 (by decide))
theorem W5_main_arg11 (c : Dev nD) : W5 m ρ c (Proc.devRef .tc main_arg11) = W3 m ρ c (Proc.devRef .tc main_arg11) :=
  (StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_arg11 m ρ c)
theorem W6_main_arg11 (c : Dev nD) : W6 m ρ c (Proc.devRef .tc main_arg11) = W3 m ρ c (Proc.devRef .tc main_arg11) :=
  (W6_of_ne m ρ c main_arg11 (by decide)).trans (W5_main_arg11 m ρ c)
theorem W7_main_arg11 (c : Dev nD) : W7 m ρ c (Proc.devRef .tc main_arg11) = W3 m ρ c (Proc.devRef .tc main_arg11) :=
  (StableHlo.after_of_forall_not_mem (b := Proc.devRef .tc main_arg11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_main_arg11 m ρ c)
theorem W8_main_arg11 (c : Dev nD) : W8 m ρ c (Proc.devRef .tc main_arg11) = W3 m ρ c (Proc.devRef .tc main_arg11) :=
  (W8_of_ne m ρ c main_arg11 (by decide)).trans (W7_main_arg11 m ρ c)

theorem W4_main_arg12 (c : Dev nD) : W4 m ρ c (Proc.devRef .tc main_arg12) = W3 m ρ c (Proc.devRef .tc main_arg12) :=
  (W4_of_ne m ρ c main_arg12 (by decide))
theorem W5_main_arg12 (c : Dev nD) : W5 m ρ c (Proc.devRef .tc main_arg12) = W3 m ρ c (Proc.devRef .tc main_arg12) :=
  (StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_arg12 m ρ c)
theorem W6_main_arg12 (c : Dev nD) : W6 m ρ c (Proc.devRef .tc main_arg12) = W3 m ρ c (Proc.devRef .tc main_arg12) :=
  (W6_of_ne m ρ c main_arg12 (by decide)).trans (W5_main_arg12 m ρ c)
theorem W7_main_arg12 (c : Dev nD) : W7 m ρ c (Proc.devRef .tc main_arg12) = W3 m ρ c (Proc.devRef .tc main_arg12) :=
  (StableHlo.after_of_forall_not_mem (b := Proc.devRef .tc main_arg12) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_main_arg12 m ρ c)
theorem W8_main_arg12 (c : Dev nD) : W8 m ρ c (Proc.devRef .tc main_arg12) = W3 m ρ c (Proc.devRef .tc main_arg12) :=
  (W8_of_ne m ρ c main_arg12 (by decide)).trans (W7_main_arg12 m ρ c)

theorem W4_main_arg13 (c : Dev nD) : W4 m ρ c (Proc.devRef .tc main_arg13) = W3 m ρ c (Proc.devRef .tc main_arg13) :=
  (W4_of_ne m ρ c main_arg13 (by decide))
theorem W5_main_arg13 (c : Dev nD) : W5 m ρ c (Proc.devRef .tc main_arg13) = W3 m ρ c (Proc.devRef .tc main_arg13) :=
  (StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_arg13 m ρ c)
theorem W6_main_arg13 (c : Dev nD) : W6 m ρ c (Proc.devRef .tc main_arg13) = W3 m ρ c (Proc.devRef .tc main_arg13) :=
  (W6_of_ne m ρ c main_arg13 (by decide)).trans (W5_main_arg13 m ρ c)
theorem W7_main_arg13 (c : Dev nD) : W7 m ρ c (Proc.devRef .tc main_arg13) = W3 m ρ c (Proc.devRef .tc main_arg13) :=
  (StableHlo.after_of_forall_not_mem (b := Proc.devRef .tc main_arg13) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_main_arg13 m ρ c)
theorem W8_main_arg13 (c : Dev nD) : W8 m ρ c (Proc.devRef .tc main_arg13) = W3 m ρ c (Proc.devRef .tc main_arg13) :=
  (W8_of_ne m ρ c main_arg13 (by decide)).trans (W7_main_arg13 m ρ c)

/-! ## The arguments on entry to the first region are the launch memory's -/

theorem W3_main_arg0 (c : Dev nD) : W3 m ρ c (Proc.devRef .tc main_arg0) = m ((c : Thread nD τ).loc main_arg0) :=
  (StableHlo.after_of_forall_not_mem (b := Proc.devRef .tc main_arg0) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg0) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))
theorem W3_main_arg2 (c : Dev nD) : W3 m ρ c (Proc.devRef .tc main_arg2) = m ((c : Thread nD τ).loc main_arg2) :=
  (StableHlo.after_of_forall_not_mem (b := Proc.devRef .tc main_arg2) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg2) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))
theorem W3_main_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg3) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))
theorem W3_main_arg4 (c : Dev nD) : W3 m ρ c (Proc.devRef .tc main_arg4) = m ((c : Thread nD τ).loc main_arg4) :=
  (StableHlo.after_of_forall_not_mem (b := Proc.devRef .tc main_arg4) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg4) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))
theorem W3_main_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg5) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))
theorem W3_main_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg6) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))
theorem W3_main_arg7 (c : Dev nD) : W3 m ρ c (Proc.devRef .tc main_arg7) = m ((c : Thread nD τ).loc main_arg7) :=
  (StableHlo.after_of_forall_not_mem (b := Proc.devRef .tc main_arg7) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg7) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))
theorem W3_main_arg8 (c : Dev nD) : W3 m ρ c (Proc.devRef .tc main_arg8) = m ((c : Thread nD τ).loc main_arg8) :=
  (StableHlo.after_of_forall_not_mem (b := Proc.devRef .tc main_arg8) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg8) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))
theorem W3_main_arg9 (c : Dev nD) : W3 m ρ c (Proc.devRef .tc main_arg9) = m ((c : Thread nD τ).loc main_arg9) :=
  (StableHlo.after_of_forall_not_mem (b := Proc.devRef .tc main_arg9) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg9) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))
theorem W3_main_arg10 (c : Dev nD) : W3 m ρ c (Proc.devRef .tc main_arg10) = m ((c : Thread nD τ).loc main_arg10) :=
  (StableHlo.after_of_forall_not_mem (b := Proc.devRef .tc main_arg10) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg10) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))
theorem W3_main_arg11 (c : Dev nD) : W3 m ρ c (Proc.devRef .tc main_arg11) = m ((c : Thread nD τ).loc main_arg11) :=
  (StableHlo.after_of_forall_not_mem (b := Proc.devRef .tc main_arg11) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg11) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))
theorem W3_main_arg12 (c : Dev nD) : W3 m ρ c (Proc.devRef .tc main_arg12) = m ((c : Thread nD τ).loc main_arg12) :=
  (StableHlo.after_of_forall_not_mem (b := Proc.devRef .tc main_arg12) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg12) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))
theorem W3_main_arg13 (c : Dev nD) : W3 m ρ c (Proc.devRef .tc main_arg13) = m ((c : Thread nD τ).loc main_arg13) :=
  (StableHlo.after_of_forall_not_mem (b := Proc.devRef .tc main_arg13) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg13) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((StableHlo.after_of_forall_not_mem (b := Proc.devRef .tc main_arg13) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))

end Cert.KernelIdeal.KPersist

end
-- ==== Proof.Region012Spec.lean ====
import Idealize.ShloMosaic.Lib.ValueIdx
import Idealize.ShloMosaic.PureOps.Ideal.Laws

/-! # What the three node-level kernels compute, entry by entry

A graph of 50000 nodes with 64 hidden features. Over the extended reals, at node `n` and feature `f`:

* the first kernel projects the 12 input features, adds a bias row and scales the node's row by the node's
  degree scale `dv n`: `((∑ k, x n k · w k f) + ub f) · dv n`;
* the second takes the aggregated rows `s`, scales, adds a bias, cuts below at `0`, projects through a
  64 × 64 matrix and scales again: `(∑ k, max (s n k · dv n + b k) 0 · w k f) · dv n`;
* the third is the second's first half alone: `max (s n f · dv n + b f) 0`.

Each is one function of whole arrays; the kernels compute them 10000 rows at a time. -/

noncomputable section

open Idealize.ShloMosaic Idealize.ShloMosaic.ValueIdx

namespace Cert.KernelIdeal.Region0

/-- Projection of the input features, bias, degree scaling. -/
def proj1 (x : (⟨2, ![50000, 12]⟩ : Shape).Idx → EReal) (w : (⟨2, ![12, 64]⟩ : Shape).Idx → EReal)
    (ub : (⟨2, ![1, 64]⟩ : Shape).Idx → EReal) (dv : (⟨2, ![50000, 1]⟩ : Shape).Idx → EReal) :
    (⟨2, ![50000, 64]⟩ : Shape).Idx → EReal :=
  fun i => ((∑ k : Fin 12, x (ix2 (i 0) k) * w (ix2 k (i 1))) + ub (ix2 0 (i 1))) * dv (ix2 (i 0) 0)

theorem proj1_apply (x : (⟨2, ![50000, 12]⟩ : Shape).Idx → EReal) (w : (⟨2, ![12, 64]⟩ : Shape).Idx → EReal)
    (ub : (⟨2, ![1, 64]⟩ : Shape).Idx → EReal) (dv : (⟨2, ![50000, 1]⟩ : Shape).Idx → EReal)
    (n : Fin 50000) (f : Fin 64) :
    proj1 x w ub dv (ix2 n f) = ((∑ k : Fin 12, x (ix2 n k) * w (ix2 k f)) + ub (ix2 0 f)) * dv (ix2 n 0) := rfl

end Cert.KernelIdeal.Region0

namespace Cert.KernelIdeal.Region1

/-- Degree scaling, bias, cut at zero, projection, degree scaling. -/
def aggProj (s : (⟨2, ![50000, 64]⟩ : Shape).Idx → EReal) (dv : (⟨2, ![50000, 1]⟩ : Shape).Idx → EReal)
    (b : (⟨2, ![1, 64]⟩ : Shape).Idx → EReal) (w : (⟨2, ![64, 64]⟩ : Shape).Idx → EReal) :
    (⟨2, ![50000, 64]⟩ : Shape).Idx → EReal :=
  fun i => (∑ k : Fin 64, max (s (ix2 (i 0) k) * dv (ix2 (i 0) 0) + b (ix2 0 k)) 0 * w (ix2 k (i 1))) * dv (ix2 (i 0) 0)

theorem aggProj_apply (s : (⟨2, ![50000, 64]⟩ : Shape).Idx → EReal) (dv : (⟨2, ![50000, 1]⟩ : Shape).Idx → EReal)
    (b : (⟨2, ![1, 64]⟩ : Shape).Idx → EReal) (w : (⟨2, ![64, 64]⟩ : Shape).Idx → EReal)
    (n : Fin 50000) (f : Fin 64) :
    aggProj s dv b w (ix2 n f)
      = (∑ k : Fin 64, max (s (ix2 n k) * dv (ix2 n 0) + b (ix2 0 k)) 0 * w (ix2 k f)) * dv (ix2 n 0) := rfl

end Cert.KernelIdeal.Region1

namespace Cert.KernelIdeal.Region2

/-- Degree scaling, bias, cut at zero. -/
def aggRelu (s : (⟨2, ![50000, 64]⟩ : Shape).Idx → EReal) (dv : (⟨2, ![50000, 1]⟩ : Shape).Idx → EReal)
    (b : (⟨2, ![1, 64]⟩ : Shape).Idx → EReal) : (⟨2, ![50000, 64]⟩ : Shape).Idx → EReal :=
  fun i => max (s i * dv (ix2 (i 0) 0) + b (ix2 0 (i 1))) 0

theorem aggRelu_apply (s : (⟨2, ![50000, 64]⟩ : Shape).Idx → EReal) (dv : (⟨2, ![50000, 1]⟩ : Shape).Idx → EReal)
    (b : (⟨2, ![1, 64]⟩ : Shape).Idx → EReal) (n : Fin 50000) (f : Fin 64) :
    aggRelu s dv b (ix2 n f) = max (s (ix2 n f) * dv (ix2 n 0) + b (ix2 0 f)) 0 := rfl

end Cert.KernelIdeal.Region2

end
-- ==== Proof.Region012Layout.lean ====
import proofs.«163663_j28123445854866_2_alg».proof.Proof.Gen.KernelIdeal.Skeleton
import Idealize.ShloMosaic.Lib.Pipeline.Value
import Idealize.ShloMosaic.Lib.ValueIdx
import Idealize.ShloMosaic.PureOps.Ideal.Laws

/-! # The node-level kernels' layout operations at an entry

The three node-level kernels work on blocks of 10000 rows by 64 features. Each scales a row by the
row's own entry of a one-column block, and adds a one-row bias to every row. Read at row `p`, feature `q`:
a column `[10000, 1]` broadcast over the 64 features is the column at row `p`; a row `[1, 64]` broadcast
over the 10000 rows is the row at feature `q`. -/

noncomputable section

namespace Cert.KernelIdeal.Region012

open Cert.KernelIdeal
open Idealize.ShloMosaic Idealize.ShloMosaic.TcCoe Idealize.SL.Sem
open Idealize.ShloMosaic.ValueIdx

/-- A column `[10000, 1]` broadcast over the features, at row `p`: the column's entry of row `p`. -/
theorem column_over_features {α : Type} (x : S10000x1.Idx → α) (h : S10000x1.Broadcasts S10000x64)
    (p : Fin 10000) (q : Fin 64) : broadcastTo S10000x64 x h (ix2 p q) = x (ix2 p 0) := by
  refine broadcastTo_apply x h (ix2 p q) (ix2 p 0) fun a => ?_
  match a with
  | ⟨0, _⟩ => rfl
  | ⟨1, _⟩ => rfl

/-- A row `[1, 64]` broadcast over the rows, at feature `q`: the row's entry of feature `q`. -/
theorem row_over_rows {α : Type} (x : S1x64.Idx → α) (h : S1x64.Broadcasts S10000x64)
    (p : Fin 10000) (q : Fin 64) : broadcastTo S10000x64 x h (ix2 p q) = x (ix2 0 q) := by
  refine broadcastTo_apply x h (ix2 p q) (ix2 0 q) fun a => ?_
  match a with
  | ⟨0, _⟩ => rfl
  | ⟨1, _⟩ => rfl

end Cert.KernelIdeal.Region012

end
-- ==== Proof.Region0Payload.lean ====
import proofs.«163663_j28123445854866_2_alg».proof.Proof.Region012Layout

/-! # The first node kernel's block, entry by entry

The first node-level kernel takes a block `x` of 10000 rows of the 12 input features, the 12 × 64 projection
`w`, a bias row `ub` and the rows' degree scales `dv` (one column), and stores `(x · w + ub) · dv`. The matrix
product accumulates into zero: on the extended reals, at row `p` and feature `q`, it is the sum over the 12 input
features `k` of `x p k · w k q`. -/

noncomputable section

namespace Cert.KernelIdeal.Region0

open Cert.KernelIdeal Cert.KernelIdeal.Region012
open Idealize.ShloMosaic Idealize.ShloMosaic.TcCoe Idealize.SL.Sem
open Idealize.ShloMosaic.ValueIdx

/-- The product's left operand is read at the output's row. -/
theorem lhs_row (i : S10000x64.Idx) (k : dot_S10000x12_S12x64_S10000x64_1_0_0_1_n_n.contr.Idx) :
    (dot_S10000x12_S12x64_S10000x64_1_0_0_1_n_n.lhsIdx i k 0).val = (i 0).val := by
  unfold DotDims.lhsIdx
  rw [dif_neg (show ¬(0 : Fin S10000x12.rank) ∈ dot_S10000x12_S12x64_S10000x64_1_0_0_1_n_n.lhsBatch by decide),
    dif_pos (show (0 : Fin S10000x12.rank) ∈ dot_S10000x12_S12x64_S10000x64_1_0_0_1_n_n.lhsNonContracting by decide)]
  rfl

/-- The product's right operand is read at the output's feature. -/
theorem rhs_feature (i : S10000x64.Idx) (k : dot_S10000x12_S12x64_S10000x64_1_0_0_1_n_n.contr.Idx) :
    (dot_S10000x12_S12x64_S10000x64_1_0_0_1_n_n.rhsIdx i k 1).val = (i 1).val := by
  unfold DotDims.rhsIdx
  rw [dif_neg (show ¬(1 : Fin S12x64.rank) ∈ dot_S10000x12_S12x64_S10000x64_1_0_0_1_n_n.rhsBatch by decide),
    dif_pos (show (1 : Fin S12x64.rank) ∈ dot_S10000x12_S12x64_S10000x64_1_0_0_1_n_n.rhsNonContracting by decide)]
  rfl

/-- The product into the zero accumulator, at row `p` and feature `q`: the sum over the 12 input features. -/
theorem product_entry (x : FVec Ideal S10000x12 .f32) (w : FVec Ideal S12x64 .f32) (p : Fin 10000) (q : Fin 64) :
    (matmul dot_S10000x12_S12x64_S10000x64_1_0_0_1_n_n none x w (constant S10000x64 .f32 0x00000000#32) : S10000x64.Idx → EReal) (ix2 p q)
      = ∑ k : Fin 12, (x (ix2 p k) : EReal) * w (ix2 k q) := by
  simp only [matmul]
  rw [Ideal.matmul_constant_zero_apply, ← Equiv.sum_comp (contrEquiv1 dot_S10000x12_S12x64_S10000x64_1_0_0_1_n_n 12 rfl rfl).symm]
  refine Finset.sum_congr rfl fun k _ => ?_
  have hk := contrEquiv1_symm_val dot_S10000x12_S12x64_S10000x64_1_0_0_1_n_n 12 rfl rfl k
  have el : dot_S10000x12_S12x64_S10000x64_1_0_0_1_n_n.lhsIdx (ix2 p q) ((contrEquiv1 dot_S10000x12_S12x64_S10000x64_1_0_0_1_n_n 12 rfl rfl).symm k) = ix2 p k :=
    funext fun a => Fin.ext (by
      match a with
      | ⟨0, _⟩ => exact lhs_row _ _
      | ⟨1, _⟩ => exact (dot_S10000x12_S12x64_S10000x64_1_0_0_1_n_n.lhsIdx_val_of_single rfl _ _).trans hk)
  have er : dot_S10000x12_S12x64_S10000x64_1_0_0_1_n_n.rhsIdx (ix2 p q) ((contrEquiv1 dot_S10000x12_S12x64_S10000x64_1_0_0_1_n_n 12 rfl rfl).symm k) = ix2 k q :=
    funext fun a => Fin.ext (by
      match a with
      | ⟨0, _⟩ => exact (dot_S10000x12_S12x64_S10000x64_1_0_0_1_n_n.rhsIdx_val_of_single rfl _ _).trans hk
      | ⟨1, _⟩ => exact rhs_feature _ _)
  rw [el, er]

/-- The stored block at row `p`, feature `q`: the projected row plus the bias, scaled by the row's degree scale. -/
theorem block_apply (x : Vec Ideal S10000x12 .f32) (w : Vec Ideal S12x64 .f32) (ub : Vec Ideal S1x64 .f32)
    (dv : Vec Ideal S10000x1 .f32) (p : Fin 10000) (q : Fin 64) :
    (Gen.k0_pay1 (F := Ideal) x w ub dv : S10000x64.Idx → EReal) (ix2 p q)
      = ((∑ k : Fin 12, (x (ix2 p k) : EReal) * w (ix2 k q)) + ub (ix2 0 q)) * dv (ix2 p 0) := by
  unfold Gen.k0_pay1
  simp only [shapeCast_self]
  rw [mulf_apply, addf_apply, column_over_features, row_over_rows, product_entry]

end Cert.KernelIdeal.Region0

end
-- ==== Proof.Region0Blocks.lean ====
import proofs.«163663_j28123445854866_2_alg».proof.Proof.Gen.KernelIdeal.Frame
import proofs.«163663_j28123445854866_2_alg».proof.Proof.Region012Spec
import proofs.«163663_j28123445854866_2_alg».proof.Proof.Region0Payload
import Idealize.ShloMosaic.Lib.Pipeline.Value

/-! # The first node kernel, from blocks to the whole array

The kernel runs over five grid points; point `t` works on rows `10000·t … 10000·t + 9999` of the 50000
nodes: the input features and the degree scales are cut into five row blocks, the projection matrix and the
bias row are passed whole, and the result block goes back to the same rows. A row of the result depends only on
the same row of the inputs, so what point `t` writes back is block `t` of one function of the whole arrays
(`proj1`), and since every node lies in the block `node / 10000`, the array after the five points is that function. -/

noncomputable section

namespace Cert.KernelIdeal.Region0

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block indices at the five grid points: the row-blocked windows (input features, degree scales, result)
    are at row block `t`, column block `0`; the projection matrix and the bias row are always their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- An entry of the stored block is the entry of `proj1` of the whole arrays, once each loaded block's entries
    on the entry's row and feature are known to be the whole arrays' entries at the matching node. -/
theorem block_entry (x0 : Vec Ideal S10000x12 .f32) (x1 : Vec Ideal S12x64 .f32) (x2 : Vec Ideal S1x64 .f32)
    (x3 : Vec Ideal S10000x1 .f32)
    (x : S50000x12.Idx → EReal) (w : S12x64.Idx → EReal) (ub : S1x64.Idx → EReal) (dv : S50000x1.Idx → EReal)
    (j : S10000x64.Idx) (i : S50000x64.Idx)
    (h0 : ∀ k : Fin 12, x0 (ix2 (j 0) k) = x (ix2 (i 0) k))
    (h1 : ∀ k : Fin 12, x1 (ix2 k (j 1)) = w (ix2 k (i 1)))
    (h2 : x2 (ix2 0 (j 1)) = ub (ix2 0 (i 1)))
    (h3 : x3 (ix2 (j 0) 0) = dv (ix2 (i 0) 0)) :
    (k0_pay1 (F := Ideal) x0 x1 x2 x3 : S10000x64.Idx → EReal) j = proj1 x w ub dv i := by
  obtain ⟨p, q, rfl⟩ : ∃ (p : Fin 10000) (q : Fin 64), j = ix2 p q := ⟨j 0, j 1, eq_ix2 j⟩
  have h0' : ∀ k : Fin 12, x0 (ix2 p k) = x (ix2 (i 0) k) := h0
  have h1' : ∀ k : Fin 12, x1 (ix2 k q) = w (ix2 k (i 1)) := h1
  have h2' : x2 (ix2 0 q) = ub (ix2 0 (i 1)) := h2
  have h3' : x3 (ix2 p 0) = dv (ix2 (i 0) 0) := h3
  rw [block_apply, h2', h3', Finset.sum_congr rfl fun k _ => (by rw [h0' k, h1' k] :
    (x0 (ix2 p k) : EReal) * x1 (ix2 k q) = x (ix2 (i 0) k) * w (ix2 k (i 1)))]
  rfl

/-- What point `t` writes back is block `t` of `proj1` of the arrays as the kernel finds them. -/
theorem flushed_eq (c : Dev nD) (t : Fin cfg0.N) :
    (dat0 V c).flushed 4 t
      = ((cfg0.win 4).blk t).view.read (Elt Ideal)
          (proj1 (V c main_arg0) (V c main_v16) (V c main_v18) (V c main_v15)) := by
  show (cfg0.win 4).cut (grid0.coords t) ((dat0 V c).after 4 t) = _
  rw [after0_4]
  unfold out0_4
  rw [View.canon_unit_zero zero_offsets]
  simp only [View.ld_unit_zero (S := S10000x12) zero_offsets, View.ld_unit_zero (S := S12x64) zero_offsets,
    View.ld_unit_zero (S := S1x64) zero_offsets, View.ld_unit_zero (S := S10000x1) zero_offsets]
  obtain ⟨e00, e01, e10, e11, e20, e21, e30, e31, e40, e41⟩ := block_indices t
  funext j
  show (k0_pay1 (F := Ideal) (iblk0 V c 0 t) (iblk0 V c 1 t) (iblk0 V c 2 t) (iblk0 V c 3 t) : S10000x64.Idx → EReal) j
      = proj1 (V c main_arg0) (V c main_v16) (V c main_v18) (V c main_v15) (((cfg0.win 4).blk t).view.emb j)
  refine block_entry (iblk0 V c 0 t) (iblk0 V c 1 t) (iblk0 V c 2 t) (iblk0 V c 3 t) _ _ _ _ j _ ?_ ?_ ?_ ?_
  · intro k
    show V c main_arg0 (((cfg0.win 0).blk t).view.emb (ix2 (j 0) k))
        = V c main_arg0 (ix2 ((((cfg0.win 4).blk t).view.emb j) 0) k)
    refine congrArg _ (funext fun a => Fin.ext ?_)
    match a with
    | ⟨0, _⟩ =>
      show win0_0.index t (0 : Fin 2) * 10000 + 1 * (j 0).val = win0_4.index t (0 : Fin 2) * 10000 + 1 * (j 0).val
      omega
    | ⟨1, _⟩ =>
      show win0_0.index t (1 : Fin 2) * 12 + 1 * k.val = k.val
      omega
  · intro k
    show V c main_v16 (((cfg0.win 1).blk t).view.emb (ix2 k (j 1)))
        = V c main_v16 (ix2 k ((((cfg0.win 4).blk t).view.emb j) 1))
    refine congrArg _ (funext fun a => Fin.ext ?_)
    match a with
    | ⟨0, _⟩ =>
      show win0_1.index t (0 : Fin 2) * 12 + 1 * k.val = k.val
      omega
    | ⟨1, _⟩ =>
      show win0_1.index t (1 : Fin 2) * 64 + 1 * (j 1).val = win0_4.index t (1 : Fin 2) * 64 + 1 * (j 1).val
      omega
  · show V c main_v18 (((cfg0.win 2).blk t).view.emb (ix2 0 (j 1)))
        = V c main_v18 (ix2 0 ((((cfg0.win 4).blk t).view.emb j) 1))
    refine congrArg _ (funext fun a => Fin.ext ?_)
    match a with
    | ⟨0, _⟩ =>
      show win0_2.index t (0 : Fin 2) * 1 + 1 * 0 = 0
      omega
    | ⟨1, _⟩ =>
      show win0_2.index t (1 : Fin 2) * 64 + 1 * (j 1).val = win0_4.index t (1 : Fin 2) * 64 + 1 * (j 1).val
      omega
  · show V c main_v15 (((cfg0.win 3).blk t).view.emb (ix2 (j 0) 0))
        = V c main_v15 (ix2 ((((cfg0.win 4).blk t).view.emb j) 0) 0)
    refine congrArg _ (funext fun a => Fin.ext ?_)
    match a with
    | ⟨0, _⟩ =>
      show win0_3.index t (0 : Fin 2) * 10000 + 1 * (j 0).val = win0_4.index t (0 : Fin 2) * 10000 + 1 * (j 0).val
      omega
    | ⟨1, _⟩ =>
      show win0_3.index t (1 : Fin 2) * 1 + 1 * 0 = 0
      omega

/-- A node's row lies in point `t`'s result block iff each coordinate is in the block's range on its axis. -/
theorem mem_block (t : Fin cfg0.N) (i : S50000x64.Idx) :
    i ∈ ((cfg0.win 4).blk t).view.set ↔ ∀ a : Fin 2, win0_4.index t a * S10000x64.size a ≤ (i a).val
      ∧ (i a).val < win0_4.index t a * S10000x64.size a + S10000x64.size a := by
  show i ∈ ((View.whole main_v19).slice (win0_4.rect t)).set ↔ _
  rw [View.set_slice_whole, Rect.mem_set_unit]
  exact Iff.rfl

/-- Every entry of the result array is in some point's block: node `n` in that of point `n / 10000`. -/
theorem every_node_covered (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  obtain ⟨t, ht⟩ : ∃ t : Fin cfg0.N, t.val = (i 0).val / 10000 :=
    ⟨⟨(i 0).val / 10000, by rw [show cfg0.N = 5 from N_0]; omega⟩, rfl⟩
  obtain ⟨-, -, -, -, -, -, -, -, e40, e41⟩ := block_indices t
  refine ⟨t, flush0_4 t, ?_⟩
  rw [mem_block]
  intro a
  match a with
  | ⟨0, _⟩ =>
    show win0_4.index t (0 : Fin 2) * 10000 ≤ (i 0).val ∧ (i 0).val < win0_4.index t (0 : Fin 2) * 10000 + 10000
    omega
  | ⟨1, _⟩ =>
    show win0_4.index t (1 : Fin 2) * 64 ≤ (i 1).val ∧ (i 1).val < win0_4.index t (1 : Fin 2) * 64 + 64
    omega

/-- The result array after the kernel's five points: `proj1` of the arrays as the kernel finds them. -/
theorem final0 (c : Dev nD) :
    (dat0 V c).arrAt 4 cfg0.N = proj1 (V c main_arg0) (V c main_v16) (V c main_v18) (V c main_v15) :=
  (dat0 V c).arrAt_eq_of_cover 4 (proj1 (V c main_arg0) (V c main_v16) (V c main_v18) (V c main_v15))
    (fun t _ => flushed_eq V c t) every_node_covered

end Cert.KernelIdeal.Region0

end
-- ==== Proof.Region1Payload.lean ====
import proofs.«163663_j28123445854866_2_alg».proof.Proof.Region012Layout

/-! # The second node kernel's block, entry by entry

The second node-level kernel takes a block `s` of 10000 aggregated rows, the rows' degree scales `dv` (one
column), a bias row `b` and a 64 × 64 projection `w`. It forms the hidden row `h = relu (s · dv + b)`, multiplies it by
`w` and scales the result by `dv` again. On the extended reals `relu` is the maximum with `0`, and the matrix product,
which accumulates into zero, is at row `p` and feature `q` the sum over the 64 hidden features `k` of `h p k · w k q`. -/

noncomputable section

namespace Cert.KernelIdeal.Region1

open Cert.KernelIdeal Cert.KernelIdeal.Region012
open Idealize.ShloMosaic Idealize.ShloMosaic.TcCoe Idealize.SL.Sem
open Idealize.ShloMosaic.ValueIdx

/-- The product's left operand is read at the output's row. -/
theorem lhs_row (i : S10000x64.Idx) (k : dot_S10000x64_S64x64_S10000x64_1_0_0_1_n_n.contr.Idx) :
    (dot_S10000x64_S64x64_S10000x64_1_0_0_1_n_n.lhsIdx i k 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- The product's right operand is read at the output's feature. -/
theorem rhs_feature (i : S10000x64.Idx) (k : dot_S10000x64_S64x64_S10000x64_1_0_0_1_n_n.contr.Idx) :
    (dot_S10000x64_S64x64_S10000x64_1_0_0_1_n_n.rhsIdx i k 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The product into the zero accumulator, at row `p` and feature `q`: the sum over the 64 hidden features. -/
theorem product_entry (h : FVec Ideal S10000x64 .f32) (w : FVec Ideal S64x64 .f32) (p : Fin 10000) (q : Fin 64) :
    (matmul dot_S10000x64_S64x64_S10000x64_1_0_0_1_n_n none h w (constant S10000x64 .f32 0x00000000#32) : S10000x64.Idx → EReal) (ix2 p q)
      = ∑ k : Fin 64, (h (ix2 p k) : EReal) * w (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => exact lhs_row _ _
      | ⟨1, _⟩ => exact (dot_S10000x64_S64x64_S10000x64_1_0_0_1_n_n.lhsIdx_val_of_single rfl _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun a => Fin.ext (by
      match a with
      | ⟨0, _⟩ => exact (dot_S10000x64_S64x64_S10000x64_1_0_0_1_n_n.rhsIdx_val_of_single rfl _ _).trans hk
      | ⟨1, _⟩ => exact rhs_feature _ _)
  rw [el, er]

/-- The hidden row at row `p`, hidden feature `k`: the aggregated row scaled by its degree scale, plus the bias, cut
    below at `0`. -/
theorem hidden_entry (s : FVec Ideal S10000x64 .f32) (dv : FVec Ideal S10000x1 .f32) (b : FVec Ideal S1x64 .f32)
    (hc : S10000x1.Broadcasts S10000x64) (hr : S1x64.Broadcasts S10000x64) (p : Fin 10000) (k : Fin 64) :
    (maximumf (addf (mulf s (broadcastTo S10000x64 dv hc)) (broadcastTo S10000x64 b hr))
        (broadcast S10000x64 (Scalar.ofBits (F := Ideal) .f32 0x00000000#32)) : S10000x64.Idx → EReal) (ix2 p k)
      = max ((s (ix2 p k) : EReal) * dv (ix2 p 0) + b (ix2 0 k)) 0 := by
  rw [maximumf_apply, addf_apply, mulf_apply, column_over_features, row_over_rows, broadcast_apply]
  show max _ (Ideal.ofBits .f32 0x00000000#32) = _
  rw [Ideal.ofBits_zero_f32]

/-- The stored block at row `p`, feature `q`: the hidden row times the projection, scaled by the row's degree scale
    (`dv'` is the degree-scale block as the kernel loads it the second time). -/
theorem block_apply (s : Vec Ideal S10000x64 .f32) (dv : Vec Ideal S10000x1 .f32) (b : Vec Ideal S1x64 .f32)
    (w : Vec Ideal S64x64 .f32) (dv' : Vec Ideal S10000x1 .f32) (p : Fin 10000) (q : Fin 64) :
    (Gen.k1_pay1 (F := Ideal) s dv b w dv' : S10000x64.Idx → EReal) (ix2 p q)
      = (∑ k : Fin 64, max ((s (ix2 p k) : EReal) * dv (ix2 p 0) + b (ix2 0 k)) 0 * w (ix2 k q)) * dv' (ix2 p 0) := by
  unfold Gen.k1_pay1
  simp only [shapeCast_self]
  rw [mulf_apply, column_over_features, product_entry]
  refine congrArg (· * (dv' (ix2 p 0) : EReal)) (Finset.sum_congr rfl fun k _ => ?_)
  rw [hidden_entry]

end Cert.KernelIdeal.Region1

end
-- ==== Proof.Region1Blocks.lean ====
import proofs.«163663_j28123445854866_2_alg».proof.Proof.Gen.KernelIdeal.Frame
import proofs.«163663_j28123445854866_2_alg».proof.Proof.Region012Spec
import proofs.«163663_j28123445854866_2_alg».proof.Proof.Region1Payload
import Idealize.ShloMosaic.Lib.Pipeline.Value

/-! # The second node kernel, from blocks to the whole array

The kernel runs over five grid points; point `t` works on rows `10000·t … 10000·t + 9999` of the 50000
nodes: the aggregated rows and the degree scales are cut into five row blocks, the bias row and the projection
matrix are passed whole, and the result block goes back to the same rows. A row of the result depends only on
the same row of the inputs, so what point `t` writes back is block `t` of one function of the whole arrays
(`aggProj`), and since every node lies in the block `node / 10000`, the array after the five points is that
function. -/

noncomputable section

namespace Cert.KernelIdeal.Region1

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block indices at the five grid points: the row-blocked windows (aggregated rows, degree scales, result)
    are at row block `t`, column block `0`; the bias row and the projection matrix are always their one block. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- An entry of the stored block is the entry of `aggProj` of the whole arrays, once each loaded block's entries
    on the entry's row and feature are known to be the whole arrays' entries at the matching node. The kernel loads
    the degree-scale block twice; both loads read the same block `x1`. -/
theorem block_entry (x0 : Vec Ideal S10000x64 .f32) (x1 : Vec Ideal S10000x1 .f32) (x2 : Vec Ideal S1x64 .f32)
    (x3 : Vec Ideal S64x64 .f32)
    (s : S50000x64.Idx → EReal) (dv : S50000x1.Idx → EReal) (b : S1x64.Idx → EReal) (w : S64x64.Idx → EReal)
    (j : S10000x64.Idx) (i : S50000x64.Idx)
    (h0 : ∀ k : Fin 64, x0 (ix2 (j 0) k) = s (ix2 (i 0) k))
    (h1 : x1 (ix2 (j 0) 0) = dv (ix2 (i 0) 0))
    (h2 : ∀ k : Fin 64, x2 (ix2 0 k) = b (ix2 0 k))
    (h3 : ∀ k : Fin 64, x3 (ix2 k (j 1)) = w (ix2 k (i 1))) :
    (k1_pay1 (F := Ideal) x0 x1 x2 x3 x1 : S10000x64.Idx → EReal) j = aggProj s dv b w i := by
  obtain ⟨p, q, rfl⟩ : ∃ (p : Fin 10000) (q : Fin 64), j = ix2 p q := ⟨j 0, j 1, eq_ix2 j⟩
  have h0' : ∀ k : Fin 64, x0 (ix2 p k) = s (ix2 (i 0) k) := h0
  have h1' : x1 (ix2 p 0) = dv (ix2 (i 0) 0) := h1
  have h3' : ∀ k : Fin 64, x3 (ix2 k q) = w (ix2 k (i 1)) := h3
  rw [block_apply, h1', Finset.sum_congr rfl fun k _ => (by rw [h0' k, h2 k, h3' k] :
    max ((x0 (ix2 p k) : EReal) * dv (ix2 (i 0) 0) + x2 (ix2 0 k)) 0 * x3 (ix2 k q)
      = max (s (ix2 (i 0) k) * dv (ix2 (i 0) 0) + b (ix2 0 k)) 0 * w (ix2 k (i 1)))]
  rfl

/-- What point `t` writes back is block `t` of `aggProj` of the arrays as the kernel finds them. -/
theorem flushed_eq (c : Dev nD) (t : Fin cfg1.N) :
    (dat1 V c).flushed 4 t
      = ((cfg1.win 4).blk t).view.read (Elt Ideal)
          (aggProj (V c main_v29) (V c main_v15) (V c main_v30) (V c main_arg6)) := by
  show (cfg1.win 4).cut (grid1.coords t) ((dat1 V c).after 4 t) = _
  rw [after1_4]
  unfold out1_4
  rw [View.canon_unit_zero zero_offsets]
  simp only [View.ld_unit_zero (S := S10000x64) zero_offsets, View.ld_unit_zero (S := S10000x1) zero_offsets,
    View.ld_unit_zero (S := S1x64) zero_offsets, View.ld_unit_zero (S := S64x64) zero_offsets]
  obtain ⟨e00, e01, e10, e11, e20, e21, e30, e31, e40, e41⟩ := block_indices t
  funext j
  show (k1_pay1 (F := Ideal) (iblk1 V c 0 t) (iblk1 V c 1 t) (iblk1 V c 2 t) (iblk1 V c 3 t) (iblk1 V c 1 t) :
        S10000x64.Idx → EReal) j
      = aggProj (V c main_v29) (V c main_v15) (V c main_v30) (V c main_arg6) (((cfg1.win 4).blk t).view.emb j)
  refine block_entry (iblk1 V c 0 t) (iblk1 V c 1 t) (iblk1 V c 2 t) (iblk1 V c 3 t) _ _ _ _ j _ ?_ ?_ ?_ ?_
  · intro k
    show V c main_v29 (((cfg1.win 0).blk t).view.emb (ix2 (j 0) k))
        = V c main_v29 (ix2 ((((cfg1.win 4).blk t).view.emb j) 0) k)
    refine congrArg _ (funext fun a => Fin.ext ?_)
    match a with
    | ⟨0, _⟩ =>
      show win1_0.index t (0 : Fin 2) * 10000 + 1 * (j 0).val = win1_4.index t (0 : Fin 2) * 10000 + 1 * (j 0).val
      omega
    | ⟨1, _⟩ =>
      show win1_0.index t (1 : Fin 2) * 64 + 1 * k.val = k.val
      omega
  · show V c main_v15 (((cfg1.win 1).blk t).view.emb (ix2 (j 0) 0))
        = V c main_v15 (ix2 ((((cfg1.win 4).blk t).view.emb j) 0) 0)
    refine congrArg _ (funext fun a => Fin.ext ?_)
    match a with
    | ⟨0, _⟩ =>
      show win1_1.index t (0 : Fin 2) * 10000 + 1 * (j 0).val = win1_4.index t (0 : Fin 2) * 10000 + 1 * (j 0).val
      omega
    | ⟨1, _⟩ =>
      show win1_1.index t (1 : Fin 2) * 1 + 1 * 0 = 0
      omega
  · intro k
    show V c main_v30 (((cfg1.win 2).blk t).view.emb (ix2 0 k)) = V c main_v30 (ix2 0 k)
    refine congrArg _ (funext fun a => Fin.ext ?_)
    match a with
    | ⟨0, _⟩ =>
      show win1_2.index t (0 : Fin 2) * 1 + 1 * 0 = 0
      omega
    | ⟨1, _⟩ =>
      show win1_2.index t (1 : Fin 2) * 64 + 1 * k.val = k.val
      omega
  · intro k
    show V c main_arg6 (((cfg1.win 3).blk t).view.emb (ix2 k (j 1)))
        = V c main_arg6 (ix2 k ((((cfg1.win 4).blk t).view.emb j) 1))
    refine congrArg _ (funext fun a => Fin.ext ?_)
    match a with
    | ⟨0, _⟩ =>
      show win1_3.index t (0 : Fin 2) * 64 + 1 * k.val = k.val
      omega
    | ⟨1, _⟩ =>
      show win1_3.index t (1 : Fin 2) * 64 + 1 * (j 1).val = win1_4.index t (1 : Fin 2) * 64 + 1 * (j 1).val
      omega

/-- A node's row lies in point `t`'s result block iff each coordinate is in the block's range on its axis. -/
theorem mem_block (t : Fin cfg1.N) (i : S50000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v31).slice (win1_4.rect t)).set ↔ _
  rw [View.set_slice_whole, Rect.mem_set_unit]
  exact Iff.rfl

/-- Every entry of the result array is in some point's block: node `n` in that of point `n / 10000`. -/
theorem every_node_covered (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ : ∃ t : Fin cfg1.N, t.val = (i 0).val / 10000 :=
    ⟨⟨(i 0).val / 10000, by rw [show cfg1.N = 5 from N_1]; omega⟩, rfl⟩
  obtain ⟨-, -, -, -, -, -, -, -, e40, e41⟩ := block_indices t
  refine ⟨t, flush1_4 t, ?_⟩
  rw [mem_block]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 64 ≤ (i 1).val ∧ (i 1).val < win1_4.index t (1 : Fin 2) * 64 + 64
    omega

/-- The result array after the kernel's five points: `aggProj` of the arrays as the kernel finds them. -/
theorem final1 (c : Dev nD) :
    (dat1 V c).arrAt 4 cfg1.N = aggProj (V c main_v29) (V c main_v15) (V c main_v30) (V c main_arg6) :=
  (dat1 V c).arrAt_eq_of_cover 4 (aggProj (V c main_v29) (V c main_v15) (V c main_v30) (V c main_arg6))
    (fun t _ => flushed_eq V c t) every_node_covered

end Cert.KernelIdeal.Region1

end
-- ==== Proof.Region2Payload.lean ====
import proofs.«163663_j28123445854866_2_alg».proof.Proof.Region012Layout

/-! # The third node kernel's block, entry by entry

The third node-level kernel takes a block `s` of 10000 aggregated rows, the rows' degree scales `dv`
(one column) and a bias row `b`, and stores `relu (s · dv + b)` rounded to bf16. On the extended reals the
rounding is the identity and `relu` is the maximum with `0`. -/

noncomputable section

namespace Cert.KernelIdeal.Region2

open Cert.KernelIdeal Cert.KernelIdeal.Region012
open Idealize.ShloMosaic Idealize.ShloMosaic.TcCoe Idealize.SL.Sem
open Idealize.ShloMosaic.ValueIdx

/-- The stored block at row `p`, feature `q`: the row scaled by its degree scale, plus the bias, cut below at `0`. -/
theorem block_apply (s : Vec Ideal S10000x64 .f32) (dv : Vec Ideal S10000x1 .f32) (b : Vec Ideal S1x64 .f32)
    (p : Fin 10000) (q : Fin 64) :
    (Gen.k2_pay1 (F := Ideal) s dv b : S10000x64.Idx → EReal) (ix2 p q)
      = max ((s (ix2 p q) : EReal) * dv (ix2 p 0) + b (ix2 0 q)) 0 := by
  unfold Gen.k2_pay1
  rw [truncf_apply, maximumf_apply, addf_apply, mulf_apply, shapeCast_self, shapeCast_self, shapeCast_self,
    column_over_features, row_over_rows, broadcast_apply]
  show max _ (Ideal.ofBits .f32 0x00000000#32) = _
  rw [Ideal.ofBits_zero_f32]

end Cert.KernelIdeal.Region2

end
-- ==== Proof.Region2Blocks.lean ====
import proofs.«163663_j28123445854866_2_alg».proof.Proof.Gen.KernelIdeal.Frame
import proofs.«163663_j28123445854866_2_alg».proof.Proof.Region012Spec
import proofs.«163663_j28123445854866_2_alg».proof.Proof.Region2Payload
import Idealize.ShloMosaic.Lib.Pipeline.Value

/-! # The third node kernel, from blocks to the whole array

The kernel runs over five grid points; point `t` works on rows `10000·t … 10000·t + 9999` of the 50000
nodes: the aggregated rows and the degree scales are cut into five row blocks, the bias row is passed whole,
and the result block goes back to the same rows. So what point `t` writes back is block `t` of one function
of the whole arrays (`aggRelu`), and since every node lies in exactly the block `node / 10000`, the array after
the five points is that function. -/

noncomputable section

namespace Cert.KernelIdeal.Region2

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block indices at the five grid points: the row-blocked windows (aggregated rows, degree scales, result)
    are at row block `t`, column block `0`; the bias row is always its one block. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- An entry of the stored block is the entry of `aggRelu` of the whole arrays, once each loaded block's entry
    is known to be the whole array's entry at the matching node. -/
theorem block_entry (x0 : Vec Ideal S10000x64 .f32) (x1 : Vec Ideal S10000x1 .f32) (x2 : Vec Ideal S1x64 .f32)
    (s : S50000x64.Idx → EReal) (dv : S50000x1.Idx → EReal) (b : S1x64.Idx → EReal)
    (j : S10000x64.Idx) (i : S50000x64.Idx)
    (h0 : x0 j = s i) (h1 : x1 (ix2 (j 0) 0) = dv (ix2 (i 0) 0)) (h2 : x2 (ix2 0 (j 1)) = b (ix2 0 (i 1))) :
    (k2_pay1 (F := Ideal) x0 x1 x2 : S10000x64.Idx → EReal) j = aggRelu s dv b i := by
  obtain ⟨p, q, rfl⟩ : ∃ (p : Fin 10000) (q : Fin 64), j = ix2 p q := ⟨j 0, j 1, eq_ix2 j⟩
  rw [block_apply]
  have h1' : x1 (ix2 p 0) = dv (ix2 (i 0) 0) := h1
  have h2' : x2 (ix2 0 q) = b (ix2 0 (i 1)) := h2
  rw [h0, h1', h2']
  rfl

/-- What point `t` writes back is block `t` of `aggRelu` of the arrays as the kernel finds them. -/
theorem flushed_eq (c : Dev nD) (t : Fin cfg2.N) :
    (dat2 V c).flushed 3 t
      = ((cfg2.win 3).blk t).view.read (Elt Ideal) (aggRelu (V c main_v41) (V c main_v15) (V c main_v42)) := by
  show (cfg2.win 3).cut (grid2.coords t) ((dat2 V c).after 3 t) = _
  rw [after2_3]
  unfold out2_3
  rw [View.canon_unit_zero zero_offsets]
  simp only [View.ld_unit_zero (S := S10000x64) zero_offsets, View.ld_unit_zero (S := S10000x1) zero_offsets,
    View.ld_unit_zero (S := S1x64) zero_offsets]
  obtain ⟨e00, e01, e10, e11, e20, e21, e30, e31⟩ := block_indices t
  funext j
  show (k2_pay1 (F := Ideal) (iblk2 V c 0 t) (iblk2 V c 1 t) (iblk2 V c 2 t) : S10000x64.Idx → EReal) j
      = aggRelu (V c main_v41) (V c main_v15) (V c main_v42) (((cfg2.win 3).blk t).view.emb j)
  refine block_entry (iblk2 V c 0 t) (iblk2 V c 1 t) (iblk2 V c 2 t) _ _ _ j _ ?_ ?_ ?_
  · show V c main_v41 (((cfg2.win 0).blk t).view.emb j) = V c main_v41 (((cfg2.win 3).blk t).view.emb j)
    refine congrArg _ (funext fun a => Fin.ext ?_)
    match a with
    | ⟨0, _⟩ =>
      show win2_0.index t (0 : Fin 2) * 10000 + 1 * (j 0).val = win2_3.index t (0 : Fin 2) * 10000 + 1 * (j 0).val
      omega
    | ⟨1, _⟩ =>
      show win2_0.index t (1 : Fin 2) * 64 + 1 * (j 1).val = win2_3.index t (1 : Fin 2) * 64 + 1 * (j 1).val
      omega
  · show V c main_v15 (((cfg2.win 1).blk t).view.emb (ix2 (j 0) 0))
        = V c main_v15 (ix2 ((((cfg2.win 3).blk t).view.emb j) 0) 0)
    refine congrArg _ (funext fun a => Fin.ext ?_)
    match a with
    | ⟨0, _⟩ =>
      show win2_1.index t (0 : Fin 2) * 10000 + 1 * (j 0).val = win2_3.index t (0 : Fin 2) * 10000 + 1 * (j 0).val
      omega
    | ⟨1, _⟩ =>
      show win2_1.index t (1 : Fin 2) * 1 + 1 * 0 = 0
      omega
  · show V c main_v42 (((cfg2.win 2).blk t).view.emb (ix2 0 (j 1)))
        = V c main_v42 (ix2 0 ((((cfg2.win 3).blk t).view.emb j) 1))
    refine congrArg _ (funext fun a => Fin.ext ?_)
    match a with
    | ⟨0, _⟩ =>
      show win2_2.index t (0 : Fin 2) * 1 + 1 * 0 = 0
      omega
    | ⟨1, _⟩ =>
      show win2_2.index t (1 : Fin 2) * 64 + 1 * (j 1).val = win2_3.index t (1 : Fin 2) * 64 + 1 * (j 1).val
      omega

/-- A node's row lies in point `t`'s result block iff each coordinate is in the block's range on its axis. -/
theorem mem_block (t : Fin cfg2.N) (i : S50000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v43).slice (win2_3.rect t)).set ↔ _
  rw [View.set_slice_whole, Rect.mem_set_unit]
  exact Iff.rfl

/-- Every entry of the result array is in some point's block: node `n` in that of point `n / 10000`. -/
theorem every_node_covered (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ : ∃ t : Fin cfg2.N, t.val = (i 0).val / 10000 :=
    ⟨⟨(i 0).val / 10000, by rw [show cfg2.N = 5 from N_2]; omega⟩, rfl⟩
  obtain ⟨-, -, -, -, -, -, e30, e31⟩ := block_indices t
  refine ⟨t, flush2_3 t, ?_⟩
  rw [mem_block]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 64 ≤ (i 1).val ∧ (i 1).val < win2_3.index t (1 : Fin 2) * 64 + 64
    omega

/-- The result array after the kernel's five points: `aggRelu` of the arrays as the kernel finds them. -/
theorem final2 (c : Dev nD) :
    (dat2 V c).arrAt 3 cfg2.N = aggRelu (V c main_v41) (V c main_v15) (V c main_v42) :=
  (dat2 V c).arrAt_eq_of_cover 3 (aggRelu (V c main_v41) (V c main_v15) (V c main_v42))
    (fun t _ => flushed_eq V c t) every_node_covered

end Cert.KernelIdeal.Region2

end
-- ==== Proof.Region3Spec.lean ====
/-
  The edge decoder, as plain mathematics.

  For an edge `e`, with source features `hs e ·`, destination features `hd e ·` (64 each) and edge
  attributes `ea e ·` (5), the decoder is a three-layer perceptron:

    z0 e h  = ∑ₖ hs e k · d1s k h  +  ∑ₖ hd e k · d1d k h  +  ∑ₖ ea e k · d1e k h  +  b1 h     (64 hidden units)
    z1 e h' = ∑ₕ max (z0 e h) 0 · d2 h h'  +  b2 h'                                            (32 hidden units)
    out e o = ∑ₕ' max (z1 e h') 0 · d3 h' o  +  b3 o                                           (4 outputs)

  Everything is an extended real; the sums are finite sums over the hidden index; the first layer's three
  products are added left to right and the bias last.  The number of edges `N` is a parameter: row `e` of the
  result reads only row `e` of the three per-edge arrays (`decodeOut_congr`), which is what lets a block of rows be
  decoded from the same block of rows of the inputs.
-/
import Idealize.ShloMosaic.PureOps.Ideal
import Idealize.ShloMosaic.Lib.ValueIdx

noncomputable section

open scoped BigOperators

namespace Cert.KernelIdeal.Region3

open Idealize.ShloMosaic Idealize.ShloMosaic.ValueIdx

/-- The first layer before the rectifier, at edge `e` and hidden unit `h`. -/
def decodeZ0 {N : Nat} (hs hd : (⟨2, ![N, 64]⟩ : Shape).Idx → EReal) (ea : (⟨2, ![N, 5]⟩ : Shape).Idx → EReal)
    (d1s d1d : (⟨2, ![64, 64]⟩ : Shape).Idx → EReal) (d1e : (⟨2, ![5, 64]⟩ : Shape).Idx → EReal)
    (b1 : (⟨2, ![1, 64]⟩ : Shape).Idx → EReal) (e : Fin N) (h : Fin 64) : EReal :=
  (∑ k : Fin 64, hs (ix2 e k) * d1s (ix2 k h)) + (∑ k : Fin 64, hd (ix2 e k) * d1d (ix2 k h))
    + (∑ k : Fin 5, ea (ix2 e k) * d1e (ix2 k h)) + b1 (ix2 (0 : Fin 1) h)

/-- The first layer, rectified. -/
def decodeZ {N : Nat} (hs hd : (⟨2, ![N, 64]⟩ : Shape).Idx → EReal) (ea : (⟨2, ![N, 5]⟩ : Shape).Idx → EReal)
    (d1s d1d : (⟨2, ![64, 64]⟩ : Shape).Idx → EReal) (d1e : (⟨2, ![5, 64]⟩ : Shape).Idx → EReal)
    (b1 : (⟨2, ![1, 64]⟩ : Shape).Idx → EReal) (e : Fin N) (h : Fin 64) : EReal :=
  max (decodeZ0 hs hd ea d1s d1d d1e b1 e h) 0

/-- The second layer before the rectifier, at edge `e` and hidden unit `h'`. -/
def decodeZ1 {N : Nat} (hs hd : (⟨2, ![N, 64]⟩ : Shape).Idx → EReal) (ea : (⟨2, ![N, 5]⟩ : Shape).Idx → EReal)
    (d1s d1d : (⟨2, ![64, 64]⟩ : Shape).Idx → EReal) (d1e : (⟨2, ![5, 64]⟩ : Shape).Idx → EReal)
    (b1 : (⟨2, ![1, 64]⟩ : Shape).Idx → EReal) (d2 : (⟨2, ![64, 32]⟩ : Shape).Idx → EReal)
    (b2 : (⟨2, ![1, 32]⟩ : Shape).Idx → EReal) (e : Fin N) (h' : Fin 32) : EReal :=
  (∑ h : Fin 64, decodeZ hs hd ea d1s d1d d1e b1 e h * d2 (ix2 h h')) + b2 (ix2 (0 : Fin 1) h')

/-- The decoder's output at edge `e` and output channel `o`. -/
def decodeOut {N : Nat} (hs hd : (⟨2, ![N, 64]⟩ : Shape).Idx → EReal) (ea : (⟨2, ![N, 5]⟩ : Shape).Idx → EReal)
    (d1s d1d : (⟨2, ![64, 64]⟩ : Shape).Idx → EReal) (d1e : (⟨2, ![5, 64]⟩ : Shape).Idx → EReal)
    (b1 : (⟨2, ![1, 64]⟩ : Shape).Idx → EReal) (d2 : (⟨2, ![64, 32]⟩ : Shape).Idx → EReal)
    (b2 : (⟨2, ![1, 32]⟩ : Shape).Idx → EReal) (d3 : (⟨2, ![32, 4]⟩ : Shape).Idx → EReal)
    (b3 : (⟨2, ![1, 4]⟩ : Shape).Idx → EReal) (e : Fin N) (o : Fin 4) : EReal :=
  (∑ h' : Fin 32, max (decodeZ1 hs hd ea d1s d1d d1e b1 d2 b2 e h') 0 * d3 (ix2 h' o)) + b3 (ix2 (0 : Fin 1) o)

/-- The decoder over all 800000 edges, as one array of shape [800000, 4]. -/
def decode (hs hd : (⟨2, ![800000, 64]⟩ : Shape).Idx → EReal) (ea : (⟨2, ![800000, 5]⟩ : Shape).Idx → EReal)
    (d1s d1d : (⟨2, ![64, 64]⟩ : Shape).Idx → EReal) (d1e : (⟨2, ![5, 64]⟩ : Shape).Idx → EReal)
    (b1 : (⟨2, ![1, 64]⟩ : Shape).Idx → EReal) (d2 : (⟨2, ![64, 32]⟩ : Shape).Idx → EReal)
    (b2 : (⟨2, ![1, 32]⟩ : Shape).Idx → EReal) (d3 : (⟨2, ![32, 4]⟩ : Shape).Idx → EReal)
    (b3 : (⟨2, ![1, 4]⟩ : Shape).Idx → EReal) : (⟨2, ![800000, 4]⟩ : Shape).Idx → EReal :=
  fun i => decodeOut hs hd ea d1s d1d d1e b1 d2 b2 d3 b3 (i 0) (i 1)

theorem decode_apply (hs hd : (⟨2, ![800000, 64]⟩ : Shape).Idx → EReal) (ea : (⟨2, ![800000, 5]⟩ : Shape).Idx → EReal)
    (d1s d1d : (⟨2, ![64, 64]⟩ : Shape).Idx → EReal) (d1e : (⟨2, ![5, 64]⟩ : Shape).Idx → EReal)
    (b1 : (⟨2, ![1, 64]⟩ : Shape).Idx → EReal) (d2 : (⟨2, ![64, 32]⟩ : Shape).Idx → EReal)
    (b2 : (⟨2, ![1, 32]⟩ : Shape).Idx → EReal) (d3 : (⟨2, ![32, 4]⟩ : Shape).Idx → EReal)
    (b3 : (⟨2, ![1, 4]⟩ : Shape).Idx → EReal) (e : Fin 800000) (o : Fin 4) :
    decode hs hd ea d1s d1d d1e b1 d2 b2 d3 b3 (ix2 e o) = decodeOut hs hd ea d1s d1d d1e b1 d2 b2 d3 b3 e o := rfl

/-- The decoded array at an index whose coordinates are the edge `e` and the channel `o`. -/
theorem decode_at (hs hd : (⟨2, ![800000, 64]⟩ : Shape).Idx → EReal) (ea : (⟨2, ![800000, 5]⟩ : Shape).Idx → EReal)
    (d1s d1d : (⟨2, ![64, 64]⟩ : Shape).Idx → EReal) (d1e : (⟨2, ![5, 64]⟩ : Shape).Idx → EReal)
    (b1 : (⟨2, ![1, 64]⟩ : Shape).Idx → EReal) (d2 : (⟨2, ![64, 32]⟩ : Shape).Idx → EReal)
    (b2 : (⟨2, ![1, 32]⟩ : Shape).Idx → EReal) (d3 : (⟨2, ![32, 4]⟩ : Shape).Idx → EReal)
    (b3 : (⟨2, ![1, 4]⟩ : Shape).Idx → EReal) (i : (⟨2, ![800000, 4]⟩ : Shape).Idx) (e : Fin 800000) (o : Fin 4)
    (he : (i 0).val = e.val) (ho : (i 1).val = o.val) :
    decode hs hd ea d1s d1d d1e b1 d2 b2 d3 b3 i = decodeOut hs hd ea d1s d1d d1e b1 d2 b2 d3 b3 e o := by
  have hi : i = ix2 e o := funext fun a => Fin.ext (by
    match a with
    | ⟨0, _⟩ => exact he
    | ⟨1, _⟩ => exact ho)
  rw [hi]
  rfl

/-- Row `e` of the decoder reads only row `e` of the per-edge arrays: two families of per-edge arrays, of any
    two lengths, that agree on one row each give the same decoded row. -/
theorem decodeOut_congr {N M : Nat}
    (hs hd : (⟨2, ![N, 64]⟩ : Shape).Idx → EReal) (ea : (⟨2, ![N, 5]⟩ : Shape).Idx → EReal)
    (hs' hd' : (⟨2, ![M, 64]⟩ : Shape).Idx → EReal) (ea' : (⟨2, ![M, 5]⟩ : Shape).Idx → EReal)
    (d1s d1d : (⟨2, ![64, 64]⟩ : Shape).Idx → EReal) (d1e : (⟨2, ![5, 64]⟩ : Shape).Idx → EReal)
    (b1 : (⟨2, ![1, 64]⟩ : Shape).Idx → EReal) (d2 : (⟨2, ![64, 32]⟩ : Shape).Idx → EReal)
    (b2 : (⟨2, ![1, 32]⟩ : Shape).Idx → EReal) (d3 : (⟨2, ![32, 4]⟩ : Shape).Idx → EReal)
    (b3 : (⟨2, ![1, 4]⟩ : Shape).Idx → EReal) (e : Fin N) (e' : Fin M) (o : Fin 4)
    (hsrc : ∀ k : Fin 64, hs (ix2 e k) = hs' (ix2 e' k)) (hdst : ∀ k : Fin 64, hd (ix2 e k) = hd' (ix2 e' k))
    (hattr : ∀ k : Fin 5, ea (ix2 e k) = ea' (ix2 e' k)) :
    decodeOut hs hd ea d1s d1d d1e b1 d2 b2 d3 b3 e o = decodeOut hs' hd' ea' d1s d1d d1e b1 d2 b2 d3 b3 e' o := by
  have h0 : ∀ h : Fin 64, decodeZ0 hs hd ea d1s d1d d1e b1 e h = decodeZ0 hs' hd' ea' d1s d1d d1e b1 e' h := fun h => by
    unfold decodeZ0
    rw [Finset.sum_congr rfl fun (k : Fin 64) _ => congrArg (· * d1s (ix2 k h)) (hsrc k),
      Finset.sum_congr rfl fun (k : Fin 64) _ => congrArg (· * d1d (ix2 k h)) (hdst k),
      Finset.sum_congr rfl fun (k : Fin 5) _ => congrArg (· * d1e (ix2 k h)) (hattr k)]
  have h1 : ∀ h' : Fin 32, decodeZ1 hs hd ea d1s d1d d1e b1 d2 b2 e h' = decodeZ1 hs' hd' ea' d1s d1d d1e b1 d2 b2 e' h' := fun h' => by
    unfold decodeZ1 decodeZ
    rw [Finset.sum_congr rfl fun (h : Fin 64) _ => congrArg (fun z => max z 0 * d2 (ix2 h h')) (h0 h)]
  unfold decodeOut
  rw [Finset.sum_congr rfl fun (h' : Fin 32) _ => congrArg (fun z => max z 0 * d3 (ix2 h' o)) (h1 h')]

end Cert.KernelIdeal.Region3

end
-- ==== Proof.Region3Matmul.lean ====
/-
  The four matrix products of the edge decoder's body, each read at one entry.

  At the extended reals a product of a block of rows with a weight matrix, accumulated into zero, is at entry
  `(p, q)` the finite sum over the contracted index `k` of `lhs (p, k) · rhs (k, q)`: the contraction has one
  axis, so its index set is `Fin K`, and the operands' indices at an output entry and a contraction position
  are `(p, k)` and `(k, q)`.
-/
import proofs.«163663_j28123445854866_2_alg».proof.Proof.Gen.KernelIdeal
import Idealize.ShloMosaic.Lib.ValueIdx
import Idealize.ShloMosaic.PureOps.Ideal.Laws

noncomputable section

open scoped BigOperators

namespace Cert.KernelIdeal.Region3

open Cert.KernelIdeal Cert.KernelIdeal.Gen
open Idealize.ShloMosaic Idealize.ShloMosaic.TcCoe Idealize.SL.Sem
open Idealize.ShloMosaic.ValueIdx

/-! ### a block of 16000 rows of 64 features times a 64 × 64 weight matrix -/

theorem src_lhs_row (i : S16000x64.Idx) (q : dot_S16000x64_S64x64_S16000x64_1_0_0_1_n_n.contr.Idx) :
    (dot_S16000x64_S64x64_S16000x64_1_0_0_1_n_n.lhsIdx i q 0).val = (i 0).val := by
  unfold DotDims.lhsIdx
  rw [dif_neg (show ¬(0 : Fin S16000x64.rank) ∈ dot_S16000x64_S64x64_S16000x64_1_0_0_1_n_n.lhsBatch by decide), dif_pos (show (0 : Fin S16000x64.rank) ∈ dot_S16000x64_S64x64_S16000x64_1_0_0_1_n_n.lhsNonContracting by decide)]
  rfl
theorem src_lhs_col (i : S16000x64.Idx) (q : dot_S16000x64_S64x64_S16000x64_1_0_0_1_n_n.contr.Idx) :
    (dot_S16000x64_S64x64_S16000x64_1_0_0_1_n_n.lhsIdx i q 1).val = (q ⟨0, by decide⟩).val :=
  dot_S16000x64_S64x64_S16000x64_1_0_0_1_n_n.lhsIdx_val_of_single rfl i q
theorem src_rhs_row (i : S16000x64.Idx) (q : dot_S16000x64_S64x64_S16000x64_1_0_0_1_n_n.contr.Idx) :
    (dot_S16000x64_S64x64_S16000x64_1_0_0_1_n_n.rhsIdx i q 0).val = (q ⟨0, by decide⟩).val :=
  dot_S16000x64_S64x64_S16000x64_1_0_0_1_n_n.rhsIdx_val_of_single rfl i q
theorem src_rhs_col (i : S16000x64.Idx) (q : dot_S16000x64_S64x64_S16000x64_1_0_0_1_n_n.contr.Idx) :
    (dot_S16000x64_S64x64_S16000x64_1_0_0_1_n_n.rhsIdx i q 1).val = (i 1).val := by
  unfold DotDims.rhsIdx
  rw [dif_neg (show ¬(1 : Fin S64x64.rank) ∈ dot_S16000x64_S64x64_S16000x64_1_0_0_1_n_n.rhsBatch by decide), dif_pos (show (1 : Fin S64x64.rank) ∈ dot_S16000x64_S64x64_S16000x64_1_0_0_1_n_n.rhsNonContracting by decide)]
  rfl

/-- The product into a zero accumulator, at row `p` and column `q`: the sum over the contracted index `k` of the left
    operand at `(p, k)` times the right operand at `(k, q)`. -/
theorem src_matmul_apply {φ₁ φ₂ : FTy} (lhs : FVec Ideal S16000x64 φ₁) (rhs : FVec Ideal S64x64 φ₂) (p : Fin 16000) (q : Fin 64) :
    matmul dot_S16000x64_S64x64_S16000x64_1_0_0_1_n_n none lhs rhs (constant (F := Ideal) S16000x64 .f32 0x00000000#32) (ix2 p q)
      = ∑ k : Fin 64, lhs (ix2 p k) * rhs (ix2 k q) := by
  show FloatOps.matmul dot_S16000x64_S64x64_S16000x64_1_0_0_1_n_n none lhs rhs (constant (F := Ideal) S16000x64 .f32 0x00000000#32) (ix2 p q) = _
  rw [Ideal.matmul_constant_zero_apply, ← Equiv.sum_comp (contrEquiv1 dot_S16000x64_S64x64_S16000x64_1_0_0_1_n_n 64 rfl rfl).symm]
  refine Finset.sum_congr rfl fun k _ => ?_
  have hk := contrEquiv1_symm_val dot_S16000x64_S64x64_S16000x64_1_0_0_1_n_n 64 rfl rfl k
  have el : dot_S16000x64_S64x64_S16000x64_1_0_0_1_n_n.lhsIdx (ix2 p q) ((contrEquiv1 dot_S16000x64_S64x64_S16000x64_1_0_0_1_n_n 64 rfl rfl).symm k) = ix2 p k := funext fun a => Fin.ext (by
    match a with
    | ⟨0, _⟩ => exact src_lhs_row _ _
    | ⟨1, _⟩ => exact (src_lhs_col _ _).trans hk)
  have er : dot_S16000x64_S64x64_S16000x64_1_0_0_1_n_n.rhsIdx (ix2 p q) ((contrEquiv1 dot_S16000x64_S64x64_S16000x64_1_0_0_1_n_n 64 rfl rfl).symm k) = ix2 k q := funext fun a => Fin.ext (by
    match a with
    | ⟨0, _⟩ => exact (src_rhs_row _ _).trans hk
    | ⟨1, _⟩ => exact src_rhs_col _ _)
  rw [el, er]

/-! ### a block of 16000 rows of 5 edge attributes times a 5 × 64 weight matrix -/

theorem attr_lhs_row (i : S16000x64.Idx) (q : dot_S16000x5_S5x64_S16000x64_1_0_0_1_n_n.contr.Idx) :
    (dot_S16000x5_S5x64_S16000x64_1_0_0_1_n_n.lhsIdx i q 0).val = (i 0).val := by
  unfold DotDims.lhsIdx
  rw [dif_neg (show ¬(0 : Fin S16000x5.rank) ∈ dot_S16000x5_S5x64_S16000x64_1_0_0_1_n_n.lhsBatch by decide), dif_pos (show (0 : Fin S16000x5.rank) ∈ dot_S16000x5_S5x64_S16000x64_1_0_0_1_n_n.lhsNonContracting by decide)]
  rfl
theorem attr_lhs_col (i : S16000x64.Idx) (q : dot_S16000x5_S5x64_S16000x64_1_0_0_1_n_n.contr.Idx) :
    (dot_S16000x5_S5x64_S16000x64_1_0_0_1_n_n.lhsIdx i q 1).val = (q ⟨0, by decide⟩).val :=
  dot_S16000x5_S5x64_S16000x64_1_0_0_1_n_n.lhsIdx_val_of_single rfl i q
theorem attr_rhs_row (i : S16000x64.Idx) (q : dot_S16000x5_S5x64_S16000x64_1_0_0_1_n_n.contr.Idx) :
    (dot_S16000x5_S5x64_S16000x64_1_0_0_1_n_n.rhsIdx i q 0).val = (q ⟨0, by decide⟩).val :=
  dot_S16000x5_S5x64_S16000x64_1_0_0_1_n_n.rhsIdx_val_of_single rfl i q
theorem attr_rhs_col (i : S16000x64.Idx) (q : dot_S16000x5_S5x64_S16000x64_1_0_0_1_n_n.contr.Idx) :
    (dot_S16000x5_S5x64_S16000x64_1_0_0_1_n_n.rhsIdx i q 1).val = (i 1).val := by
  unfold DotDims.rhsIdx
  rw [dif_neg (show ¬(1 : Fin S5x64.rank) ∈ dot_S16000x5_S5x64_S16000x64_1_0_0_1_n_n.rhsBatch by decide), dif_pos (show (1 : Fin S5x64.rank) ∈ dot_S16000x5_S5x64_S16000x64_1_0_0_1_n_n.rhsNonContracting by decide)]
  rfl

/-- The product into a zero accumulator, at row `p` and column `q`: the sum over the contracted index `k` of the left
    operand at `(p, k)` times the right operand at `(k, q)`. -/
theorem attr_matmul_apply {φ₁ φ₂ : FTy} (lhs : FVec Ideal S16000x5 φ₁) (rhs : FVec Ideal S5x64 φ₂) (p : Fin 16000) (q : Fin 64) :
    matmul dot_S16000x5_S5x64_S16000x64_1_0_0_1_n_n none lhs rhs (constant (F := Ideal) S16000x64 .f32 0x00000000#32) (ix2 p q)
      = ∑ k : Fin 5, lhs (ix2 p k) * rhs (ix2 k q) := by
  show FloatOps.matmul dot_S16000x5_S5x64_S16000x64_1_0_0_1_n_n none lhs rhs (constant (F := Ideal) S16000x64 .f32 0x00000000#32) (ix2 p q) = _
  rw [Ideal.matmul_constant_zero_apply, ← Equiv.sum_comp (contrEquiv1 dot_S16000x5_S5x64_S16000x64_1_0_0_1_n_n 5 rfl rfl).symm]
  refine Finset.sum_congr rfl fun k _ => ?_
  have hk := contrEquiv1_symm_val dot_S16000x5_S5x64_S16000x64_1_0_0_1_n_n 5 rfl rfl k
  have el : dot_S16000x5_S5x64_S16000x64_1_0_0_1_n_n.lhsIdx (ix2 p q) ((contrEquiv1 dot_S16000x5_S5x64_S16000x64_1_0_0_1_n_n 5 rfl rfl).symm k) = ix2 p k := funext fun a => Fin.ext (by
    match a with
    | ⟨0, _⟩ => exact attr_lhs_row _ _
    | ⟨1, _⟩ => exact (attr_lhs_col _ _).trans hk)
  have er : dot_S16000x5_S5x64_S16000x64_1_0_0_1_n_n.rhsIdx (ix2 p q) ((contrEquiv1 dot_S16000x5_S5x64_S16000x64_1_0_0_1_n_n 5 rfl rfl).symm k) = ix2 k q := funext fun a => Fin.ext (by
    match a with
    | ⟨0, _⟩ => exact (attr_rhs_row _ _).trans hk
    | ⟨1, _⟩ => exact attr_rhs_col _ _)
  rw [el, er]

/-! ### a block of 16000 rows of 64 hidden units times a 64 × 32 weight matrix -/

theorem hidden_lhs_row (i : S16000x32.Idx) (q : dot_S16000x64_S64x32_S16000x32_1_0_0_1_n_n.contr.Idx) :
    (dot_S16000x64_S64x32_S16000x32_1_0_0_1_n_n.lhsIdx i q 0).val = (i 0).val := by
  unfold DotDims.lhsIdx
  rw [dif_neg (show ¬(0 : Fin S16000x64.rank) ∈ dot_S16000x64_S64x32_S16000x32_1_0_0_1_n_n.lhsBatch by decide), dif_pos (show (0 : Fin S16000x64.rank) ∈ dot_S16000x64_S64x32_S16000x32_1_0_0_1_n_n.lhsNonContracting by decide)]
  rfl
theorem hidden_lhs_col (i : S16000x32.Idx) (q : dot_S16000x64_S64x32_S16000x32_1_0_0_1_n_n.contr.Idx) :
    (dot_S16000x64_S64x32_S16000x32_1_0_0_1_n_n.lhsIdx i q 1).val = (q ⟨0, by decide⟩).val :=
  dot_S16000x64_S64x32_S16000x32_1_0_0_1_n_n.lhsIdx_val_of_single rfl i q
theorem hidden_rhs_row (i : S16000x32.Idx) (q : dot_S16000x64_S64x32_S16000x32_1_0_0_1_n_n.contr.Idx) :
    (dot_S16000x64_S64x32_S16000x32_1_0_0_1_n_n.rhsIdx i q 0).val = (q ⟨0, by decide⟩).val :=
  dot_S16000x64_S64x32_S16000x32_1_0_0_1_n_n.rhsIdx_val_of_single rfl i q
theorem hidden_rhs_col (i : S16000x32.Idx) (q : dot_S16000x64_S64x32_S16000x32_1_0_0_1_n_n.contr.Idx) :
    (dot_S16000x64_S64x32_S16000x32_1_0_0_1_n_n.rhsIdx i q 1).val = (i 1).val := by
  unfold DotDims.rhsIdx
  rw [dif_neg (show ¬(1 : Fin S64x32.rank) ∈ dot_S16000x64_S64x32_S16000x32_1_0_0_1_n_n.rhsBatch by decide), dif_pos (show (1 : Fin S64x32.rank) ∈ dot_S16000x64_S64x32_S16000x32_1_0_0_1_n_n.rhsNonContracting by decide)]
  rfl

/-- The product into a zero accumulator, at row `p` and column `q`: the sum over the contracted index `k` of the left
    operand at `(p, k)` times the right operand at `(k, q)`. -/
theorem hidden_matmul_apply {φ₁ φ₂ : FTy} (lhs : FVec Ideal S16000x64 φ₁) (rhs : FVec Ideal S64x32 φ₂) (p : Fin 16000) (q : Fin 32) :
    matmul dot_S16000x64_S64x32_S16000x32_1_0_0_1_n_n none lhs rhs (constant (F := Ideal) S16000x32 .f32 0x00000000#32) (ix2 p q)
      = ∑ k : Fin 64, lhs (ix2 p k) * rhs (ix2 k q) := by
  show FloatOps.matmul dot_S16000x64_S64x32_S16000x32_1_0_0_1_n_n none lhs rhs (constant (F := Ideal) S16000x32 .f32 0x00000000#32) (ix2 p q) = _
  rw [Ideal.matmul_constant_zero_apply, ← Equiv.sum_comp (contrEquiv1 dot_S16000x64_S64x32_S16000x32_1_0_0_1_n_n 64 rfl rfl).symm]
  refine Finset.sum_congr rfl fun k _ => ?_
  have hk := contrEquiv1_symm_val dot_S16000x64_S64x32_S16000x32_1_0_0_1_n_n 64 rfl rfl k
  have el : dot_S16000x64_S64x32_S16000x32_1_0_0_1_n_n.lhsIdx (ix2 p q) ((contrEquiv1 dot_S16000x64_S64x32_S16000x32_1_0_0_1_n_n 64 rfl rfl).symm k) = ix2 p k := funext fun a => Fin.ext (by
    match a with
    | ⟨0, _⟩ => exact hidden_lhs_row _ _
    | ⟨1, _⟩ => exact (hidden_lhs_col _ _).trans hk)
  have er : dot_S16000x64_S64x32_S16000x32_1_0_0_1_n_n.rhsIdx (ix2 p q) ((contrEquiv1 dot_S16000x64_S64x32_S16000x32_1_0_0_1_n_n 64 rfl rfl).symm k) = ix2 k q := funext fun a => Fin.ext (by
    match a with
    | ⟨0, _⟩ => exact (hidden_rhs_row _ _).trans hk
    | ⟨1, _⟩ => exact hidden_rhs_col _ _)
  rw [el, er]

/-! ### a block of 16000 rows of 32 hidden units times a 32 × 4 weight matrix -/

theorem out_lhs_row (i : S16000x4.Idx) (q : dot_S16000x32_S32x4_S16000x4_1_0_0_1_n_n.contr.Idx) :
    (dot_S16000x32_S32x4_S16000x4_1_0_0_1_n_n.lhsIdx i q 0).val = (i 0).val := by
  unfold DotDims.lhsIdx
  rw [dif_neg (show ¬(0 : Fin S16000x32.rank) ∈ dot_S16000x32_S32x4_S16000x4_1_0_0_1_n_n.lhsBatch by decide), dif_pos (show (0 : Fin S16000x32.rank) ∈ dot_S16000x32_S32x4_S16000x4_1_0_0_1_n_n.lhsNonContracting by decide)]
  rfl
theorem out_lhs_col (i : S16000x4.Idx) (q : dot_S16000x32_S32x4_S16000x4_1_0_0_1_n_n.contr.Idx) :
    (dot_S16000x32_S32x4_S16000x4_1_0_0_1_n_n.lhsIdx i q 1).val = (q ⟨0, by decide⟩).val :=
  dot_S16000x32_S32x4_S16000x4_1_0_0_1_n_n.lhsIdx_val_of_single rfl i q
theorem out_rhs_row (i : S16000x4.Idx) (q : dot_S16000x32_S32x4_S16000x4_1_0_0_1_n_n.contr.Idx) :
    (dot_S16000x32_S32x4_S16000x4_1_0_0_1_n_n.rhsIdx i q 0).val = (q ⟨0, by decide⟩).val :=
  dot_S16000x32_S32x4_S16000x4_1_0_0_1_n_n.rhsIdx_val_of_single rfl i q
theorem out_rhs_col (i : S16000x4.Idx) (q : dot_S16000x32_S32x4_S16000x4_1_0_0_1_n_n.contr.Idx) :
    (dot_S16000x32_S32x4_S16000x4_1_0_0_1_n_n.rhsIdx i q 1).val = (i 1).val := by
  unfold DotDims.rhsIdx
  rw [dif_neg (show ¬(1 : Fin S32x4.rank) ∈ dot_S16000x32_S32x4_S16000x4_1_0_0_1_n_n.rhsBatch by decide), dif_pos (show (1 : Fin S32x4.rank) ∈ dot_S16000x32_S32x4_S16000x4_1_0_0_1_n_n.rhsNonContracting by decide)]
  rfl

/-- The product into a zero accumulator, at row `p` and column `q`: the sum over the contracted index `k` of the left
    operand at `(p, k)` times the right operand at `(k, q)`. -/
theorem out_matmul_apply {φ₁ φ₂ : FTy} (lhs : FVec Ideal S16000x32 φ₁) (rhs : FVec Ideal S32x4 φ₂) (p : Fin 16000) (q : Fin 4) :
    matmul dot_S16000x32_S32x4_S16000x4_1_0_0_1_n_n none lhs rhs (constant (F := Ideal) S16000x4 .f32 0x00000000#32) (ix2 p q)
      = ∑ k : Fin 32, lhs (ix2 p k) * rhs (ix2 k q) := by
  show FloatOps.matmul dot_S16000x32_S32x4_S16000x4_1_0_0_1_n_n none lhs rhs (constant (F := Ideal) S16000x4 .f32 0x00000000#32) (ix2 p q) = _
  rw [Ideal.matmul_constant_zero_apply, ← Equiv.sum_comp (contrEquiv1 dot_S16000x32_S32x4_S16000x4_1_0_0_1_n_n 32 rfl rfl).symm]
  refine Finset.sum_congr rfl fun k _ => ?_
  have hk := contrEquiv1_symm_val dot_S16000x32_S32x4_S16000x4_1_0_0_1_n_n 32 rfl rfl k
  have el : dot_S16000x32_S32x4_S16000x4_1_0_0_1_n_n.lhsIdx (ix2 p q) ((contrEquiv1 dot_S16000x32_S32x4_S16000x4_1_0_0_1_n_n 32 rfl rfl).symm k) = ix2 p k := funext fun a => Fin.ext (by
    match a with
    | ⟨0, _⟩ => exact out_lhs_row _ _
    | ⟨1, _⟩ => exact (out_lhs_col _ _).trans hk)
  have er : dot_S16000x32_S32x4_S16000x4_1_0_0_1_n_n.rhsIdx (ix2 p q) ((contrEquiv1 dot_S16000x32_S32x4_S16000x4_1_0_0_1_n_n 32 rfl rfl).symm k) = ix2 k q := funext fun a => Fin.ext (by
    match a with
    | ⟨0, _⟩ => exact (out_rhs_row _ _).trans hk
    | ⟨1, _⟩ => exact out_rhs_col _ _)
  rw [el, er]

end Cert.KernelIdeal.Region3

end
-- ==== Proof.Region3Payload.lean ====
/-
  The edge decoder's body at one entry of its output block.

  The body loads a block of 16000 edges — their source features, destination features and attributes — and the
  decoder's weights, and stores one block of 16000 × 4 outputs.  At the extended reals a change of float format
  is the identity and every operation is exact, so the stored value at row `p` and channel `o` is the three-layer
  perceptron of the specification, `decodeOut`, read on the block's own rows: the products are finite sums over
  the hidden index, the biases are rows broadcast over the block, the rectifier is `max · 0`.
-/
import proofs.«163663_j28123445854866_2_alg».proof.Proof.Gen.KernelIdeal.Skeleton
import proofs.«163663_j28123445854866_2_alg».proof.Proof.Region3Spec
import proofs.«163663_j28123445854866_2_alg».proof.Proof.Region3Matmul
import Idealize.ShloMosaic.Lib.ValueLayout

noncomputable section

open scoped BigOperators

namespace Cert.KernelIdeal.Region3

open Cert.KernelIdeal Cert.KernelIdeal.Gen
open Idealize.ShloMosaic Idealize.ShloMosaic.TcCoe Idealize.SL.Sem
open Idealize.ShloMosaic.ValueIdx

/-- The rectifier's zero: the scalar constant the body broadcasts is the extended real `0`. -/
theorem scalar_zero : (Scalar.ofBits .f32 0x00000000#32 : Ideal .f32) = 0 := Ideal.ofBits_zero_f32

/-- The body's first part — the two hidden layers — at row `p` and hidden unit `h'` of the block: the second layer
    of the specification on the block's rows, rectified. -/
theorem hidden_apply (x0 x1 : Vec Ideal S16000x64 .bf16) (x2 : Vec Ideal S16000x5 .f32) (x3 x4 : Vec Ideal S64x64 .bf16)
    (x5 : Vec Ideal S5x64 .bf16) (x6 : Vec Ideal S1x64 .f32) (x7 : Vec Ideal S64x32 .bf16) (x8 : Vec Ideal S1x32 .f32)
    (p : Fin 16000) (h' : Fin 32) :
    k3_pay2 (F := Ideal) x0 x1 x2 x3 x4 x5 x6 x7 x8 (ix2 p h')
      = max (decodeZ1 (N := 16000) x0 x1 x2 x3 x4 x5 x6 x7 x8 p h') 0 := by
  unfold k3_pay2 decodeZ1 decodeZ decodeZ0
  simp only [shapeCast_self, truncf_apply, maximumf_apply, addf_apply, broadcast_apply, src_matmul_apply, attr_matmul_apply,
    hidden_matmul_apply, broadcastTo_1b_ab_apply, scalar_zero]

/-- The body's stored value at row `p` and channel `o` of the block: the decoder of the specification on the block's
    rows. -/
theorem payload_apply (x0 x1 : Vec Ideal S16000x64 .bf16) (x2 : Vec Ideal S16000x5 .f32) (x3 x4 : Vec Ideal S64x64 .bf16)
    (x5 : Vec Ideal S5x64 .bf16) (x6 : Vec Ideal S1x64 .f32) (x7 : Vec Ideal S64x32 .bf16) (x8 : Vec Ideal S1x32 .f32)
    (x9 : Vec Ideal S32x4 .bf16) (x10 : Vec Ideal S1x4 .f32) (p : Fin 16000) (o : Fin 4) :
    k3_pay1 (F := Ideal) (k3_pay2 (F := Ideal) x0 x1 x2 x3 x4 x5 x6 x7 x8) x9 x10 (ix2 p o)
      = decodeOut (N := 16000) x0 x1 x2 x3 x4 x5 x6 x7 x8 x9 x10 p o := by
  unfold k3_pay1 decodeOut
  simp only [shapeCast_self, addf_apply, out_matmul_apply, broadcastTo_1b_ab_apply, hidden_apply]

end Cert.KernelIdeal.Region3

end
-- ==== Proof.Region3.lean ====
/-
  The edge decoder's region: the result array after its fifty grid points.

  The 800000 edges are cut into fifty blocks of 16000 rows; point `t` of the grid loads rows
  `t · 16000 … t · 16000 + 15999` of the source features, destination features and edge attributes, loads the
  decoder's weights whole, and writes back rows `t · 16000 …` of the result.  Row `e` of the decoder reads only row
  `e` of the per-edge arrays, so what point `t` writes back is block `t` of ONE array, the decoder of the whole
  arrays (`decode`); the fifty blocks tile the result (row `e` lies in block `e / 16000`), so the result array ends
  holding `decode` of the arrays as the region found them.
-/
import proofs.«163663_j28123445854866_2_alg».proof.Proof.Gen.KernelIdeal.Frame
import proofs.«163663_j28123445854866_2_alg».proof.Proof.Region3Payload
import Idealize.ShloMosaic.Lib.Pipeline.Value

set_option maxRecDepth 16384

noncomputable section

open scoped BigOperators

namespace Cert.KernelIdeal.Region3

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- What the body leaves in the output's staging buffer, at row `p` and channel `o`: the decoder on the rows of
    the loaded blocks.  The body loads and stores whole staging buffers, so each load reads its buffer and the one
    store leaves its value. -/
theorem out_block_apply (x0 x1 : Vec Ideal S16000x64 .bf16) (x2 : Vec Ideal S16000x5 .f32) (x3 x4 : Vec Ideal S64x64 .bf16)
    (x5 : Vec Ideal S5x64 .bf16) (x6 : Vec Ideal S1x64 .f32) (x7 : Vec Ideal S64x32 .bf16) (x8 : Vec Ideal S1x32 .f32)
    (x9 : Vec Ideal S32x4 .bf16) (x10 : Vec Ideal S1x4 .f32) (p : Fin 16000) (o : Fin 4) :
    out3_11 (F := Ideal) x0 x1 x2 x3 x4 x5 x6 x7 x8 x9 x10 (ix2 p o)
      = decodeOut (N := 16000) x0 x1 x2 x3 x4 x5 x6 x7 x8 x9 x10 p o := by
  unfold out3_11
  rw [View.canon_unit_zero zero_offsets]
  simp only [View.ld_unit_zero (S := S16000x64) zero_offsets, View.ld_unit_zero (S := S16000x5) zero_offsets, View.ld_unit_zero (S := S64x64) zero_offsets, View.ld_unit_zero (S := S5x64) zero_offsets, View.ld_unit_zero (S := S1x64) zero_offsets, View.ld_unit_zero (S := S64x32) zero_offsets, View.ld_unit_zero (S := S1x32) zero_offsets, View.ld_unit_zero (S := S32x4) zero_offsets, View.ld_unit_zero (S := S1x4) zero_offsets]
  exact payload_apply x0 x1 x2 x3 x4 x5 x6 x7 x8 x9 x10 p o

/-- The windows' block indices, decided once over the fifty points: the three per-edge inputs and the output move
    down their arrays one block of rows per point; the weights and biases stay at block (0, 0). -/
theorem index_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = 0 ∧ win3_10.index t (1 : Fin 2) = 0)
    ∧ (win3_11.index t (0 : Fin 2) = t.val ∧ win3_11.index t (1 : Fin 2) = 0) :=
  (by decide +kernel : ∀ t : Fin grid3.N, _)

/-- The edge that row `p` of the blocks at point `t` belongs to. -/
def edgeOf (t : Fin cfg3.N) (p : Fin 16000) : Fin 800000 :=
  ⟨t.val * 16000 + p.val, by have hN : cfg3.N = 50 := N_3; have := t.isLt; have := p.isLt; omega⟩

theorem edgeOf_val (t : Fin cfg3.N) (p : Fin 16000) : (edgeOf t p).val = t.val * 16000 + p.val := rfl

/-- Row `p` of window 0's block at point `t` is row `t · 16000 + p` of its array. -/
theorem src_block_apply (c : Dev nD) (t : Fin cfg3.N) (p : Fin 16000) (k : Fin 64) :
    (iblk3 V c 0 t : Vec Ideal S16000x64 .bf16) (ix2 p k) = (V c main_v50 : S800000x64.Idx → EReal) (ix2 (edgeOf t p) k) := by
  unfold iblk3
  rw [View.read_apply]
  show V c main_v50 _ = V c main_v50 _
  congr 1
  funext a
  apply Fin.ext
  match a with
  | ⟨0, _⟩ => show win3_0.index t (0 : Fin 2) * 16000 + 1 * p.val = t.val * 16000 + p.val; rw [(index_facts t).1.1]; omega
  | ⟨1, _⟩ => show win3_0.index t (1 : Fin 2) * 64 + 1 * k.val = k.val; rw [(index_facts t).1.2]; omega

/-- Row `p` of window 1's block at point `t` is row `t · 16000 + p` of its array. -/
theorem dst_block_apply (c : Dev nD) (t : Fin cfg3.N) (p : Fin 16000) (k : Fin 64) :
    (iblk3 V c 1 t : Vec Ideal S16000x64 .bf16) (ix2 p k) = (V c main_v57 : S800000x64.Idx → EReal) (ix2 (edgeOf t p) k) := by
  unfold iblk3
  rw [View.read_apply]
  show V c main_v57 _ = V c main_v57 _
  congr 1
  funext a
  apply Fin.ext
  match a with
  | ⟨0, _⟩ => show win3_1.index t (0 : Fin 2) * 16000 + 1 * p.val = t.val * 16000 + p.val; rw [(index_facts t).2.1.1]; omega
  | ⟨1, _⟩ => show win3_1.index t (1 : Fin 2) * 64 + 1 * k.val = k.val; rw [(index_facts t).2.1.2]; omega

/-- Row `p` of window 2's block at point `t` is row `t · 16000 + p` of its array. -/
theorem attr_block_apply (c : Dev nD) (t : Fin cfg3.N) (p : Fin 16000) (k : Fin 5) :
    (iblk3 V c 2 t : Vec Ideal S16000x5 .f32) (ix2 p k) = (V c main_arg2 : S800000x5.Idx → EReal) (ix2 (edgeOf t p) k) := by
  unfold iblk3
  rw [View.read_apply]
  show V c main_arg2 _ = V c main_arg2 _
  congr 1
  funext a
  apply Fin.ext
  match a with
  | ⟨0, _⟩ => show win3_2.index t (0 : Fin 2) * 16000 + 1 * p.val = t.val * 16000 + p.val; rw [(index_facts t).2.2.1.1]; omega
  | ⟨1, _⟩ => show win3_2.index t (1 : Fin 2) * 5 + 1 * k.val = k.val; rw [(index_facts t).2.2.1.2]; omega

/-- Window 3's block at every point is its whole array. -/
theorem srcWeights_block (c : Dev nD) (t : Fin cfg3.N) :
    (iblk3 V c 3 t : Vec Ideal S64x64 .bf16) = (V c main_v59 : S64x64.Idx → EReal) := by
  funext y
  unfold iblk3
  rw [View.read_apply]
  show V c main_v59 _ = V c main_v59 y
  congr 1
  funext a
  apply Fin.ext
  match a with
  | ⟨0, _⟩ => show win3_3.index t (0 : Fin 2) * 64 + 1 * (y 0).val = (y 0).val; rw [(index_facts t).2.2.2.1.1]; omega
  | ⟨1, _⟩ => show win3_3.index t (1 : Fin 2) * 64 + 1 * (y 1).val = (y 1).val; rw [(index_facts t).2.2.2.1.2]; omega

/-- Window 4's block at every point is its whole array. -/
theorem dstWeights_block (c : Dev nD) (t : Fin cfg3.N) :
    (iblk3 V c 4 t : Vec Ideal S64x64 .bf16) = (V c main_v61 : S64x64.Idx → EReal) := by
  funext y
  unfold iblk3
  rw [View.read_apply]
  show V c main_v61 _ = V c main_v61 y
  congr 1
  funext a
  apply Fin.ext
  match a with
  | ⟨0, _⟩ => show win3_4.index t (0 : Fin 2) * 64 + 1 * (y 0).val = (y 0).val; rw [(index_facts t).2.2.2.2.1.1]; omega
  | ⟨1, _⟩ => show win3_4.index t (1 : Fin 2) * 64 + 1 * (y 1).val = (y 1).val; rw [(index_facts t).2.2.2.2.1.2]; omega

/-- Window 5's block at every point is its whole array. -/
theorem attrWeights_block (c : Dev nD) (t : Fin cfg3.N) :
    (iblk3 V c 5 t : Vec Ideal S5x64 .bf16) = (V c main_v63 : S5x64.Idx → EReal) := by
  funext y
  unfold iblk3
  rw [View.read_apply]
  show V c main_v63 _ = V c main_v63 y
  congr 1
  funext a
  apply Fin.ext
  match a with
  | ⟨0, _⟩ => show win3_5.index t (0 : Fin 2) * 5 + 1 * (y 0).val = (y 0).val; rw [(index_facts t).2.2.2.2.2.1.1]; omega
  | ⟨1, _⟩ => show win3_5.index t (1 : Fin 2) * 64 + 1 * (y 1).val = (y 1).val; rw [(index_facts t).2.2.2.2.2.1.2]; omega

/-- Window 6's block at every point is its whole array. -/
theorem bias1_block (c : Dev nD) (t : Fin cfg3.N) :
    (iblk3 V c 6 t : Vec Ideal S1x64 .f32) = (V c main_v66 : S1x64.Idx → EReal) := by
  funext y
  unfold iblk3
  rw [View.read_apply]
  show V c main_v66 _ = V c main_v66 y
  congr 1
  funext a
  apply Fin.ext
  match a with
  | ⟨0, _⟩ => show win3_6.index t (0 : Fin 2) * 1 + 1 * (y 0).val = (y 0).val; rw [(index_facts t).2.2.2.2.2.2.1.1]; omega
  | ⟨1, _⟩ => show win3_6.index t (1 : Fin 2) * 64 + 1 * (y 1).val = (y 1).val; rw [(index_facts t).2.2.2.2.2.2.1.2]; omega

/-- Window 7's block at every point is its whole array. -/
theorem weights2_block (c : Dev nD) (t : Fin cfg3.N) :
    (iblk3 V c 7 t : Vec Ideal S64x32 .bf16) = (V c main_v64 : S64x32.Idx → EReal) := by
  funext y
  unfold iblk3
  rw [View.read_apply]
  show V c main_v64 _ = V c main_v64 y
  congr 1
  funext a
  apply Fin.ext
  match a with
  | ⟨0, _⟩ => show win3_7.index t (0 : Fin 2) * 64 + 1 * (y 0).val = (y 0).val; rw [(index_facts t).2.2.2.2.2.2.2.1.1]; omega
  | ⟨1, _⟩ => show win3_7.index t (1 : Fin 2) * 32 + 1 * (y 1).val = (y 1).val; rw [(index_facts t).2.2.2.2.2.2.2.1.2]; omega

/-- Window 8's block at every point is its whole array. -/
theorem bias2_block (c : Dev nD) (t : Fin cfg3.N) :
    (iblk3 V c 8 t : Vec Ideal S1x32 .f32) = (V c main_v67 : S1x32.Idx → EReal) := by
  funext y
  unfold iblk3
  rw [View.read_apply]
  show V c main_v67 _ = V c main_v67 y
  congr 1
  funext a
  apply Fin.ext
  match a with
  | ⟨0, _⟩ => show win3_8.index t (0 : Fin 2) * 1 + 1 * (y 0).val = (y 0).val; rw [(index_facts t).2.2.2.2.2.2.2.2.1.1]; omega
  | ⟨1, _⟩ => show win3_8.index t (1 : Fin 2) * 32 + 1 * (y 1).val = (y 1).val; rw [(index_facts t).2.2.2.2.2.2.2.2.1.2]; omega

/-- Window 9's block at every point is its whole array. -/
theorem weights3_block (c : Dev nD) (t : Fin cfg3.N) :
    (iblk3 V c 9 t : Vec Ideal S32x4 .bf16) = (V c main_v65 : S32x4.Idx → EReal) := by
  funext y
  unfold iblk3
  rw [View.read_apply]
  show V c main_v65 _ = V c main_v65 y
  congr 1
  funext a
  apply Fin.ext
  match a with
  | ⟨0, _⟩ => show win3_9.index t (0 : Fin 2) * 32 + 1 * (y 0).val = (y 0).val; rw [(index_facts t).2.2.2.2.2.2.2.2.2.1.1]; omega
  | ⟨1, _⟩ => show win3_9.index t (1 : Fin 2) * 4 + 1 * (y 1).val = (y 1).val; rw [(index_facts t).2.2.2.2.2.2.2.2.2.1.2]; omega

/-- Window 10's block at every point is its whole array. -/
theorem bias3_block (c : Dev nD) (t : Fin cfg3.N) :
    (iblk3 V c 10 t : Vec Ideal S1x4 .f32) = (V c main_v68 : S1x4.Idx → EReal) := by
  funext y
  unfold iblk3
  rw [View.read_apply]
  show V c main_v68 _ = V c main_v68 y
  congr 1
  funext a
  apply Fin.ext
  match a with
  | ⟨0, _⟩ => show win3_10.index t (0 : Fin 2) * 1 + 1 * (y 0).val = (y 0).val; rw [(index_facts t).2.2.2.2.2.2.2.2.2.2.1.1]; omega
  | ⟨1, _⟩ => show win3_10.index t (1 : Fin 2) * 4 + 1 * (y 1).val = (y 1).val; rw [(index_facts t).2.2.2.2.2.2.2.2.2.2.1.2]; omega

/-- WHAT POINT `t` WRITES BACK is block `t` of the decoder of the arrays as the region finds them. -/
theorem flushed_decode (c : Dev nD) (t : Fin cfg3.N) :
    (dat3 (F := Ideal) V c).flushed 11 t
      = ((cfg3.win 11).blk t).view.read (Elt Ideal) (decode (V c main_v50) (V c main_v57) (V c main_arg2) (V c main_v59) (V c main_v61) (V c main_v63) (V c main_v66) (V c main_v64) (V c main_v67) (V c main_v65) (V c main_v68)) := by
  show (cfg3.win 11).cut (grid3.coords t) ((dat3 (F := Ideal) V c).after 11 t) = _
  rw [after3_11]
  funext j
  obtain ⟨p, o, rfl⟩ : ∃ (p : Fin 16000) (o : Fin 4), j = ix2 p o := ⟨j 0, j 1, eq_ix2 j⟩
  refine (out_block_apply (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) p o).trans ?_
  rw [srcWeights_block V c t, dstWeights_block V c t, attrWeights_block V c t, bias1_block V c t, weights2_block V c t,
    bias2_block V c t, weights3_block V c t, bias3_block V c t]
  refine Eq.trans ?_ (decode_at (V c main_v50) (V c main_v57) (V c main_arg2) (V c main_v59) (V c main_v61) (V c main_v63) (V c main_v66) (V c main_v64) (V c main_v67) (V c main_v65) (V c main_v68) (((cfg3.win 11).blk t).view.emb (ix2 p o)) (edgeOf t p) o ?_ ?_).symm
  · exact decodeOut_congr (iblk3 V c 0 t) (iblk3 V c 1 t) (iblk3 V c 2 t) (V c main_v50) (V c main_v57) (V c main_arg2)
      (V c main_v59) (V c main_v61) (V c main_v63) (V c main_v66) (V c main_v64) (V c main_v67) (V c main_v65) (V c main_v68)
      p (edgeOf t p) o (src_block_apply V c t p) (dst_block_apply V c t p) (attr_block_apply V c t p)
  · show win3_11.index t (0 : Fin 2) * 16000 + 1 * p.val = t.val * 16000 + p.val
    rw [(index_facts t).2.2.2.2.2.2.2.2.2.2.2.1]; omega
  · show win3_11.index t (1 : Fin 2) * 4 + 1 * o.val = o.val
    rw [(index_facts t).2.2.2.2.2.2.2.2.2.2.2.2]; omega

/-- An index of the result array is in point `t`'s block iff each coordinate is in the block's range on its axis. -/
theorem mem_block (t : Fin cfg3.N) (i : S800000x4.Idx) :
    i ∈ ((cfg3.win 11).blk t).view.set ↔ ∀ a : Fin 2, win3_11.index t a * S16000x4.size a ≤ (i a).val
      ∧ (i a).val < win3_11.index t a * S16000x4.size a + S16000x4.size a := by
  show i ∈ ((View.whole main_v69).slice (win3_11.rect t)).set ↔ _
  rw [View.set_slice_whole, Rect.mem_set_unit]
  exact Iff.rfl

/-- Every edge's row is written back by some point: row `e` by point `e / 16000`. -/
theorem covered (i : S800000x4.Idx) :
    ∃ t : Fin cfg3.N, (cfg3.win 11).flush t = true ∧ i ∈ ((cfg3.win 11).blk t).view.set := by
  have hN : cfg3.N = 50 := N_3
  have hi0 : (i 0).val < 800000 := (i 0).isLt
  have hi1 : (i 1).val < 4 := (i 1).isLt
  have ht : (i 0).val / 16000 < cfg3.N := by omega
  refine ⟨⟨(i 0).val / 16000, ht⟩, flush3_11 _, ?_⟩
  rw [mem_block]
  have e0 := (index_facts ⟨(i 0).val / 16000, ht⟩).2.2.2.2.2.2.2.2.2.2.2.1
  have e1 := (index_facts ⟨(i 0).val / 16000, ht⟩).2.2.2.2.2.2.2.2.2.2.2.2
  intro a
  match a with
  | ⟨0, _⟩ =>
    show win3_11.index ⟨(i 0).val / 16000, ht⟩ (0 : Fin 2) * 16000 ≤ (i 0).val
      ∧ (i 0).val < win3_11.index ⟨(i 0).val / 16000, ht⟩ (0 : Fin 2) * 16000 + 16000
    rw [e0]; show (i 0).val / 16000 * 16000 ≤ (i 0).val ∧ (i 0).val < (i 0).val / 16000 * 16000 + 16000; omega
  | ⟨1, _⟩ =>
    show win3_11.index ⟨(i 0).val / 16000, ht⟩ (1 : Fin 2) * 4 ≤ (i 1).val
      ∧ (i 1).val < win3_11.index ⟨(i 0).val / 16000, ht⟩ (1 : Fin 2) * 4 + 4
    rw [e1]; omega

/-- THE RESULT ARRAY after the region: the decoder of the per-edge arrays and the weights as the region finds them. -/
theorem final3 (c : Dev nD) :
    (dat3 (F := Ideal) V c).arrAt 11 cfg3.N = decode (V c main_v50) (V c main_v57) (V c main_arg2) (V c main_v59) (V c main_v61) (V c main_v63) (V c main_v66) (V c main_v64) (V c main_v67) (V c main_v65) (V c main_v68) :=
  (dat3 (F := Ideal) V c).arrAt_eq_of_cover 11 (decode (V c main_v50) (V c main_v57) (V c main_arg2) (V c main_v59) (V c main_v61) (V c main_v63) (V c main_v66) (V c main_v64) (V c main_v67) (V c main_v65) (V c main_v68))
    (fun t _ => flushed_decode V c t) (covered)

end Cert.KernelIdeal.Region3

end
-- ==== Proof.KHost.lean ====
/-
  The kernel program's buffers at the boundaries between its host stretches and its four pipelined regions, named.

  Each region's input arrays are what the host operations before it computed from the contents the previous region left;
  each region's output array is that region's function of its inputs (the regions' own value theorems).  The integer index
  arrays and the normaliser are computed once, by the same operations the reference applies, so they are named by the
  reference's stages; the float arrays are named by the regions' specifications.  Composed: the result buffer after the last
  region is the decoder specification of the gathered node array, the edge features and the decoder's weights.
-/
import proofs.«163663_j28123445854866_2_alg».proof.Proof.Gen.KernelIdeal.Frame
import proofs.«163663_j28123445854866_2_alg».proof.Proof.RefRead
import proofs.«163663_j28123445854866_2_alg».proof.Proof.KPersist
import proofs.«163663_j28123445854866_2_alg».proof.Proof.Region0Blocks
import proofs.«163663_j28123445854866_2_alg».proof.Proof.Region1Blocks
import proofs.«163663_j28123445854866_2_alg».proof.Proof.Region2Blocks
import proofs.«163663_j28123445854866_2_alg».proof.Proof.Region3
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.KernelIdeal.KHost

open Cert.KernelIdeal Cert.KernelIdeal.Gen Cert.KernelIdeal.KPersist
open Idealize.ShloMosaic Idealize.ShloMosaic.TcCoe Idealize.ShloMosaic.Tactic
open Idealize.SL.Sem
open Idealize.ShloMosaic.StableHlo

/-- The rewriting loop of the library's result lemmas, without its opening simplification: finishes the reads that a
    simplification pass leaves inside the pieces of a concatenation. -/
local macro "finish_results" : tactic =>
  `(tactic| repeat (first
               | rw [nullary_result] | rw [unary_result] | rw [binary_result] | rw [ternary_result] | rw [quaternary_result]
               | rw [reshape_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide)))

open Cert.KernelIdeal.Region0 Cert.KernelIdeal.Region1 Cert.KernelIdeal.Region2 Cert.KernelIdeal.Region3

/-! ## What the host operations compute, at any number type -/

section Host

variable {F : FTy → Type} [FloatOps F]
variable (m : (ℓ : Loc nD τ sig) → Buf (Elt F) ℓ) (ρ : Dev nD → PrngReg)

theorem W3_v1 (c : Dev nD) : W3 m ρ c (Proc.devRef .tc main_v1) = Cert.ReferenceIdeal.Read.val_main_v1 (F := F) (m ((c.tc : Thread nD τ).loc main_arg1)) := by
  dsimp only [W3, W2, W1, W0]
  after_results
  try rfl

theorem W3_v3 (c : Dev nD) : W3 m ρ c (Proc.devRef .tc main_v3) = Cert.ReferenceIdeal.Read.val_main_v3 (F := F) (m ((c.tc : Thread nD τ).loc main_arg1)) := by
  dsimp only [W3, W2, W1, W0]
  after_results
  try rfl

theorem W3_v5 (c : Dev nD) : W3 m ρ c (Proc.devRef .tc main_v5) = Cert.ReferenceIdeal.Read.val_main_v8 (F := F) (m ((c.tc : Thread nD τ).loc main_arg1)) := by
  dsimp only [W3, W2, W1, W0]
  after_results
  try rfl

theorem W3_v6 (c : Dev nD) : W3 m ρ c (Proc.devRef .tc main_v6) = Cert.ReferenceIdeal.Read.val_main_v9 (F := F) (m ((c.tc : Thread nD τ).loc main_arg1)) := by
  dsimp only [W3, W2, W1, W0]
  after_results
  try rfl

set_option maxHeartbeats 4000000 in
theorem W1_v12 (c : Dev nD) : W1 m ρ c (Proc.devRef .tc main_v12) = Cert.ReferenceIdeal.Read.val_main_v15 (F := F) (m ((c.tc : Thread nD τ).loc main_arg1)) := by
  dsimp only [W1, W0]
  after_results_simp
  finish_results
  rfl

set_option maxHeartbeats 4000000 in
theorem W1_v13 (c : Dev nD) : W1 m ρ c (Proc.devRef .tc main_v13) = Cert.ReferenceIdeal.Read.val_main_v16 (F := F) (m ((c.tc : Thread nD τ).loc main_arg1)) := by
  dsimp only [W1, W0]
  after_results_simp
  finish_results
  rfl

theorem W1_cst_2 (c : Dev nD) : W1 m ρ c (Proc.devRef .tc main_cst_2) = Cert.ReferenceIdeal.Read.val_main_cst_2 (F := F) := by
  dsimp only [W1, W0]
  after_results_simp
  try rfl

set_option maxHeartbeats 4000000 in
/-- The normaliser, before it is laid out as a column: the reference's. -/
theorem W2_v14 (c : Dev nD) : W2 m ρ c (Proc.devRef .tc main_v14) = Cert.ReferenceIdeal.Read.val_main_v17 (F := F) (m ((c.tc : Thread nD τ).loc main_arg1)) := by
  have h12 := W1_v12 m ρ c
  have h13 := W1_v13 m ρ c
  have hc := W1_cst_2 m ρ c
  dsimp only [W2]
  generalize W1 m ρ c = V1 at h12 h13 hc ⊢
  after_results_simp
  rw [h12, h13, hc]
  rfl

/-- The normaliser as a column. -/
def dinvCol (x1 : (⟨S2x800000, .i32⟩ : BufTy).Contents (Elt F)) : (⟨S50000x1, .f32⟩ : BufTy).Contents (Elt F) :=
  fun i => shapeCast S50000x1 (Cert.ReferenceIdeal.Read.val_main_v17 (F := F) x1) shapeCasts_S50000_S50000x1 i

set_option maxHeartbeats 4000000 in
theorem W3_v15 (c : Dev nD) : W3 m ρ c (Proc.devRef .tc main_v15) = dinvCol (m ((c.tc : Thread nD τ).loc main_arg1)) := by
  have h14 := W2_v14 m ρ c
  dsimp only [W3]
  generalize W2 m ρ c = V2 at h14 ⊢
  after_results
  rw [h14]
  rfl

theorem W3_v16 (c : Dev nD) : W3 m ρ c (Proc.devRef .tc main_v16) = extractStridedSlice S12x64 ![0, 0] (show FVec F S23x64 .f32 from (m ((c.tc : Thread nD τ).loc main_arg4))) slices_S23x64_S12x64_0_0 := by
  dsimp only [W3, W2, W1, W0]
  after_results
  try rfl

theorem W3_v18 (c : Dev nD) : W3 m ρ c (Proc.devRef .tc main_v18) = (show FVec F S1x64 .f32 from Host.dotGeneral dot_S1x11_S11x64_S1x64_1_0_0_1_n_n none (show FVec F S1x11 .f32 from (m ((c.tc : Thread nD τ).loc main_arg3))) (extractStridedSlice S11x64 ![12, 0] (show FVec F S23x64 .f32 from (m ((c.tc : Thread nD τ).loc main_arg4))) slices_S23x64_S11x64_12_0)) := by
  dsimp only [W3, W2, W1, W0]
  after_results
  try rfl

/-! ## The aggregated inputs of the second and third regions, the gathered inputs of the fourth -/

set_option maxHeartbeats 4000000 in
theorem W5_v29 (c : Dev nD) : W5 m ρ c (Proc.devRef .tc main_v29) = (show FVec F Cert.ReferenceIdeal.S50000x64 .f32 from Host.scatterAdd Cert.ReferenceIdeal.scatter_S50000x64_S850000x1_S850000x64_1_0_0_1 (Cert.ReferenceIdeal.Read.val_main_v43 (F := F)) (Cert.ReferenceIdeal.Read.val_main_v44 (F := F) (m ((c.tc : Thread nD τ).loc main_arg1))) (Host.gather Cert.ReferenceIdeal.gather_S50000x64_S850000x1_S850000x64_1_0_n_n_0_1_164 (show FVec F Cert.ReferenceIdeal.S50000x64 .f32 from W4 m ρ c (Proc.devRef .tc main_v19)) (Cert.ReferenceIdeal.Read.val_main_v38 (F := F) (m ((c.tc : Thread nD τ).loc main_arg1))))) := by
  have h6 := (W4_main_v6 m ρ c).trans (W3_v6 m ρ c)
  have h5 := (W4_main_v5 m ρ c).trans (W3_v5 m ρ c)
  dsimp only [W5]
  generalize W4 m ρ c = V4 at h6 h5 ⊢
  after_results
  rw [h6, h5]
  rfl

theorem W5_v30 (c : Dev nD) : W5 m ρ c (Proc.devRef .tc main_v30) = (fun i => shapeCast S1x64 (show FVec F S64 .f32 from (m ((c.tc : Thread nD τ).loc main_arg5))) shapeCasts_S64_S1x64 i) := by
  have h := (W4_main_arg5 m ρ c).trans (W3_main_arg5 m ρ c)
  dsimp only [W5]
  generalize W4 m ρ c = V4 at h ⊢
  after_results
  rw [h]
  try rfl

set_option maxHeartbeats 4000000 in
theorem W7_v41 (c : Dev nD) : W7 m ρ c (Proc.devRef .tc main_v41) = (show FVec F Cert.ReferenceIdeal.S50000x64 .f32 from Host.scatterAdd Cert.ReferenceIdeal.scatter_S50000x64_S850000x1_S850000x64_1_0_0_1 (Cert.ReferenceIdeal.Read.val_main_v87 (F := F)) (Cert.ReferenceIdeal.Read.val_main_v88 (F := F) (m ((c.tc : Thread nD τ).loc main_arg1))) (Host.gather Cert.ReferenceIdeal.gather_S50000x64_S850000x1_S850000x64_1_0_n_n_0_1_164 (show FVec F Cert.ReferenceIdeal.S50000x64 .f32 from W6 m ρ c (Proc.devRef .tc main_v31)) (Cert.ReferenceIdeal.Read.val_main_v82 (F := F) (m ((c.tc : Thread nD τ).loc main_arg1))))) := by
  have h6 := (W6_main_v6 m ρ c).trans (W3_v6 m ρ c)
  have h5 := (W6_main_v5 m ρ c).trans (W3_v5 m ρ c)
  dsimp only [W7]
  generalize W6 m ρ c = V6 at h6 h5 ⊢
  after_results
  rw [h6, h5]
  rfl

theorem W7_v42 (c : Dev nD) : W7 m ρ c (Proc.devRef .tc main_v42) = (fun i => shapeCast S1x64 (show FVec F S64 .f32 from (m ((c.tc : Thread nD τ).loc main_arg7))) shapeCasts_S64_S1x64 i) := by
  have h := (W6_main_arg7 m ρ c).trans (W3_main_arg7 m ρ c)
  dsimp only [W7]
  generalize W6 m ρ c = V6 at h ⊢
  after_results
  rw [h]
  try rfl

set_option maxHeartbeats 4000000 in
theorem W9_v50 (c : Dev nD) : W9 m ρ c (Proc.devRef .tc main_v50) = (show FVec F Cert.ReferenceIdeal.S800000x64 .bf16 from Host.gather Cert.ReferenceIdeal.gather_S50000x64_S800000x1_S800000x64_1_0_n_n_0_1_164 (show FVec F Cert.ReferenceIdeal.S50000x64 .bf16 from W8 m ρ c (Proc.devRef .tc main_v43)) (Cert.ReferenceIdeal.Read.val_main_v99 (F := F) (m ((c.tc : Thread nD τ).loc main_arg1)))) := by
  have h := (W8_main_v1 m ρ c).trans (W3_v1 m ρ c)
  dsimp only [W9]
  generalize W8 m ρ c = V8 at h ⊢
  after_results
  rw [h]
  rfl

set_option maxHeartbeats 4000000 in
theorem W9_v57 (c : Dev nD) : W9 m ρ c (Proc.devRef .tc main_v57) = (show FVec F Cert.ReferenceIdeal.S800000x64 .bf16 from Host.gather Cert.ReferenceIdeal.gather_S50000x64_S800000x1_S800000x64_1_0_n_n_0_1_164 (show FVec F Cert.ReferenceIdeal.S50000x64 .bf16 from W8 m ρ c (Proc.devRef .tc main_v43)) (Cert.ReferenceIdeal.Read.val_main_v106 (F := F) (m ((c.tc : Thread nD τ).loc main_arg1)))) := by
  have h := (W8_main_v3 m ρ c).trans (W3_v3 m ρ c)
  dsimp only [W9]
  generalize W8 m ρ c = V8 at h ⊢
  after_results
  rw [h]
  rfl

theorem W9_v59 (c : Dev nD) : W9 m ρ c (Proc.devRef .tc main_v59) = truncf .bf16 (extractStridedSlice S64x64 ![0, 0] (show FVec F S133x64 .f32 from (m ((c.tc : Thread nD τ).loc main_arg8))) slices_S133x64_S64x64_0_0) bitsLt_bf16_f32 := by
  have h := (W8_main_arg8 m ρ c).trans (W3_main_arg8 m ρ c)
  dsimp only [W9]
  generalize W8 m ρ c = V8 at h ⊢
  after_results
  rw [h]
  try rfl

theorem W9_v61 (c : Dev nD) : W9 m ρ c (Proc.devRef .tc main_v61) = truncf .bf16 (extractStridedSlice S64x64 ![64, 0] (show FVec F S133x64 .f32 from (m ((c.tc : Thread nD τ).loc main_arg8))) slices_S133x64_S64x64_64_0) bitsLt_bf16_f32 := by
  have h := (W8_main_arg8 m ρ c).trans (W3_main_arg8 m ρ c)
  dsimp only [W9]
  generalize W8 m ρ c = V8 at h ⊢
  after_results
  rw [h]
  try rfl

theorem W9_v63 (c : Dev nD) : W9 m ρ c (Proc.devRef .tc main_v63) = truncf .bf16 (extractStridedSlice S5x64 ![128, 0] (show FVec F S133x64 .f32 from (m ((c.tc : Thread nD τ).loc main_arg8))) slices_S133x64_S5x64_128_0) bitsLt_bf16_f32 := by
  have h := (W8_main_arg8 m ρ c).trans (W3_main_arg8 m ρ c)
  dsimp only [W9]
  generalize W8 m ρ c = V8 at h ⊢
  after_results
  rw [h]
  try rfl

theorem W9_v64 (c : Dev nD) : W9 m ρ c (Proc.devRef .tc main_v64) = truncf .bf16 (show FVec F S64x32 .f32 from (m ((c.tc : Thread nD τ).loc main_arg10))) bitsLt_bf16_f32 := by
  have h := (W8_main_arg10 m ρ c).trans (W3_main_arg10 m ρ c)
  dsimp only [W9]
  generalize W8 m ρ c = V8 at h ⊢
  after_results
  rw [h]
  try rfl

theorem W9_v65 (c : Dev nD) : W9 m ρ c (Proc.devRef .tc main_v65) = truncf .bf16 (show FVec F S32x4 .f32 from (m ((c.tc : Thread nD τ).loc main_arg12))) bitsLt_bf16_f32 := by
  have h := (W8_main_arg12 m ρ c).trans (W3_main_arg12 m ρ c)
  dsimp only [W9]
  generalize W8 m ρ c = V8 at h ⊢
  after_results
  rw [h]
  try rfl

theorem W9_v66 (c : Dev nD) : W9 m ρ c (Proc.devRef .tc main_v66) = (fun i => shapeCast S1x64 (show FVec F S64 .f32 from (m ((c.tc : Thread nD τ).loc main_arg9))) shapeCasts_S64_S1x64 i) := by
  have h := (W8_main_arg9 m ρ c).trans (W3_main_arg9 m ρ c)
  dsimp only [W9]
  generalize W8 m ρ c = V8 at h ⊢
  after_results
  rw [h]
  try rfl

theorem W9_v67 (c : Dev nD) : W9 m ρ c (Proc.devRef .tc main_v67) = (fun i => shapeCast S1x32 (show FVec F S32 .f32 from (m ((c.tc : Thread nD τ).loc main_arg11))) shapeCasts_S32_S1x32 i) := by
  have h := (W8_main_arg11 m ρ c).trans (W3_main_arg11 m ρ c)
  dsimp only [W9]
  generalize W8 m ρ c = V8 at h ⊢
  after_results
  rw [h]
  try rfl

theorem W9_v68 (c : Dev nD) : W9 m ρ c (Proc.devRef .tc main_v68) = (fun i => shapeCast S1x4 (show FVec F S4 .f32 from (m ((c.tc : Thread nD τ).loc main_arg13))) shapeCasts_S4_S1x4 i) := by
  have h := (W8_main_arg13 m ρ c).trans (W3_main_arg13 m ρ c)
  dsimp only [W9]
  generalize W8 m ρ c = V8 at h ⊢
  after_results
  rw [h]
  try rfl

end Host

/-! ## The regions' outputs, over the exact numbers -/

section Regions

variable (m : (ℓ : Loc nD τ sig) → Buf (Elt Ideal) ℓ) (ρ : Dev nD → PrngReg)

theorem W4_v19 (c : Dev nD) : W4 m ρ c (Proc.devRef .tc main_v19) = proj1 (m ((c.tc : Thread nD τ).loc main_arg0)) (extractStridedSlice S12x64 ![0, 0] (show FVec Ideal S23x64 .f32 from (m ((c.tc : Thread nD τ).loc main_arg4))) slices_S23x64_S12x64_0_0) (show FVec Ideal S1x64 .f32 from Host.dotGeneral dot_S1x11_S11x64_S1x64_1_0_0_1_n_n none (show FVec Ideal S1x11 .f32 from (m ((c.tc : Thread nD τ).loc main_arg3))) (extractStridedSlice S11x64 ![12, 0] (show FVec Ideal S23x64 .f32 from (m ((c.tc : Thread nD τ).loc main_arg4))) slices_S23x64_S11x64_12_0)) (dinvCol (m ((c.tc : Thread nD τ).loc main_arg1))) := by
  refine (W4_arr m ρ c 4).trans ((final0 (V3 m ρ) c).trans ?_)
  show proj1 (W3 m ρ c (Proc.devRef .tc main_arg0)) (W3 m ρ c (Proc.devRef .tc main_v16)) (W3 m ρ c (Proc.devRef .tc main_v18)) (W3 m ρ c (Proc.devRef .tc main_v15)) = _
  rw [W3_main_arg0 m ρ c, W3_v16 m ρ c, W3_v18 m ρ c, W3_v15 m ρ c]

theorem W5_v15 (c : Dev nD) : W5 m ρ c (Proc.devRef .tc main_v15) = dinvCol (m ((c.tc : Thread nD τ).loc main_arg1)) := (W5_main_v15 m ρ c).trans (W3_v15 m ρ c)

theorem W5_arg6 (c : Dev nD) : W5 m ρ c (Proc.devRef .tc main_arg6) = (m ((c.tc : Thread nD τ).loc main_arg6)) := (W5_main_arg6 m ρ c).trans (W3_main_arg6 m ρ c)

theorem W6_v31 (c : Dev nD) : W6 m ρ c (Proc.devRef .tc main_v31) = aggProj (W5 m ρ c (Proc.devRef .tc main_v29)) (dinvCol (m ((c.tc : Thread nD τ).loc main_arg1))) (fun i => shapeCast S1x64 (show FVec Ideal S64 .f32 from (m ((c.tc : Thread nD τ).loc main_arg5))) shapeCasts_S64_S1x64 i) (m ((c.tc : Thread nD τ).loc main_arg6)) := by
  refine (W6_arr m ρ c 4).trans ((final1 (V5 m ρ) c).trans ?_)
  show aggProj (W5 m ρ c (Proc.devRef .tc main_v29)) (W5 m ρ c (Proc.devRef .tc main_v15)) (W5 m ρ c (Proc.devRef .tc main_v30)) (W5 m ρ c (Proc.devRef .tc main_arg6)) = _
  rw [W5_v15 m ρ c, W5_v30 m ρ c, W5_arg6 m ρ c]

theorem W7_v15 (c : Dev nD) : W7 m ρ c (Proc.devRef .tc main_v15) = dinvCol (m ((c.tc : Thread nD τ).loc main_arg1)) := (W7_main_v15 m ρ c).trans (W3_v15 m ρ c)

theorem W8_v43 (c : Dev nD) : W8 m ρ c (Proc.devRef .tc main_v43) = aggRelu (W7 m ρ c (Proc.devRef .tc main_v41)) (dinvCol (m ((c.tc : Thread nD τ).loc main_arg1))) (fun i => shapeCast S1x64 (show FVec Ideal S64 .f32 from (m ((c.tc : Thread nD τ).loc main_arg7))) shapeCasts_S64_S1x64 i) := by
  refine (W8_arr m ρ c 3).trans ((final2 (V7 m ρ) c).trans ?_)
  show aggRelu (W7 m ρ c (Proc.devRef .tc main_v41)) (W7 m ρ c (Proc.devRef .tc main_v15)) (W7 m ρ c (Proc.devRef .tc main_v42)) = _
  rw [W7_v15 m ρ c, W7_v42 m ρ c]

theorem W9_arg2 (c : Dev nD) : W9 m ρ c (Proc.devRef .tc main_arg2) = (m ((c.tc : Thread nD τ).loc main_arg2)) := (W9_main_arg2 m ρ c).trans (W3_main_arg2 m ρ c)

/-- The result buffer after the last region: the decoder specification of the fourth region's inputs. -/
theorem result_eq (c : Dev nD) : W10 m ρ c (Proc.devRef .tc main_v69) = decode (W9 m ρ c (Proc.devRef .tc main_v50)) (W9 m ρ c (Proc.devRef .tc main_v57)) (m ((c.tc : Thread nD τ).loc main_arg2)) (truncf .bf16 (extractStridedSlice S64x64 ![0, 0] (show FVec Ideal S133x64 .f32 from (m ((c.tc : Thread nD τ).loc main_arg8))) slices_S133x64_S64x64_0_0) bitsLt_bf16_f32) (truncf .bf16 (extractStridedSlice S64x64 ![64, 0] (show FVec Ideal S133x64 .f32 from (m ((c.tc : Thread nD τ).loc main_arg8))) slices_S133x64_S64x64_64_0) bitsLt_bf16_f32) (truncf .bf16 (extractStridedSlice S5x64 ![128, 0] (show FVec Ideal S133x64 .f32 from (m ((c.tc : Thread nD τ).loc main_arg8))) slices_S133x64_S5x64_128_0) bitsLt_bf16_f32) (fun i => shapeCast S1x64 (show FVec Ideal S64 .f32 from (m ((c.tc : Thread nD τ).loc main_arg9))) shapeCasts_S64_S1x64 i) (truncf .bf16 (show FVec Ideal S64x32 .f32 from (m ((c.tc : Thread nD τ).loc main_arg10))) bitsLt_bf16_f32) (fun i => shapeCast S1x32 (show FVec Ideal S32 .f32 from (m ((c.tc : Thread nD τ).loc main_arg11))) shapeCasts_S32_S1x32 i) (truncf .bf16 (show FVec Ideal S32x4 .f32 from (m ((c.tc : Thread nD τ).loc main_arg12))) bitsLt_bf16_f32) (fun i => shapeCast S1x4 (show FVec Ideal S4 .f32 from (m ((c.tc : Thread nD τ).loc main_arg13))) shapeCasts_S4_S1x4 i) := by
  refine (W10_arr m ρ c 11).trans ((final3 (V9 m ρ) c).trans ?_)
  show decode (W9 m ρ c (Proc.devRef .tc main_v50)) (W9 m ρ c (Proc.devRef .tc main_v57)) (W9 m ρ c (Proc.devRef .tc main_arg2)) (W9 m ρ c (Proc.devRef .tc main_v59)) (W9 m ρ c (Proc.devRef .tc main_v61)) (W9 m ρ c (Proc.devRef .tc main_v63)) (W9 m ρ c (Proc.devRef .tc main_v66)) (W9 m ρ c (Proc.devRef .tc main_v64)) (W9 m ρ c (Proc.devRef .tc main_v67)) (W9 m ρ c (Proc.devRef .tc main_v65)) (W9 m ρ c (Proc.devRef .tc main_v68)) = _
  rw [W9_arg2 m ρ c, W9_v59 m ρ c, W9_v61 m ρ c, W9_v63 m ρ c, W9_v66 m ρ c, W9_v64 m ρ c, W9_v67 m ρ c, W9_v65 m ρ c, W9_v68 m ρ c]

end Regions

end Cert.KernelIdeal.KHost

end
-- ==== Proof.HostReads.lean ====
import proofs.«163663_j28123445854866_2_alg».proof.KernelIdeal
import Idealize.ShloMosaic.PureOps.Ideal.Laws
import Idealize.ShloMosaic.Lib.ValueIdx
import Idealize.ShloMosaic.Lib.ValueLayout
import Idealize.ShloMosaic.Lib.Pipeline.Value

/-! # The program's small host operations, read at an entry

Between its kernels the program prepares their operands with a few whole-array operations. Read at an entry, over
the extended reals:

* a block of consecutive rows cut out of a matrix is the matrix at the row moved down by the block's first row;
* the product of the global row `[1, 11]` with an `11 × 64` matrix is, at feature `g`, the sum over the 11 entries;
* rounding to a narrower float format is the identity;
* a vector reshaped to a one-row matrix, or to a one-column matrix, keeps its entries. -/

noncomputable section

namespace Cert.KernelIdeal.HostReads

open Cert.KernelIdeal
open Idealize.ShloMosaic Idealize.ShloMosaic.TcCoe Idealize.SL.Sem
open Idealize.ShloMosaic.ValueIdx

variable [Facts₀]
open Facts₀

/-! ## Row blocks of the layer-1 matrix -/

/-- The first 12 rows of the 23 × 64 layer-1 matrix: the rows that multiply a node's own features. -/
theorem projection_rows (x4 : FVec Ideal S23x64 .f32) (k : Fin 12) (g : Fin 64) :
    extractStridedSlice S12x64 ![0, 0] x4 slices_S23x64_S12x64_0_0 (ix2 k g)
      = x4 (ix2 (⟨k.val, by omega⟩ : Fin 23) g) :=
  extractStridedSlice_apply ![0, 0] x4 slices_S23x64_S12x64_0_0 (ix2 k g) _ fun a =>
    match a with
    | ⟨0, _⟩ => by show k.val = 0 + k.val; omega
    | ⟨1, _⟩ => by show g.val = 0 + g.val; omega

/-- Its last 11 rows: the rows that multiply the global row. -/
theorem global_rows (x4 : FVec Ideal S23x64 .f32) (k : Fin 11) (g : Fin 64) :
    extractStridedSlice S11x64 ![12, 0] x4 slices_S23x64_S11x64_12_0 (ix2 k g)
      = x4 (ix2 (⟨12 + k.val, by omega⟩ : Fin 23) g) :=
  extractStridedSlice_apply ![12, 0] x4 slices_S23x64_S11x64_12_0 (ix2 k g) _ fun a =>
    match a with
    | ⟨0, _⟩ => by show 12 + k.val = 12 + k.val; omega
    | ⟨1, _⟩ => by show g.val = 0 + g.val; omega

/-! ## The global row times its 11 rows of the matrix -/

/-- The product's left operand is read at the output's row. -/
theorem lhs_row (i : S1x64.Idx) (k : dot_S1x11_S11x64_S1x64_1_0_0_1_n_n.contr.Idx) :
    (dot_S1x11_S11x64_S1x64_1_0_0_1_n_n.lhsIdx i k 0).val = (i 0).val := by
  unfold DotDims.lhsIdx
  rw [dif_neg (show ¬(0 : Fin S1x11.rank) ∈ dot_S1x11_S11x64_S1x64_1_0_0_1_n_n.lhsBatch from List.not_mem_nil),
    dif_pos (show (0 : Fin S1x11.rank) ∈ dot_S1x11_S11x64_S1x64_1_0_0_1_n_n.lhsNonContracting from List.mem_singleton.mpr rfl)]
  rfl

/-- The product's right operand is read at the output's feature. -/
theorem rhs_feature (i : S1x64.Idx) (k : dot_S1x11_S11x64_S1x64_1_0_0_1_n_n.contr.Idx) :
    (dot_S1x11_S11x64_S1x64_1_0_0_1_n_n.rhsIdx i k 1).val = (i 1).val := by
  unfold DotDims.rhsIdx
  rw [dif_neg (show ¬(1 : Fin S11x64.rank) ∈ dot_S1x11_S11x64_S1x64_1_0_0_1_n_n.rhsBatch from List.not_mem_nil),
    dif_pos (show (1 : Fin S11x64.rank) ∈ dot_S1x11_S11x64_S1x64_1_0_0_1_n_n.rhsNonContracting from List.mem_singleton.mpr rfl)]
  rfl

/-- The global row times an `11 × 64` matrix, at feature `g`: the sum over the row's 11 entries. -/
theorem global_product_entry (x3 : FVec Ideal S1x11 .f32) (u : FVec Ideal S11x64 .f32) (g : Fin 64) :
    (Host.dotGeneral dot_S1x11_S11x64_S1x64_1_0_0_1_n_n none x3 u : S1x64.Idx → EReal) (ix2 (0 : Fin 1) g)
      = ∑ k : Fin 11, (x3 (ix2 (0 : Fin 1) k) : EReal) * u (ix2 k g) := by
  simp only [Host.dotGeneral]
  rw [Ideal.dotGeneral_apply, ← Equiv.sum_comp (contrEquiv1 dot_S1x11_S11x64_S1x64_1_0_0_1_n_n 11 rfl rfl).symm]
  refine Finset.sum_congr rfl fun k _ => ?_
  have hk := contrEquiv1_symm_val dot_S1x11_S11x64_S1x64_1_0_0_1_n_n 11 rfl rfl k
  have el : dot_S1x11_S11x64_S1x64_1_0_0_1_n_n.lhsIdx (ix2 (0 : Fin 1) g) ((contrEquiv1 dot_S1x11_S11x64_S1x64_1_0_0_1_n_n 11 rfl rfl).symm k) = ix2 (0 : Fin 1) k :=
    funext fun a => Fin.ext (by
      match a with
      | ⟨0, _⟩ => exact lhs_row _ _
      | ⟨1, _⟩ => exact (dot_S1x11_S11x64_S1x64_1_0_0_1_n_n.lhsIdx_val_of_single rfl _ _).trans hk)
  have er : dot_S1x11_S11x64_S1x64_1_0_0_1_n_n.rhsIdx (ix2 (0 : Fin 1) g) ((contrEquiv1 dot_S1x11_S11x64_S1x64_1_0_0_1_n_n 11 rfl rfl).symm k) = ix2 k g :=
    funext fun a => Fin.ext (by
      match a with
      | ⟨0, _⟩ => exact (dot_S1x11_S11x64_S1x64_1_0_0_1_n_n.rhsIdx_val_of_single rfl _ _).trans hk
      | ⟨1, _⟩ => exact rhs_feature _ _)
  rw [el, er]

/-! ## Row blocks of the 133 × 64 edge matrix, rounded -/

/-- Rows 0 … 63 of the 133 × 64 matrix, rounded: the matrix's own entries. -/
theorem edge_rows_first (x8 : FVec Ideal S133x64 .f32) (k : Fin 64) (h : Fin 64) :
    (truncf .bf16 (extractStridedSlice S64x64 ![0, 0] x8 slices_S133x64_S64x64_0_0) bitsLt_bf16_f32 : S64x64.Idx → EReal) (ix2 k h)
      = x8 (ix2 (⟨k.val, by omega⟩ : Fin 133) h) :=
  extractStridedSlice_apply ![0, 0] x8 slices_S133x64_S64x64_0_0 (ix2 k h) _ fun a =>
    match a with
    | ⟨0, _⟩ => by show k.val = 0 + k.val; omega
    | ⟨1, _⟩ => by show h.val = 0 + h.val; omega

/-- Rows 64 … 127, rounded. -/
theorem edge_rows_second (x8 : FVec Ideal S133x64 .f32) (k : Fin 64) (h : Fin 64) :
    (truncf .bf16 (extractStridedSlice S64x64 ![64, 0] x8 slices_S133x64_S64x64_64_0) bitsLt_bf16_f32 : S64x64.Idx → EReal) (ix2 k h)
      = x8 (ix2 (⟨64 + k.val, by omega⟩ : Fin 133) h) :=
  extractStridedSlice_apply ![64, 0] x8 slices_S133x64_S64x64_64_0 (ix2 k h) _ fun a =>
    match a with
    | ⟨0, _⟩ => by show 64 + k.val = 64 + k.val; omega
    | ⟨1, _⟩ => by show h.val = 0 + h.val; omega

/-- Rows 128 … 132, rounded. -/
theorem edge_rows_last (x8 : FVec Ideal S133x64 .f32) (k : Fin 5) (h : Fin 64) :
    (truncf .bf16 (extractStridedSlice S5x64 ![128, 0] x8 slices_S133x64_S5x64_128_0) bitsLt_bf16_f32 : S5x64.Idx → EReal) (ix2 k h)
      = x8 (ix2 (⟨128 + k.val, by omega⟩ : Fin 133) h) :=
  extractStridedSlice_apply ![128, 0] x8 slices_S133x64_S5x64_128_0 (ix2 k h) _ fun a =>
    match a with
    | ⟨0, _⟩ => by show 128 + k.val = 128 + k.val; omega
    | ⟨1, _⟩ => by show h.val = 0 + h.val; omega

/-! ## Whole matrices rounded -/

/-- The 64 × 32 matrix rounded: its own entries. -/
theorem rounded_64x32 (x10 : FVec Ideal S64x32 .f32) (h : Fin 64) (h' : Fin 32) :
    (truncf .bf16 x10 bitsLt_bf16_f32 : S64x32.Idx → EReal) (ix2 h h') = x10 (ix2 h h') := rfl

/-- The 32 × 4 matrix rounded: its own entries. -/
theorem rounded_32x4 (x12 : FVec Ideal S32x4 .f32) (h : Fin 32) (h' : Fin 4) :
    (truncf .bf16 x12 bitsLt_bf16_f32 : S32x4.Idx → EReal) (ix2 h h') = x12 (ix2 h h') := rfl

/-! ## Vectors as one-row and one-column matrices -/

/-- A vector of 64 entries as a one-row matrix. -/
theorem row_of_64 (x : FVec Ideal S64 .f32) (k : Fin 64) :
    shapeCast S1x64 x shapeCasts_S64_S1x64 (ix2 (0 : Fin 1) k) = x (ix1 k) :=
  shapeCast_apply x shapeCasts_S64_S1x64 (ix2 (0 : Fin 1) k) (ix1 k)
    (by rewrite [Shape.rowMajor_val_one, Shape.rowMajor_val_two]; show k.val = 0 * 64 + k.val; omega)

/-- A vector of 32 entries as a one-row matrix. -/
theorem row_of_32 (x : FVec Ideal S32 .f32) (k : Fin 32) :
    shapeCast S1x32 x shapeCasts_S32_S1x32 (ix2 (0 : Fin 1) k) = x (ix1 k) :=
  shapeCast_apply x shapeCasts_S32_S1x32 (ix2 (0 : Fin 1) k) (ix1 k)
    (by rewrite [Shape.rowMajor_val_one, Shape.rowMajor_val_two]; show k.val = 0 * 32 + k.val; omega)

/-- A vector of 4 entries as a one-row matrix. -/
theorem row_of_4 (x : FVec Ideal S4 .f32) (k : Fin 4) :
    shapeCast S1x4 x shapeCasts_S4_S1x4 (ix2 (0 : Fin 1) k) = x (ix1 k) :=
  shapeCast_apply x shapeCasts_S4_S1x4 (ix2 (0 : Fin 1) k) (ix1 k)
    (by rewrite [Shape.rowMajor_val_one, Shape.rowMajor_val_two]; show k.val = 0 * 4 + k.val; omega)

/-- The vector of the 50000 degree scales as a one-column matrix. -/
theorem column_of_nodes (d : FVec Ideal S50000 .f32) (n : Fin 50000) :
    shapeCast S50000x1 d shapeCasts_S50000_S50000x1 (ix2 n (0 : Fin 1)) = d (ix1 n) :=
  shapeCast_apply d shapeCasts_S50000_S50000x1 (ix2 n (0 : Fin 1)) (ix1 n)
    (by rewrite [Shape.rowMajor_val_one, Shape.rowMajor_val_two]; show n.val = n.val * 1 + 0; omega)

end Cert.KernelIdeal.HostReads

end
-- ==== Proof.BridgeNodes.lean ====
import proofs.«163663_j28123445854866_2_alg».proof.Proof.RefRead
import proofs.«163663_j28123445854866_2_alg».proof.Proof.Region012Spec

/-! # The node-level specifications against the reference's stages

The reference computes the same three node-level quantities as whole-array operations. Read at node `n` and
feature `g`:

* layer 1 multiplies the 23 concatenated columns — the node's 12 features followed by the 11 entries of a global
  row, the same for every node — by a 23 × 64 matrix. The sum over the 23 columns splits into the first 12, which is
  the kernel's projection through the top 12 rows of the matrix, and the last 11, which does not depend on the node:
  the kernel receives it as its bias row;
* the second projection and the final step add a bias to the aggregated rows, cut below at `0` and (for the second
  projection) multiply by a 64 × 64 matrix; the kernel's aggregated rows are the reference's once scaled by the node's
  degree scale, and the kernel scales its result once more.

Only sums, products and maxima of extended reals are rearranged, and only by reindexing and by splitting a sum over
`12 + 11` columns. -/

noncomputable section

namespace Cert.Bridge.Nodes

open Cert.ReferenceIdeal Cert.ReferenceIdeal.Gen Cert.ReferenceIdeal.Read
open Cert.KernelIdeal.Region0 Cert.KernelIdeal.Region1 Cert.KernelIdeal.Region2
open Idealize.ShloMosaic Idealize.ShloMosaic.ValueIdx

/-! ## The final step: bias, cut at zero -/

/-- A bias vector broadcast to a row and then over the nodes, read at feature `g`: the vector's entry `g`. -/
theorem bias_index (n : Fin 50000) (g : Fin 64) : idx_main_v90 (idx_main_v91 (ix2 n g)) = ix1 g :=
  funext fun a => match a with | ⟨0, _⟩ => rfl

theorem aggRelu_eq_reference (x0 : (⟨S50000x12, .f32⟩ : BufTy).Contents (Elt Ideal)) (x1 : (⟨S2x800000, .i32⟩ : BufTy).Contents (Elt Ideal))
    (x3 : (⟨S1x11, .f32⟩ : BufTy).Contents (Elt Ideal)) (x4 : (⟨S23x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal))
    (s : (⟨2, ![50000, 64]⟩ : Shape).Idx → EReal) (dv : (⟨2, ![50000, 1]⟩ : Shape).Idx → EReal) (b : (⟨2, ![1, 64]⟩ : Shape).Idx → EReal)
    (hs : ∀ (n : Fin 50000) (g : Fin 64),
      s (ix2 n g) * dv (ix2 n (0 : Fin 1)) = val_main_v89 (F := Ideal) x0 x1 x3 x4 x5 x6 (ix2 n g))
    (hb : ∀ g : Fin 64, b (ix2 (0 : Fin 1) g) = x7 (ix1 g))
    (n : Fin 50000) (g : Fin 64) :
    aggRelu s dv b (ix2 n g) = val_main_v93 (F := Ideal) x0 x1 x3 x4 x5 x6 x7 (ix2 n g) := by
  rw [aggRelu_apply, hs, hb, val_main_v93_apply, val_main_v92_apply, val_main_v91_apply, val_main_v90_apply,
    val_main_call3_v0_apply, val_main_call3_cst_apply, bias_index, Ideal.maximumf_def, Ideal.addf_def,
    Ideal.ofBits_def, Ideal.ofBits_zero_f32]

/-! ## The second projection: bias, cut at zero, a 64 × 64 product -/

/-- The same for the first layer's bias vector. -/
theorem bias1_index (n : Fin 50000) (k : Fin 64) : idx_main_v46 (idx_main_v47 (ix2 n k)) = ix1 k :=
  funext fun a => match a with | ⟨0, _⟩ => rfl

/-- The product's left operand at node `n`, hidden feature `k`. -/
theorem hidden_index (n : Fin 50000) (g k : Fin 64) : lidx_main_v50 (ix2 n g) k = ix2 n k :=
  funext fun a => match a with | ⟨0, _⟩ => rfl | ⟨1, _⟩ => rfl

/-- The product's right operand at hidden feature `k`, feature `g`. -/
theorem weight2_index (n : Fin 50000) (g k : Fin 64) : ridx_main_v50 (ix2 n g) k = ix2 k g :=
  funext fun a => match a with | ⟨0, _⟩ => rfl | ⟨1, _⟩ => rfl

theorem aggProj_eq_reference (x0 : (⟨S50000x12, .f32⟩ : BufTy).Contents (Elt Ideal)) (x1 : (⟨S2x800000, .i32⟩ : BufTy).Contents (Elt Ideal))
    (x3 : (⟨S1x11, .f32⟩ : BufTy).Contents (Elt Ideal)) (x4 : (⟨S23x64, .f32⟩ : BufTy).Contents (Elt Ideal))
    (x5 : (⟨S64, .f32⟩ : BufTy).Contents (Elt Ideal)) (x6 : (⟨S64x64, .f32⟩ : BufTy).Contents (Elt Ideal))
    (s : (⟨2, ![50000, 64]⟩ : Shape).Idx → EReal) (dv : (⟨2, ![50000, 1]⟩ : Shape).Idx → EReal) (b : (⟨2, ![1, 64]⟩ : Shape).Idx → EReal) (w : (⟨2, ![64, 64]⟩ : Shape).Idx → EReal)
    (hs : ∀ (n : Fin 50000) (k : Fin 64),
      s (ix2 n k) * dv (ix2 n (0 : Fin 1)) = val_main_v45 (F := Ideal) x0 x1 x3 x4 (ix2 n k))
    (hb : ∀ k : Fin 64, b (ix2 (0 : Fin 1) k) = x5 (ix1 k))
    (hw : ∀ k g : Fin 64, w (ix2 k g) = x6 (ix2 k g))
    (n : Fin 50000) (g : Fin 64) :
    aggProj s dv b w (ix2 n g)
      = val_main_v50 (F := Ideal) x0 x1 x3 x4 x5 x6 (ix2 n g) * dv (ix2 n (0 : Fin 1)) := by
  rw [aggProj_apply, val_main_v50_apply]
  refine congrArg (· * dv (ix2 n (0 : Fin 1))) (Finset.sum_congr rfl fun k _ => ?_)
  rw [hs, hb, hw, hidden_index, weight2_index, val_main_v49_apply, val_main_v48_apply, val_main_v47_apply,
    val_main_v46_apply, val_main_call1_v0_apply, val_main_call1_cst_apply, bias1_index, Ideal.maximumf_def,
    Ideal.addf_def, Ideal.ofBits_def, Ideal.ofBits_zero_f32]

/-! ## Layer 1: the 23 concatenated columns split as 12 + 11 -/

/-- Among the concatenated columns, one of the first 12 is the node's own feature. -/
theorem column_of_features (x0 : (⟨S50000x12, .f32⟩ : BufTy).Contents (Elt Ideal)) (x3 : (⟨S1x11, .f32⟩ : BufTy).Contents (Elt Ideal))
    (n : Fin 50000) (k : Fin 12) (j : S50000x23.Idx) (h0 : (j 0).val = n.val) (h1 : (j 1).val = k.val) :
    val_main_v5 (F := Ideal) x0 x3 j = x0 (ix2 n k) := by
  unfold val_main_v5
  exact concatenate_pair_apply_left (s₁ := S50000x12) 1 x0 (val_main_v4 (F := Ideal) x3) _ j rfl
    (ix2 n k : S50000x12.Idx)
    (fun b => match b with | ⟨0, _⟩ => h0.symm | ⟨1, _⟩ => h1.symm)

/-- Among the concatenated columns, one of the last 11 is the global row's entry, whatever the node. -/
theorem column_of_global (x0 : (⟨S50000x12, .f32⟩ : BufTy).Contents (Elt Ideal)) (x3 : (⟨S1x11, .f32⟩ : BufTy).Contents (Elt Ideal))
    (n : Fin 50000) (k : Fin 11) (j : S50000x23.Idx) (h0 : (j 0).val = n.val) (h1 : (j 1).val = 12 + k.val) :
    val_main_v5 (F := Ideal) x0 x3 j = x3 (ix2 (0 : Fin 1) k) := by
  unfold val_main_v5
  rw [concatenate_pair_apply_right (s₂ := S50000x11) 1 x0 (val_main_v4 (F := Ideal) x3) _ j rfl rfl
    (ix2 n k : S50000x11.Idx)
    (fun b hb => match b, hb with | ⟨0, _⟩, _ => h0.symm | ⟨1, _⟩, hb => absurd (Fin.ext rfl) hb)
    (by show k.val + 12 = (j 1).val; omega), val_main_v4_apply]
  exact congrArg x3 (funext fun a => match a with | ⟨0, _⟩ => rfl | ⟨1, _⟩ => rfl)

/-- The product's right operand at column `k` of the 23, feature `g`. -/
theorem weight1_index (n : Fin 50000) (g : Fin 64) (k : Fin 23) : ridx_main_v6 (ix2 n g) k = ix2 k g :=
  funext fun a => match a with | ⟨0, _⟩ => rfl | ⟨1, _⟩ => rfl

theorem proj1_eq_reference (x0 : (⟨S50000x12, .f32⟩ : BufTy).Contents (Elt Ideal)) (x3 : (⟨S1x11, .f32⟩ : BufTy).Contents (Elt Ideal))
    (x4 : (⟨S23x64, .f32⟩ : BufTy).Contents (Elt Ideal))
    (w : (⟨2, ![12, 64]⟩ : Shape).Idx → EReal) (ub : (⟨2, ![1, 64]⟩ : Shape).Idx → EReal) (dv : (⟨2, ![50000, 1]⟩ : Shape).Idx → EReal)
    (hw : ∀ (k : Fin 12) (g : Fin 64), w (ix2 k g) = x4 (ix2 (⟨k.val, by omega⟩ : Fin 23) g))
    (hub : ∀ g : Fin 64, ub (ix2 (0 : Fin 1) g)
      = ∑ k : Fin 11, x3 (ix2 (0 : Fin 1) k) * x4 (ix2 (⟨12 + k.val, by omega⟩ : Fin 23) g))
    (n : Fin 50000) (g : Fin 64) :
    proj1 x0 w ub dv (ix2 n g) = val_main_v6 (F := Ideal) x0 x3 x4 (ix2 n g) * dv (ix2 n (0 : Fin 1)) := by
  rw [proj1_apply, val_main_v6_apply, hub g]
  refine congrArg (· * dv (ix2 n (0 : Fin 1))) (Eq.symm ?_)
  refine (Fin.sum_univ_add (a := 12) (b := 11) fun k : Fin 23 =>
    (val_main_v5 (F := Ideal) x0 x3 (lidx_main_v6 (ix2 n g) k) : EReal) * x4 (ridx_main_v6 (ix2 n g) k)).trans ?_
  refine congrArg₂ (· + ·) (Finset.sum_congr rfl fun k _ => ?_) (Finset.sum_congr rfl fun k _ => ?_)
  · rw [column_of_features x0 x3 n k _ rfl rfl, weight1_index, hw k g]
    rfl
  · rw [column_of_global x0 x3 n k _ rfl rfl, weight1_index]
    rfl

end Cert.Bridge.Nodes

end
-- ==== Proof.LibGatherScatter.lean ====
/-
  Gathers of rows and of entries by an array of start indices, the scatter-add that accumulates rows or entries at
  such indices, and two facts about sums of extended reals.

  A row gather of a matrix x : [N, C] at start indices idx : [R, 1] has result row e equal to the row of x whose number
  is idx[e, 0] read as a signed integer and clamped into [0, N − 1]; a vector gather reads one entry the same way.
  A scatter of updates : [R, C] into an operand [N, C] at the same kind of indices sends update element (e, f) to operand
  element (n, g) exactly when idx[e, 0], read signed and NOT clamped, is n, and f = g; a start index outside [0, N − 1]
  sends its update nowhere.  Multiplication by a non-negative real distributes over a finite sum of extended reals, and
  a sum of ones over a finite set is the number of its elements.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Lib.GatherScatter

open Idealize.ShloMosaic Idealize.ShloMosaic.ValueIdx

/-! ## Row gather: x[idx] of a matrix -/

section Gather
variable {α : Type}

/-- The dimension numbers of a row gather: operand [N, C], start indices [R, 1] (the index vector on axis 1, of length
    one, naming operand axis 0), result [R, C]; operand axis 0 is collapsed (slice size 1), operand axis 1 is the result's
    offset axis 1 (slice size C). -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather read at (e, f): entry f of the operand's row idx[e, 0], the start index read signed and clamped into
    [0, N − 1]. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowsDims N R C wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ =>
    show (rowsDims N R C wf).start (ix2 e f) idx 0 + (rowsDims N R C wf).batchCoord (ix2 e f) 0
      + (rowsDims N R C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e f) ⟨List.idxOf (0 : Fin 2) (rowsDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N R C wf).start (ix2 e f) idx 1 + (rowsDims N R C wf).batchCoord (ix2 e f) 1
      + (rowsDims N R C wf).offCoord (ix2 e f) 1 = _
    rw [GatherDims.batchCoord_eq_zero _ _ _ List.not_mem_nil]
    have hst : (rowsDims N R C wf).start (ix2 e f) idx 1 = 0 := by
      unfold GatherDims.start
      rw [dif_neg (show (1 : Fin 2) ∉ (rowsDims N R C wf).startIndexMap from
        (by decide : (1 : Fin 2) ∉ ([0] : List (Fin 2))))]
    rw [hst]
    simp only [Nat.add_zero, Nat.zero_add]
    rfl

/-! ## Vector gather: x[idx] of a flat array at a column of start indices -/

/-- The dimension numbers of a vector gather: operand [N], start indices [R, 1] (the index vector on axis 1, of length
    one), result [R]; the operand's one axis is collapsed. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather read at e: the operand's entry idx[e, 0], the start index read signed and clamped into
    [0, N − 1]. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecDims N R wf).start (ix1 e) idx 0 + (vecDims N R wf).batchCoord (ix1 e) 0
    + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Where a scatter's update lands -/

section Scatter

/-- An update element lands at operand element i exactly when, on every operand axis, the window's start (read signed,
    not clamped) plus the window coordinate is i's coordinate; a sum outside the operand's extent is no coordinate, so the
    update is then dropped. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      intro a
      have h1 := congrArg Fin.val (congrFun (Option.some.inj h) a)
      simp only at h1
      have h2 := hh a
      omega
    · exact absurd h (by simp)
  · intro h
    have hh : ∀ a, 0 ≤ d.start j idx a + (d.window j a : Int) ∧ d.start j idx a + (d.window j a : Int) < s.size a := by
      intro a
      have h1 := h a
      have h2 := (i a).isLt
      omega
    rw [dif_pos hh]
    congr 1
    funext a
    refine Fin.ext ?_
    have h1 := h a
    simp only
    omega

/-- The dimension numbers of a row scatter: operand [N, C], scatter indices [R, 1] (the index vector on axis 1, of length
    one, naming operand axis 0), updates [R, C]; the updates' axis 1 is the window axis and goes to operand axis 1, operand
    axis 0 is an inserted window axis. -/
abbrev rowsScatter (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Update element (e, f) of a row scatter lands at operand element (n, g) exactly when the scatter index idx[e, 0], read
    signed, is n, and the columns agree. -/
theorem rows_resultIdx?_eq_some_iff {N R C w : Nat}
    (wf : ScatterDims.WF ⟨2, ![N, C]⟩ ⟨2, ![R, 1]⟩ ⟨2, ![R, C]⟩ [1] [0] [0] 1)
    (idx : IVec ⟨2, ![R, 1]⟩ w) (e : Fin R) (f : Fin C) (n : Fin N) (g : Fin C) :
    (rowsScatter N R C wf).resultIdx? (ix2 e f) idx = some (ix2 n g)
      ↔ (idx (ix2 e (0 : Fin 1))).toInt = (n.val : Int) ∧ f = g := by
  have hs0 : (rowsScatter N R C wf).start (ix2 e f) idx 0 = (idx (ix2 e (0 : Fin 1))).toInt := by
    unfold ScatterDims.start
    rw [dif_pos (show (0 : Fin 2) ∈ (rowsScatter N R C wf).scatterDimsToOperandDims from List.mem_singleton.mpr rfl)]
    have hsi : (rowsScatter N R C wf).siIdx (ix2 e f)
        ⟨List.idxOf (0 : Fin 2) (rowsScatter N R C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowsScatter N R C wf).start (ix2 e f) idx 1 = 0 := by
    unfold ScatterDims.start
    rw [dif_neg (show (1 : Fin 2) ∉ (rowsScatter N R C wf).scatterDimsToOperandDims from
      (by decide : (1 : Fin 2) ∉ ([0] : List (Fin 2))))]
  have hw0 : (rowsScatter N R C wf).window (ix2 e f) 0 = 0 := by
    unfold ScatterDims.window
    rw [dif_neg (show (0 : Fin 2) ∉ (rowsScatter N R C wf).sKept from
      (by decide : (0 : Fin 2) ∉ (List.finRange 2).filter (· ∉ ([0] : List (Fin 2)))))]
  have hw1 : (rowsScatter N R C wf).window (ix2 e f) 1 = f.val := by
    unfold ScatterDims.window
    rw [dif_pos (show (1 : Fin 2) ∈ (rowsScatter N R C wf).sKept from
      (by decide : (1 : Fin 2) ∈ (List.finRange 2).filter (· ∉ ([0] : List (Fin 2)))))]
    rfl
  rw [resultIdx?_eq_some_iff, Fin.forall_fin_two, hs0, hs1, hw0, hw1]
  show (idx (ix2 e (0 : Fin 1))).toInt + ((0 : Nat) : Int) = (n.val : Int) ∧ (0 : Int) + (f.val : Int) = (g.val : Int) ↔ _
  constructor
  · rintro ⟨h0, h1⟩
    exact ⟨by omega, Fin.ext (by omega)⟩
  · rintro ⟨h0, rfl⟩
    exact ⟨by omega, by omega⟩

/-- The dimension numbers of a vector scatter: operand [N], scatter indices [R, 1] (the index vector on axis 1, of length
    one), updates [R]; no window axis, the operand's one axis is an inserted window axis. -/
abbrev vecScatter (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update element e of a vector scatter lands at operand element n exactly when the scatter index idx[e, 0], read signed,
    is n. -/
theorem vec_resultIdx?_eq_some_iff {N R w : Nat}
    (wf : ScatterDims.WF ⟨1, ![N]⟩ ⟨2, ![R, 1]⟩ ⟨1, ![R]⟩ [] [0] [0] 1)
    (idx : IVec ⟨2, ![R, 1]⟩ w) (e : Fin R) (n : Fin N) :
    (vecScatter N R wf).resultIdx? (ix1 e) idx = some (ix1 n)
      ↔ (idx (ix2 e (0 : Fin 1))).toInt = (n.val : Int) := by
  have hs0 : (vecScatter N R wf).start (ix1 e) idx 0 = (idx (ix2 e (0 : Fin 1))).toInt := by
    unfold ScatterDims.start
    rw [dif_pos (show (0 : Fin 1) ∈ (vecScatter N R wf).scatterDimsToOperandDims from List.mem_singleton.mpr rfl)]
    have hsi : (vecScatter N R wf).siIdx (ix1 e)
        ⟨List.idxOf (0 : Fin 1) (vecScatter N R wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N R wf).window (ix1 e) 0 = 0 := by
    unfold ScatterDims.window
    rw [dif_neg (show (0 : Fin 1) ∉ (vecScatter N R wf).sKept from
      (by decide : (0 : Fin 1) ∉ (List.finRange 1).filter (· ∉ ([0] : List (Fin 1)))))]
  rw [resultIdx?_eq_some_iff, Fin.forall_fin_one, hs0, hw0]
  show (idx (ix2 e (0 : Fin 1))).toInt + ((0 : Nat) : Int) = (n.val : Int) ↔ _
  constructor
  · intro h; omega
  · intro h; omega

end Scatter

/-! ## Sums of extended reals -/

section Sums

/-- Multiplication by a non-negative real distributes over a finite sum of extended reals (it does not for a general
    extended real factor: ⊤ + ⊥ = ⊥ while a negative factor turns it round, and 0 · ⊤ = 0). -/
theorem sum_mul_coe_of_nonneg {ι : Type*} (s : Finset ι) (a : ι → EReal) {r : ℝ} (hr : 0 ≤ r) :
    (∑ j ∈ s, a j) * (r : EReal) = ∑ j ∈ s, a j * (r : EReal) := by
  classical
  induction s using Finset.induction_on with
  | empty => simp
  | insert k s hk ih =>
    rw [Finset.sum_insert hk, Finset.sum_insert hk,
      EReal.right_distrib_of_nonneg_of_ne_top (EReal.coe_nonneg.mpr hr) (EReal.coe_ne_top r), ih]

/-- The same with the sum started at zero, the form a scatter-add into a zero array takes. -/
theorem zero_add_sum_mul_coe_of_nonneg {ι : Type*} (s : Finset ι) (a : ι → EReal) {r : ℝ} (hr : 0 ≤ r) :
    ((0 : EReal) + ∑ j ∈ s, a j) * (r : EReal) = (0 : EReal) + ∑ j ∈ s, a j * (r : EReal) := by
  rw [zero_add, zero_add, sum_mul_coe_of_nonneg s a hr]

end Sums

end Cert.Lib.GatherScatter

end
-- ==== Proof.LibScatterSum.lean ====
/-
  The accumulating scatter read at one element as a sum over the updates that land there, and the degree count.

  A scatter-add of updates : [R, C] into an operand [N, C] at scatter indices idx : [R, 1] leaves at element (n, g) the
  operand's element plus the sum, over the edges e whose index idx[e, 0] (read signed) is n, of update element (e, g):
  an update row goes to one operand row, column by column, and an index outside [0, N − 1] goes nowhere.  The vector
  form is the same without the column.  Scattering ones into zeros therefore counts, at n, the edges whose index is n:
  a natural number, whose reciprocal square root is a non-negative real as soon as the count is positive.
-/
import proofs.«163663_j28123445854866_2_alg».proof.Proof.LibGatherScatter

noncomputable section

open scoped BigOperators

namespace Cert.Lib.GatherScatter

open Idealize.ShloMosaic Idealize.ShloMosaic.ValueIdx

/-! ## A sum over a rank-1 index set -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The scatter-add at an element: a sum over the edges that land there -/

/-- Row scatter-add at (n, g): the operand's element plus the sum of update elements (e, g) over the edges e whose
    scatter index, read signed, is n. -/
theorem scatterAdd_rows_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (g : Fin C) :
    Ideal.hostScatterAdd (rowsScatter N R C wf) x idx upd (ix2 n g)
      = x (ix2 n g) + ∑ e ∈ Finset.univ.filter
          (fun e : Fin R => (idx (ix2 e (0 : Fin 1))).toInt = (n.val : Int)), upd (ix2 e g) := by
  unfold Ideal.hostScatterAdd
  congr 1
  rw [Finset.sum_filter, sum_idx2, Finset.sum_filter]
  refine Finset.sum_congr rfl fun a _ => ?_
  by_cases h : (idx (ix2 a (0 : Fin 1))).toInt = (n.val : Int)
  · rw [if_pos h, Finset.sum_eq_single g]
    · rw [if_pos ((rows_resultIdx?_eq_some_iff wf idx a g n g).mpr ⟨h, rfl⟩)]
    · intro b _ hb
      rw [if_neg (fun hh => hb ((rows_resultIdx?_eq_some_iff wf idx a b n g).mp hh).2)]
    · intro hg
      exact absurd (Finset.mem_univ g) hg
  · rw [if_neg h]
    refine Finset.sum_eq_zero fun b _ => ?_
    rw [if_neg (fun hh => h ((rows_resultIdx?_eq_some_iff wf idx a b n g).mp hh).1)]

/-- Vector scatter-add at n: the operand's element plus the sum of the update elements e over the edges e whose scatter
    index, read signed, is n. -/
theorem scatterAdd_vec_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (n : Fin N) :
    Ideal.hostScatterAdd (vecScatter N R wf) x idx upd (ix1 n)
      = x (ix1 n) + ∑ e ∈ Finset.univ.filter
          (fun e : Fin R => (idx (ix2 e (0 : Fin 1))).toInt = (n.val : Int)), upd (ix1 e) := by
  unfold Ideal.hostScatterAdd
  congr 1
  rw [Finset.sum_filter, sum_idx1, Finset.sum_filter]
  refine Finset.sum_congr rfl fun a _ => ?_
  exact if_congr (vec_resultIdx?_eq_some_iff wf idx a n) rfl rfl

/-! ## The degree count and its reciprocal square root -/

/-- A sum of ones over a finite set, started at zero, is the number of the set's elements. -/
theorem zero_add_sum_one_eq_card {ι : Type*} (S : Finset ι) :
    (0 : EReal) + ∑ _j ∈ S, (1 : EReal) = ((S.card : ℝ) : EReal) := by
  classical
  rw [zero_add]
  induction S using Finset.induction_on with
  | empty => simp
  | insert k s hk ih =>
    rw [Finset.sum_insert hk, ih, Finset.card_insert_of_notMem hk, Nat.cast_add_one, EReal.coe_add, EReal.coe_one,
      add_comm]

/-- The reciprocal square root of a positive natural number k is the real 1 / √k. -/
theorem rsqrt_natCast_of_pos {k : ℕ} (hk : 1 ≤ k) :
    Ideal.rsqrt (((k : ℝ)) : EReal) = (((Real.sqrt (k : ℝ))⁻¹ : ℝ) : EReal) := by
  have hk' : (0 : ℝ) < (k : ℝ) := by exact_mod_cast hk
  rw [Ideal.rsqrt_coe, if_neg (not_lt.mpr hk'.le), if_neg hk'.ne']

/-- At zero it is +∞ (so a normaliser guarded by "degree > 0" never meets this value). -/
theorem rsqrt_natCast_zero : Ideal.rsqrt ((((0 : ℕ) : ℝ)) : EReal) = ⊤ := by
  rw [Ideal.rsqrt_coe, if_neg (by simp), if_pos (by simp)]

/-- The reciprocal square root of a positive natural number is a non-negative real. -/
theorem exists_rsqrt_natCast {k : ℕ} (hk : 1 ≤ k) :
    ∃ r : ℝ, 0 ≤ r ∧ Ideal.rsqrt (((k : ℝ)) : EReal) = (r : EReal) :=
  ⟨(Real.sqrt (k : ℝ))⁻¹, inv_nonneg.mpr (Real.sqrt_nonneg _), rsqrt_natCast_of_pos hk⟩

end Cert.Lib.GatherScatter

end
-- ==== Proof.LibGcnLayer.lean ====
/-
  One graph-convolution aggregation, normalised before or after the scatter.

  Edges e = 0 … R − 1 carry a source index and a destination index into N nodes; dinv is a non-negative real per node
  (the degree normaliser).  Aggregating, for every node n, the rows y[src e] · dinv[src e] over the edges whose
  destination is n and multiplying the total by dinv[n] gives the same as aggregating y[src e] · (dinv[src e] ·
  dinv[dst e]) over those edges: every edge that lands on n has destination n, so the common factor dinv[n] comes out of
  the sum (it is a non-negative real, and such a factor distributes over a sum of extended reals), and inside the sum
  the products are re-associated.  The source row is read clamped into [0, N − 1] alike on both sides; the destination
  used for the normaliser may be a normalised copy of the raw one, equal to it wherever the raw one is in range —
  the only edges that land anywhere.
-/
import proofs.«163663_j28123445854866_2_alg».proof.Proof.LibScatterSum

noncomputable section

open scoped BigOperators

namespace Cert.Lib.GcnLayer

open Idealize.ShloMosaic Idealize.ShloMosaic.ValueIdx Cert.Lib.GatherScatter

/-- An edge whose raw destination index, read signed, is the node n reads the normaliser at n: its normalised destination
    index is the raw one (the raw one is in range), and clamping n into [0, N − 1] leaves it. -/
theorem clamp_dst_eq {N R w : Nat} (hN : 0 < N) (idxDn idxD : IVec ⟨2, ![R, 1]⟩ w)
    (hD : ∀ e : Fin R, 0 ≤ (idxD (ix2 e (0 : Fin 1))).toInt → (idxD (ix2 e (0 : Fin 1))).toInt < (N : Int) →
      idxDn (ix2 e (0 : Fin 1)) = idxD (ix2 e (0 : Fin 1)))
    (e : Fin R) (n : Fin N) (hte : (idxD (ix2 e (0 : Fin 1))).toInt = (n.val : Int)) :
    (⟨min (idxDn (ix2 e (0 : Fin 1))).toInt.toNat (N - 1), by omega⟩ : Fin N) = n := by
  have hDn : idxDn (ix2 e (0 : Fin 1)) = idxD (ix2 e (0 : Fin 1)) :=
    hD e (by rw [hte]; exact Int.natCast_nonneg _) (by rw [hte]; exact_mod_cast n.isLt)
  refine Fin.ext ?_
  show min (idxDn (ix2 e (0 : Fin 1))).toInt.toNat (N - 1) = n.val
  rw [hDn, hte, Int.toNat_natCast]
  have := n.isLt
  omega

/-- THE AGGREGATION IDENTITY.  updK gathers the pre-scaled rows ys = y · dinv at the source; updR gathers the rows y at the
    source and scales each by dinv[src] · dinv[dst].  Scatter-adding either into zeros at the raw destination indices,
    the first total times dinv[n] is the second total, at every node n and column g. -/
theorem scatter_mul_dinv_eq {N R C w : Nat} (hN : 0 < N)
    (wfg : GatherDims.WF ⟨2, ![N, C]⟩ ⟨2, ![R, 1]⟩ ⟨2, ![R, C]⟩ [1] [0] [] [0] [] 1 ![1, C])
    (wfv : GatherDims.WF ⟨1, ![N]⟩ ⟨2, ![R, 1]⟩ ⟨1, ![R]⟩ [] [0] [] [0] [] 1 ![1])
    (wfs : ScatterDims.WF ⟨2, ![N, C]⟩ ⟨2, ![R, 1]⟩ ⟨2, ![R, C]⟩ [1] [0] [0] 1)
    (idxS idxDn idxD : IVec ⟨2, ![R, 1]⟩ w)
    (hD : ∀ e : Fin R, 0 ≤ (idxD (ix2 e (0 : Fin 1))).toInt → (idxD (ix2 e (0 : Fin 1))).toInt < (N : Int) →
      idxDn (ix2 e (0 : Fin 1)) = idxD (ix2 e (0 : Fin 1)))
    (dinv : (⟨1, ![N]⟩ : Shape).Idx → EReal)
    (hdinv : ∀ n : Fin N, ∃ r : ℝ, 0 ≤ r ∧ dinv (ix1 n) = (r : EReal))
    (y ys : (⟨2, ![N, C]⟩ : Shape).Idx → EReal)
    (hys : ∀ (n : Fin N) (g : Fin C), ys (ix2 n g) = y (ix2 n g) * dinv (ix1 n))
    (zero : (⟨2, ![N, C]⟩ : Shape).Idx → EReal) (hz : ∀ i, zero i = 0)
    (updK updR : (⟨2, ![R, C]⟩ : Shape).Idx → EReal)
    (hK : ∀ (e : Fin R) (f : Fin C), updK (ix2 e f) = Host.gather (rowsDims N R C wfg) ys idxS (ix2 e f))
    (hR : ∀ (e : Fin R) (f : Fin C), updR (ix2 e f) = Host.gather (rowsDims N R C wfg) y idxS (ix2 e f)
      * (Host.gather (vecDims N R wfv) dinv idxS (ix1 e) * Host.gather (vecDims N R wfv) dinv idxDn (ix1 e)))
    (n : Fin N) (g : Fin C) :
    Ideal.hostScatterAdd (rowsScatter N R C wfs) zero idxD updK (ix2 n g) * dinv (ix1 n)
      = Ideal.hostScatterAdd (rowsScatter N R C wfs) zero idxD updR (ix2 n g) := by
  obtain ⟨r, hr, hrn⟩ := hdinv n
  rw [scatterAdd_rows_apply, scatterAdd_rows_apply, hz, hrn, zero_add_sum_mul_coe_of_nonneg _ _ hr]
  congr 1
  refine Finset.sum_congr rfl fun e he => ?_
  have hte : (idxD (ix2 e (0 : Fin 1))).toInt = (n.val : Int) := (Finset.mem_filter.mp he).2
  rw [hK, hR, gather_rows_apply hN, gather_rows_apply hN, gather_vec_apply hN, gather_vec_apply hN, hys,
    clamp_dst_eq hN idxDn idxD hD e n hte, ← hrn, mul_assoc]

end Cert.Lib.GcnLayer

end
-- ==== Proof.LibDinv.lean ====
/-
  Counting edges by a scatter-add of ones, and the normaliser 1 / √count.

  Scatter-adding a one per edge into an array of zeros, at the edges' indices, leaves at node n the number of edges
  whose index (read signed) is n: 0 + a sum of ones over a finite set, a natural number.  "1 / √count where count > 0,
  else 0" is then a non-negative real at every node: a positive natural number has a positive real reciprocal square
  root, and where the count is 0 the comparison fails and the zero is taken.  It is never an infinity, which is what
  lets such a factor be moved across sums of extended reals.
-/
import proofs.«163663_j28123445854866_2_alg».proof.Proof.LibScatterSum

noncomputable section

open scoped BigOperators

namespace Cert.Lib.Dinv

open Idealize.ShloMosaic Idealize.ShloMosaic.ValueIdx Cert.Lib.GatherScatter

/-- The word 0x3F800000 is the float 1.0: sign 0, biased exponent 127, zero fraction. -/
theorem ofBits_one_f32 : Ideal.ofBits .f32 0x3F800000#32 = 1 := by
  simp [Ideal.ofBits, Ideal.ieee, -EReal.coe_mul]; norm_num

/-- A scalar broadcast to any shape reads the scalar at every index … -/
theorem broadcastInDim_scalar_apply {α : Type} {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- … so it is a constant function. -/
theorem broadcastInDim_scalar {α : Type} {t : Shape}
    (h : (⟨0, ![]⟩ : Shape).BroadcastsInDim t (![] : Fin 0 → Fin t.rank))
    (x : (⟨0, ![]⟩ : Shape).Idx → α) : broadcastInDim t ![] h x = fun _ => x ix0 :=
  funext (broadcastInDim_scalar_apply h x)

/-- The host's reciprocal square root at an index is the extended reals' one of the element. -/
theorem hostRsqrt_apply {s : Shape} {φ : FTy} (x : FVec Ideal s φ) (i : s.Idx) :
    Host.rsqrt x i = Ideal.rsqrt (x i) := rfl

/-- "1 / √k where k > 0, else 0" of a natural number k is a non-negative real: for k = 0 the comparison 0 < k fails and
    the zero is taken; for k ≥ 1 it holds and 1 / √k is a positive real. -/
theorem select_rsqrt_natCast (k : ℕ) :
    ∃ r : ℝ, 0 ≤ r ∧
      Scalar.select (Ideal.cmp .ogt (((k : ℝ)) : EReal) 0) (Ideal.rsqrt (((k : ℝ)) : EReal)) (0 : EReal) = (r : EReal) := by
  rcases Nat.eq_zero_or_pos k with rfl | hk
  · refine ⟨0, le_refl _, ?_⟩
    have hc : Ideal.cmp .ogt ((((0 : ℕ) : ℝ)) : EReal) 0 = 0#1 := by simp [Ideal.cmp]
    rw [hc, select_zero]
    exact EReal.coe_zero.symm
  · obtain ⟨r, hr, h⟩ := exists_rsqrt_natCast hk
    refine ⟨r, hr, ?_⟩
    have hpos : (0 : EReal) < (((k : ℝ)) : EReal) := by exact_mod_cast hk
    have hc : Ideal.cmp .ogt (((k : ℝ)) : EReal) 0 = 1#1 := by
      unfold Ideal.cmp
      simp only [decide_eq_true hpos]
      rfl
    rw [hc, select_one, h]

section Count
variable {N R w : Nat}
  (wf : ScatterDims.WF ⟨1, ![N]⟩ ⟨2, ![R, 1]⟩ ⟨1, ![R]⟩ [] [0] [0] 1)
  (hN : (⟨0, ![]⟩ : Shape).BroadcastsInDim ⟨1, ![N]⟩ (![] : Fin 0 → Fin (⟨1, ![N]⟩ : Shape).rank))
  (hR : (⟨0, ![]⟩ : Shape).BroadcastsInDim ⟨1, ![R]⟩ (![] : Fin 0 → Fin (⟨1, ![R]⟩ : Shape).rank))
  (idx : IVec ⟨2, ![R, 1]⟩ w)

/-- Ones scatter-added into zeros: at node n, the number of edges whose index, read signed, is n. -/
theorem scatterAdd_ones_apply (n : Fin N) :
    Ideal.hostScatterAdd (vecScatter N R wf)
        (broadcastInDim ⟨1, ![N]⟩ ![] hN (constant (F := Ideal) ⟨0, ![]⟩ .f32 0x00000000#32)) idx
        (broadcastInDim ⟨1, ![R]⟩ ![] hR (constant (F := Ideal) ⟨0, ![]⟩ .f32 0x3F800000#32)) (ix1 n)
      = ((((Finset.univ.filter
          (fun e : Fin R => (idx (ix2 e (0 : Fin 1))).toInt = (n.val : Int))).card : ℕ) : ℝ) : EReal) := by
  rw [broadcastInDim_scalar, broadcastInDim_scalar, scatterAdd_vec_apply, constant_apply, constant_apply,
    Ideal.ofBits_zero_f32, ofBits_one_f32, zero_add_sum_one_eq_card]

/-- The degree count as the programs spell it. -/
def degOf : FVec Ideal ⟨1, ![N]⟩ .f32 :=
  Host.scatterAdd (F := Ideal) (vecScatter N R wf)
    (broadcastInDim ⟨1, ![N]⟩ ![] hN (constant (F := Ideal) ⟨0, ![]⟩ .f32 0x00000000#32)) idx
    (broadcastInDim ⟨1, ![R]⟩ ![] hR (constant (F := Ideal) ⟨0, ![]⟩ .f32 0x3F800000#32))

/-- The normaliser as the programs spell it: 1 / √deg where deg > 0, else 0. -/
def dinvOf : FVec Ideal ⟨1, ![N]⟩ .f32 :=
  select (cmpf .ogt (degOf wf hN hR idx)
      (broadcastInDim ⟨1, ![N]⟩ ![] hN (constant (F := Ideal) ⟨0, ![]⟩ .f32 0x00000000#32)))
    (Host.rsqrt (degOf wf hN hR idx))
    (broadcastInDim ⟨1, ![N]⟩ ![] hN (constant (F := Ideal) ⟨0, ![]⟩ .f32 0x00000000#32))

/-- The degree of node n is the number of edges whose index is n. -/
theorem degOf_apply (n : Fin N) :
    degOf wf hN hR idx (ix1 n) = ((((Finset.univ.filter
      (fun e : Fin R => (idx (ix2 e (0 : Fin 1))).toInt = (n.val : Int))).card : ℕ) : ℝ) : EReal) := by
  unfold degOf
  rw [Host.scatterAdd, Ideal.hostScatterAdd_def, scatterAdd_ones_apply]

/-- The normaliser at node n is a non-negative real. -/
theorem dinvOf_real (n : Fin N) : ∃ r : ℝ, 0 ≤ r ∧ dinvOf wf hN hR idx (ix1 n) = (r : EReal) := by
  obtain ⟨r, hr, h⟩ := select_rsqrt_natCast (Finset.univ.filter
      (fun e : Fin R => (idx (ix2 e (0 : Fin 1))).toInt = (n.val : Int))).card
  refine ⟨r, hr, ?_⟩
  unfold dinvOf
  rw [select_apply, cmpf_apply, broadcastInDim_scalar_apply, Ideal.cmpf_def, hostRsqrt_apply, constant_apply,
    Ideal.ofBits_zero_f32, degOf_apply]
  exact h

end Count

end Cert.Lib.Dinv

end
-- ==== Proof.BridgeLayers.lean ====
/-
  The reference's two graph-convolution aggregations, each as "aggregate the pre-scaled rows, then scale by the
  destination's normaliser".

  The reference gathers, for every edge e, the projected row of the source node and multiplies it by
  dinv[src e] · dinv[dst e] (both read at the edge's indices, wrapped "negative index + N" and clamped as a gather does),
  then scatter-adds the products into zeros at the RAW destination indices.  An edge lands on node n only if its raw
  destination is n — then the wrapped destination is n too, and the clamped one — so the factor dinv[dst e] is dinv[n]
  on every edge that lands on n, and comes out of the sum: it is a non-negative real (1 / √degree where the degree is
  positive, else 0).  What is left inside is the row of y · dinv at the source: the array "ys" below.
-/
import proofs.«163663_j28123445854866_2_alg».proof.Proof.RefRead
import proofs.«163663_j28123445854866_2_alg».proof.Proof.LibGcnLayer
import proofs.«163663_j28123445854866_2_alg».proof.Proof.LibDinv

noncomputable section

open scoped BigOperators

namespace Cert.Bridge.Layers

open Idealize.ShloMosaic Idealize.ShloMosaic.TcCoe Idealize.SL.Sem Idealize.ShloMosaic.ValueIdx
open Cert.ReferenceIdeal Cert.ReferenceIdeal.Read Cert.ReferenceIdeal.Facts₀
open Cert.Lib.GatherScatter Cert.Lib.GcnLayer Cert.Lib.Dinv

/-! ## Two small facts about words and about the host's scatter-add -/

/-- A signed index that is not negative is left alone by the wrap "x < 0 ? x + k : x". -/
theorem select_wrap_of_nonneg (x k : BitVec 32) (h : 0 ≤ x.toInt) :
    Scalar.select (IntOp.cmpi .slt x 0#32) (IntOp.addi x k) x = x := by
  have hs : x.slt 0#32 = false := by
    rw [BitVec.slt_eq_decide, BitVec.toInt_zero]
    exact decide_eq_false (not_lt.mpr h)
  have hc : IntOp.cmpi .slt x 0#32 = 0#1 := by
    show BitVec.ofBool (x.slt 0#32) = 0#1
    rw [hs]
    rfl
  rw [hc, select_zero]

/-- At the extended reals the host's accumulating scatter is the exact sum. -/
theorem hostScatterAdd_eq {s si u : Shape} {φ : FTy} {w : Nat} (d : ScatterDims s si u) (x : FVec Ideal s φ)
    (idx : IVec si w) (upd : FVec Ideal u φ) :
    Host.scatterAdd d x idx upd = Ideal.hostScatterAdd d x idx upd := rfl

/-! ## The records of the reference are the row / vector gathers and the row scatter -/

theorem rows_scatter_eq : scatter_S50000x64_S850000x1_S850000x64_1_0_0_1
    = rowsScatter 50000 850000 64 scatter_S50000x64_S850000x1_S850000x64_1_0_0_1_wf := rfl
theorem rows_gather_eq : gather_S50000x64_S850000x1_S850000x64_1_0_n_n_0_1_164
    = rowsDims 50000 850000 64 gather_S50000x64_S850000x1_S850000x64_1_0_n_n_0_1_164_wf := rfl
theorem vec_gather_eq : gather_S50000_S850000x1_S850000_n_0_n_n_0_1_1
    = vecDims 50000 850000 gather_S50000_S850000x1_S850000_n_0_n_n_0_1_1_wf := rfl

/-! ## The normaliser (stage 17) -/

/-- Stage 17 is the normaliser 1 / √degree (0 where the degree is 0), the degree counted at the raw destinations. -/
theorem v17_eq (x1 : (⟨S2x800000, .i32⟩ : BufTy).Contents (Elt Ideal)) :
    val_main_v17 (F := Ideal) x1
      = dinvOf scatter_S50000_S850000x1_S850000_n_0_0_1_wf bcast_S_S50000 bcast_S_S850000
          (val_main_v12 (F := Ideal) x1) := rfl

/-- It is a non-negative real at every node. -/
theorem v17_real (x1 : (⟨S2x800000, .i32⟩ : BufTy).Contents (Elt Ideal)) (n : Fin 50000) :
    ∃ r : ℝ, 0 ≤ r ∧ (val_main_v17 (F := Ideal) x1 (ix1 n) : EReal) = (r : EReal) := by
  rw [v17_eq]
  exact dinvOf_real _ _ _ _ n

/-! ## One aggregation, over abstract stages -/

/-- A rank-1 index is the index built from its coordinate. -/
theorem idx_eq_ix1 {n : Nat} (j : (⟨1, ![n]⟩ : Shape).Idx) (e : Fin n) (h : (j 0).val = e.val) : j = ix1 e := by
  funext a
  match a with
  | ⟨0, _⟩ => exact Fin.ext h

/-- ONE AGGREGATION.  dst are the raw destination indices and dstW their wrap ("negative + 50000"); idxS, idxDn, idxD are
    the columns [850000, 1] of the (wrapped) sources, the wrapped destinations and the RAW destinations; upd is the
    reference's update array y[src] · (dinv[src] · dinv[dst]).  Scatter-adding the pre-scaled rows ys = y · dinv at the
    raw destinations and scaling the total at node n by dinv[n] gives the reference's scatter-add of upd. -/
theorem layer_core
    (dinv : FVec Ideal S50000 .f32)
    (hdinv : ∀ n : Fin 50000, ∃ r : ℝ, 0 ≤ r ∧ (dinv (ix1 n) : EReal) = (r : EReal))
    (y ys : FVec Ideal S50000x64 .f32)
    (hys : ∀ (n : Fin 50000) (g : Fin 64), ys (ix2 n g) = y (ix2 n g) * dinv (ix1 n))
    (zero : FVec Ideal S50000x64 .f32) (hz : ∀ i, (zero i : EReal) = 0)
    (dst dstW : IVec S850000 32)
    (hW : ∀ i, dstW i = Scalar.select (IntOp.cmpi .slt (dst i) 0#32) (IntOp.addi (dst i) 50000#32) (dst i))
    (idxS idxDn idxD : IVec S850000x1 32)
    (hDn : ∀ e : Fin 850000, idxDn (ix2 e (0 : Fin 1)) = dstW (ix1 e))
    (hDr : ∀ e : Fin 850000, idxD (ix2 e (0 : Fin 1)) = dst (ix1 e))
    (upd : FVec Ideal S850000x64 .f32)
    (hupd : ∀ (e : Fin 850000) (f : Fin 64), upd (ix2 e f)
      = Host.gather gather_S50000x64_S850000x1_S850000x64_1_0_n_n_0_1_164 y idxS (ix2 e f)
        * (Host.gather gather_S50000_S850000x1_S850000_n_0_n_n_0_1_1 dinv idxS (ix1 e)
          * Host.gather gather_S50000_S850000x1_S850000_n_0_n_n_0_1_1 dinv idxDn (ix1 e)))
    (n : Fin 50000) (g : Fin 64) :
    Host.scatterAdd (F := Ideal) scatter_S50000x64_S850000x1_S850000x64_1_0_0_1 zero idxD
        (Host.gather gather_S50000x64_S850000x1_S850000x64_1_0_n_n_0_1_164 ys idxS) (ix2 n g) * dinv (ix1 n)
      = Host.scatterAdd (F := Ideal) scatter_S50000x64_S850000x1_S850000x64_1_0_0_1 zero idxD upd (ix2 n g) := by
  rw [hostScatterAdd_eq, hostScatterAdd_eq, rows_scatter_eq, rows_gather_eq]
  refine scatter_mul_dinv_eq (by omega) _ gather_S50000_S850000x1_S850000_n_0_n_n_0_1_1_wf _ idxS idxDn idxD ?_
    dinv hdinv y ys hys zero hz _ upd (fun _ _ => rfl) ?_ n g
  · intro e h0 _
    rw [hDr] at h0 ⊢
    rw [hDn, hW]
    exact select_wrap_of_nonneg _ _ h0
  · intro e f
    rw [hupd, rows_gather_eq, vec_gather_eq]

/-! ## The first aggregation (stages 8 – 45) -/

/-- Stage 43 is the zero array. -/
theorem v43_zero (i : S50000x64.Idx) : (val_main_v43 (F := Ideal) i : EReal) = 0 := by
  rw [val_main_v43_apply, val_main_cst_8_apply, Ideal.ofBits_def, Ideal.ofBits_zero_f32]

/-- The sources are wrapped twice by the same operations: the two columns are the same array. -/
theorem v23_eq_v38 (x1 : (⟨S2x800000, .i32⟩ : BufTy).Contents (Elt Ideal)) :
    val_main_v23 (F := Ideal) x1 = val_main_v38 (F := Ideal) x1 := rfl

/-- The reference's first aggregation is "aggregate ys = (stage 6) · dinv, then scale by dinv". -/
theorem layer1
    (x0 : (⟨S50000x12, .f32⟩ : BufTy).Contents (Elt Ideal)) (x1 : (⟨S2x800000, .i32⟩ : BufTy).Contents (Elt Ideal))
    (x3 : (⟨S1x11, .f32⟩ : BufTy).Contents (Elt Ideal)) (x4 : (⟨S23x64, .f32⟩ : BufTy).Contents (Elt Ideal))
    (ys : FVec Ideal S50000x64 .f32) (dv : FVec Ideal ⟨2, ![50000, 1]⟩ .f32)
    (hdv : ∀ n : Fin 50000, dv (ix2 n (0 : Fin 1)) = val_main_v17 (F := Ideal) x1 (ix1 n))
    (hys : ∀ (n : Fin 50000) (g : Fin 64),
      ys (ix2 n g) = val_main_v6 (F := Ideal) x0 x3 x4 (ix2 n g) * dv (ix2 n (0 : Fin 1)))
    (n : Fin 50000) (g : Fin 64) :
    Host.scatterAdd (F := Ideal) scatter_S50000x64_S850000x1_S850000x64_1_0_0_1 (val_main_v43 (F := Ideal))
        (val_main_v44 (F := Ideal) x1)
        (Host.gather gather_S50000x64_S850000x1_S850000x64_1_0_n_n_0_1_164 ys (val_main_v38 (F := Ideal) x1)) (ix2 n g)
        * dv (ix2 n (0 : Fin 1))
      = val_main_v45 (F := Ideal) x0 x1 x3 x4 (ix2 n g) := by
  rw [hdv n]
  unfold val_main_v45
  refine layer_core (val_main_v17 (F := Ideal) x1) (v17_real x1) (val_main_v6 (F := Ideal) x0 x3 x4) ys
    (fun n g => by rw [hys n g, hdv n]) (val_main_v43 (F := Ideal)) v43_zero
    (val_main_v9 (F := Ideal) x1) (val_main_v29 (F := Ideal) x1) ?_
    (val_main_v38 (F := Ideal) x1) (val_main_v30 (F := Ideal) x1) (val_main_v44 (F := Ideal) x1) ?_ ?_
    (val_main_v42 (F := Ideal) x0 x1 x3 x4) ?_ n g
  · intro i
    rw [val_main_v29_apply, val_main_v26_apply, val_main_v28_apply, val_main_v25_apply, val_main_c_4_apply,
      val_main_v27_apply, val_main_c_5_apply]
  · intro e
    rw [val_main_v30_apply, idx_eq_ix1 (idx_main_v30 (ix2 e (0 : Fin 1))) e rfl]
  · intro e
    rw [val_main_v44_apply, idx_eq_ix1 (idx_main_v44 (ix2 e (0 : Fin 1))) e rfl]
  · intro e f
    rw [val_main_v42_apply, Ideal.mulf_def, val_main_v41_apply, val_main_v40_apply,
      idx_eq_ix1 (idx_main_v40 (idx_main_v41 (ix2 e f))) e rfl, val_main_v32_apply, Ideal.mulf_def]
    unfold val_main_v39 val_main_v24 val_main_v31
    rw [v23_eq_v38]

/-! ## The second aggregation (stages 50 – 89) -/

/-- Stage 87 is the zero array. -/
theorem v87_zero (i : S50000x64.Idx) : (val_main_v87 (F := Ideal) i : EReal) = 0 := by
  rw [val_main_v87_apply, val_main_cst_19_apply, Ideal.ofBits_def, Ideal.ofBits_zero_f32]

/-- The second layer recomputes the normaliser by the same operations on the same indices: the same array. -/
theorem v61_eq_v17 (x1 : (⟨S2x800000, .i32⟩ : BufTy).Contents (Elt Ideal)) :
    val_main_v61 (F := Ideal) x1 = val_main_v17 (F := Ideal) x1 := rfl

/-- Its sources are wrapped twice by the same operations: the two columns are the same array. -/
theorem v67_eq_v82 (x1 : (⟨S2x800000, .i32⟩ : BufTy).Contents (Elt Ideal)) :
    val_main_v67 (F := Ideal) x1 = val_main_v82 (F := Ideal) x1 := rfl

/-- The reference's second aggregation is "aggregate ys = (stage 50) · dinv, then scale by dinv". -/
theorem layer2
    (x0 : (⟨S50000x12, .f32⟩ : BufTy).Contents (Elt Ideal)) (x1 : (⟨S2x800000, .i32⟩ : BufTy).Contents (Elt Ideal))
    (x3 : (⟨S1x11, .f32⟩ : BufTy).Contents (Elt Ideal)) (x4 : (⟨S23x64, .f32⟩ : BufTy).Contents (Elt Ideal))
    (x5 : (⟨S64, .f32⟩ : BufTy).Contents (Elt Ideal)) (x6 : (⟨S64x64, .f32⟩ : BufTy).Contents (Elt Ideal))
    (ys : FVec Ideal S50000x64 .f32) (dv : FVec Ideal ⟨2, ![50000, 1]⟩ .f32)
    (hdv : ∀ n : Fin 50000, dv (ix2 n (0 : Fin 1)) = val_main_v17 (F := Ideal) x1 (ix1 n))
    (hys : ∀ (n : Fin 50000) (g : Fin 64),
      ys (ix2 n g) = val_main_v50 (F := Ideal) x0 x1 x3 x4 x5 x6 (ix2 n g) * dv (ix2 n (0 : Fin 1)))
    (n : Fin 50000) (g : Fin 64) :
    Host.scatterAdd (F := Ideal) scatter_S50000x64_S850000x1_S850000x64_1_0_0_1 (val_main_v87 (F := Ideal))
        (val_main_v88 (F := Ideal) x1)
        (Host.gather gather_S50000x64_S850000x1_S850000x64_1_0_n_n_0_1_164 ys (val_main_v82 (F := Ideal) x1)) (ix2 n g)
        * dv (ix2 n (0 : Fin 1))
      = val_main_v89 (F := Ideal) x0 x1 x3 x4 x5 x6 (ix2 n g) := by
  rw [hdv n]
  unfold val_main_v89
  refine layer_core (val_main_v17 (F := Ideal) x1) (v17_real x1) (val_main_v50 (F := Ideal) x0 x1 x3 x4 x5 x6) ys
    (fun n g => by rw [hys n g, hdv n]) (val_main_v87 (F := Ideal)) v87_zero
    (val_main_v53 (F := Ideal) x1) (val_main_v73 (F := Ideal) x1) ?_
    (val_main_v82 (F := Ideal) x1) (val_main_v74 (F := Ideal) x1) (val_main_v88 (F := Ideal) x1) ?_ ?_
    (val_main_v86 (F := Ideal) x0 x1 x3 x4 x5 x6) ?_ n g
  · intro i
    rw [val_main_v73_apply, val_main_v70_apply, val_main_v72_apply, val_main_v69_apply, val_main_c_15_apply,
      val_main_v71_apply, val_main_c_16_apply]
  · intro e
    rw [val_main_v74_apply, idx_eq_ix1 (idx_main_v74 (ix2 e (0 : Fin 1))) e rfl]
  · intro e
    rw [val_main_v88_apply, idx_eq_ix1 (idx_main_v88 (ix2 e (0 : Fin 1))) e rfl]
  · intro e f
    rw [val_main_v86_apply, Ideal.mulf_def, val_main_v85_apply, val_main_v84_apply,
      idx_eq_ix1 (idx_main_v84 (idx_main_v85 (ix2 e f))) e rfl, val_main_v76_apply, Ideal.mulf_def]
    unfold val_main_v83 val_main_v68 val_main_v75
    rw [v61_eq_v17, v67_eq_v82]

end Cert.Bridge.Layers

end
-- ==== Proof.BridgeDecode.lean ====
/-
  The reference's edge decoder is the specification's.

  The reference gathers, for every edge, the node features of its source and of its destination, lays them and the
  edge's five attributes side by side in one row of 133 columns, and applies a three-layer perceptron: a product
  with a 133 × 64 matrix plus a bias, a rectifier, a product with a 64 × 32 matrix plus a bias, a rectifier, a
  product with a 32 × 4 matrix plus a bias.  The specification (`decode`) multiplies the three stretches of the row
  with the three corresponding row blocks of the first matrix separately and adds the three products.  The two agree
  because a finite sum over 133 = 64 + 64 + 5 positions is the sum of the sums over its three stretches — only
  associativity of addition on the extended reals, so no finiteness is needed.
-/
import proofs.«163663_j28123445854866_2_alg».proof.Proof.RefRead
import proofs.«163663_j28123445854866_2_alg».proof.Proof.Region3Spec
import Idealize.ShloMosaic.Lib.Pipeline.Value
import Idealize.ShloMosaic.Lib.ValueIdx
import Idealize.ShloMosaic.PureOps.Ideal.Laws

noncomputable section

open scoped BigOperators

namespace Cert.Bridge.Decode

open Cert.ReferenceIdeal Cert.ReferenceIdeal.Read Cert.KernelIdeal.Region3
open Idealize.ShloMosaic Idealize.ShloMosaic.TcCoe Idealize.SL.Sem
open Idealize.ShloMosaic.ValueIdx

/-- A sum over 133 = 64 + 64 + 5 positions is the sum of the sums over its three stretches. -/
theorem sum_fin133 (f : Fin 133 → EReal) :
    ∑ k : Fin 133, f k = (∑ k : Fin 64, f ⟨k.val, by omega⟩) + (∑ k : Fin 64, f ⟨64 + k.val, by omega⟩)
      + (∑ k : Fin 5, f ⟨128 + k.val, by omega⟩) := by
  show ∑ k : Fin (64 + 64 + 5), f k = _
  rw [Fin.sum_univ_add, Fin.sum_univ_add]
  rfl

/-! ## The reference's index maps at an index given by coordinates -/

theorem lidx109_eq (e : Fin 800000) (h : Fin 64) (k : Fin 133) : lidx_main_v109 (ix2 e h) k = ix2 e k :=
  funext fun a => match a with | ⟨0, _⟩ => rfl | ⟨1, _⟩ => rfl
theorem ridx109_eq (e : Fin 800000) (h : Fin 64) (k : Fin 133) : ridx_main_v109 (ix2 e h) k = ix2 k h :=
  funext fun a => match a with | ⟨0, _⟩ => rfl | ⟨1, _⟩ => rfl
theorem bias1_idx_eq (e : Fin 800000) (h : Fin 64) : idx_main_v110 (idx_main_v111 (ix2 e h)) = ix1 h :=
  funext fun a => match a with | ⟨0, _⟩ => rfl
theorem lidx114_eq (e : Fin 800000) (h' : Fin 32) (k : Fin 64) : lidx_main_v114 (ix2 e h') k = ix2 e k :=
  funext fun a => match a with | ⟨0, _⟩ => rfl | ⟨1, _⟩ => rfl
theorem ridx114_eq (e : Fin 800000) (h' : Fin 32) (k : Fin 64) : ridx_main_v114 (ix2 e h') k = ix2 k h' :=
  funext fun a => match a with | ⟨0, _⟩ => rfl | ⟨1, _⟩ => rfl
theorem bias2_idx_eq (e : Fin 800000) (h' : Fin 32) : idx_main_v115 (idx_main_v116 (ix2 e h')) = ix1 h' :=
  funext fun a => match a with | ⟨0, _⟩ => rfl
theorem lidx119_eq (e : Fin 800000) (o : Fin 4) (k : Fin 32) : lidx_main_v119 (ix2 e o) k = ix2 e k :=
  funext fun a => match a with | ⟨0, _⟩ => rfl | ⟨1, _⟩ => rfl
theorem ridx119_eq (e : Fin 800000) (o : Fin 4) (k : Fin 32) : ridx_main_v119 (ix2 e o) k = ix2 k o :=
  funext fun a => match a with | ⟨0, _⟩ => rfl | ⟨1, _⟩ => rfl
theorem bias3_idx_eq (e : Fin 800000) (o : Fin 4) : idx_main_v120 (idx_main_v121 (ix2 e o)) = ix1 o :=
  funext fun a => match a with | ⟨0, _⟩ => rfl

variable {x0 : (⟨S50000x12, .f32⟩ : BufTy).Contents (Elt Ideal)} {x1 : (⟨S2x800000, .i32⟩ : BufTy).Contents (Elt Ideal)} {x2 : (⟨S800000x5, .f32⟩ : BufTy).Contents (Elt Ideal)} {x3 : (⟨S1x11, .f32⟩ : BufTy).Contents (Elt Ideal)} {x4 : (⟨S23x64, .f32⟩ : BufTy).Contents (Elt Ideal)} {x5 : (⟨S64, .f32⟩ : BufTy).Contents (Elt Ideal)} {x6 : (⟨S64x64, .f32⟩ : BufTy).Contents (Elt Ideal)} {x7 : (⟨S64, .f32⟩ : BufTy).Contents (Elt Ideal)} {x8 : (⟨S133x64, .f32⟩ : BufTy).Contents (Elt Ideal)} {x9 : (⟨S64, .f32⟩ : BufTy).Contents (Elt Ideal)} {x10 : (⟨S64x32, .f32⟩ : BufTy).Contents (Elt Ideal)} {x11 : (⟨S32, .f32⟩ : BufTy).Contents (Elt Ideal)} {x12 : (⟨S32x4, .f32⟩ : BufTy).Contents (Elt Ideal)} {x13 : (⟨S4, .f32⟩ : BufTy).Contents (Elt Ideal)}
variable {hs hd : (⟨2, ![800000, 64]⟩ : Shape).Idx → EReal} {ea : (⟨2, ![800000, 5]⟩ : Shape).Idx → EReal} {d1s d1d : (⟨2, ![64, 64]⟩ : Shape).Idx → EReal} {d1e : (⟨2, ![5, 64]⟩ : Shape).Idx → EReal} {b1 : (⟨2, ![1, 64]⟩ : Shape).Idx → EReal} {d2 : (⟨2, ![64, 32]⟩ : Shape).Idx → EReal} {b2 : (⟨2, ![1, 32]⟩ : Shape).Idx → EReal} {d3 : (⟨2, ![32, 4]⟩ : Shape).Idx → EReal} {b3 : (⟨2, ![1, 4]⟩ : Shape).Idx → EReal}

/-! ## The concatenated row: source features, destination features, attributes -/

/-- Columns 0 … 63 of an edge's row are its source's features. -/
theorem concat_src (e : Fin 800000) (k : Fin 64) :
    val_main_v108 (F := Ideal) x0 x1 x2 x3 x4 x5 x6 x7 (ix2 e (⟨k.val, by omega⟩ : Fin 133))
      = val_main_v100 (F := Ideal) x0 x1 x3 x4 x5 x6 x7 (ix2 e k) := by
  unfold val_main_v108
  exact concatenate_apply_piece (1 : Fin S800000x133.rank) _ _
    (ix2 e (⟨k.val, by omega⟩ : Fin 133)) 0 (by simp) S800000x64 (val_main_v100 (F := Ideal) x0 x1 x3 x4 x5 x6 x7) rfl rfl
    0 rfl (ix2 e k) (fun b hb => by match b with | ⟨0, _⟩ => rfl | ⟨1, _⟩ => exact absurd rfl hb) (Nat.zero_add _)

/-- Columns 64 … 127 are its destination's features. -/
theorem concat_dst (e : Fin 800000) (k : Fin 64) :
    val_main_v108 (F := Ideal) x0 x1 x2 x3 x4 x5 x6 x7 (ix2 e (⟨64 + k.val, by omega⟩ : Fin 133))
      = val_main_v107 (F := Ideal) x0 x1 x3 x4 x5 x6 x7 (ix2 e k) := by
  unfold val_main_v108
  exact concatenate_apply_piece (1 : Fin S800000x133.rank) _ _
    (ix2 e (⟨64 + k.val, by omega⟩ : Fin 133)) 1 (by simp) S800000x64 (val_main_v107 (F := Ideal) x0 x1 x3 x4 x5 x6 x7) rfl rfl
    64 rfl (ix2 e k) (fun b hb => by match b with | ⟨0, _⟩ => rfl | ⟨1, _⟩ => exact absurd rfl hb) rfl

/-- Columns 128 … 132 are its attributes. -/
theorem concat_attr (e : Fin 800000) (k : Fin 5) :
    val_main_v108 (F := Ideal) x0 x1 x2 x3 x4 x5 x6 x7 (ix2 e (⟨128 + k.val, by omega⟩ : Fin 133))
      = x2 (ix2 e k) := by
  unfold val_main_v108
  exact concatenate_apply_piece (1 : Fin S800000x133.rank) _ _
    (ix2 e (⟨128 + k.val, by omega⟩ : Fin 133)) 2 (by simp) S800000x5 x2 rfl rfl
    128 rfl (ix2 e k) (fun b hb => by match b with | ⟨0, _⟩ => rfl | ⟨1, _⟩ => exact absurd rfl hb) rfl

/-! ## Layer by layer -/

/-- The first layer before the rectifier: the product of the 133-column row with the first matrix is the sum of the
    three products of the specification. -/
theorem ref_layer1
    (hhs : ∀ (e : Fin 800000) (k : Fin 64), hs (ix2 e k) = val_main_v100 (F := Ideal) x0 x1 x3 x4 x5 x6 x7 (ix2 e k))
    (hhd : ∀ (e : Fin 800000) (k : Fin 64), hd (ix2 e k) = val_main_v107 (F := Ideal) x0 x1 x3 x4 x5 x6 x7 (ix2 e k))
    (hea : ∀ (e : Fin 800000) (k : Fin 5), ea (ix2 e k) = x2 (ix2 e k))
    (hd1s : ∀ (k : Fin 64) (h : Fin 64), d1s (ix2 k h) = x8 (ix2 (⟨k.val, by omega⟩ : Fin 133) h))
    (hd1d : ∀ (k : Fin 64) (h : Fin 64), d1d (ix2 k h) = x8 (ix2 (⟨64 + k.val, by omega⟩ : Fin 133) h))
    (hd1e : ∀ (k : Fin 5) (h : Fin 64), d1e (ix2 k h) = x8 (ix2 (⟨128 + k.val, by omega⟩ : Fin 133) h))
    (hb1 : ∀ h : Fin 64, b1 (ix2 (0 : Fin 1) h) = x9 (ix1 h))
    (e : Fin 800000) (h : Fin 64) :
    val_main_v112 (F := Ideal) x0 x1 x2 x3 x4 x5 x6 x7 x8 x9 (ix2 e h) = decodeZ0 hs hd ea d1s d1d d1e b1 e h := by
  rw [val_main_v112_apply, val_main_v109_apply, val_main_v111_apply, val_main_v110_apply, sum_fin133, Ideal.addf_def]
  unfold decodeZ0
  refine congrArg₂ (· + ·) (congrArg₂ (· + ·) (congrArg₂ (· + ·) ?_ ?_) ?_) ?_
  · refine Finset.sum_congr rfl fun k _ => ?_
    rw [lidx109_eq, ridx109_eq, concat_src, hhs e k, hd1s k h]
  · refine Finset.sum_congr rfl fun k _ => ?_
    rw [lidx109_eq, ridx109_eq, concat_dst, hhd e k, hd1d k h]
  · refine Finset.sum_congr rfl fun k _ => ?_
    rw [lidx109_eq, ridx109_eq, concat_attr, hea e k, hd1e k h]
  · rw [bias1_idx_eq, hb1 h]

/-- The first layer, rectified. -/
theorem ref_hidden1
    (hhs : ∀ (e : Fin 800000) (k : Fin 64), hs (ix2 e k) = val_main_v100 (F := Ideal) x0 x1 x3 x4 x5 x6 x7 (ix2 e k))
    (hhd : ∀ (e : Fin 800000) (k : Fin 64), hd (ix2 e k) = val_main_v107 (F := Ideal) x0 x1 x3 x4 x5 x6 x7 (ix2 e k))
    (hea : ∀ (e : Fin 800000) (k : Fin 5), ea (ix2 e k) = x2 (ix2 e k))
    (hd1s : ∀ (k : Fin 64) (h : Fin 64), d1s (ix2 k h) = x8 (ix2 (⟨k.val, by omega⟩ : Fin 133) h))
    (hd1d : ∀ (k : Fin 64) (h : Fin 64), d1d (ix2 k h) = x8 (ix2 (⟨64 + k.val, by omega⟩ : Fin 133) h))
    (hd1e : ∀ (k : Fin 5) (h : Fin 64), d1e (ix2 k h) = x8 (ix2 (⟨128 + k.val, by omega⟩ : Fin 133) h))
    (hb1 : ∀ h : Fin 64, b1 (ix2 (0 : Fin 1) h) = x9 (ix1 h))
    (e : Fin 800000) (h : Fin 64) :
    val_main_v113 (F := Ideal) x0 x1 x2 x3 x4 x5 x6 x7 x8 x9 (ix2 e h) = decodeZ hs hd ea d1s d1d d1e b1 e h := by
  rw [val_main_v113_apply, ref_layer1 hhs hhd hea hd1s hd1d hd1e hb1 e h, val_main_call4_v0_apply, val_main_call4_cst_apply,
    Ideal.maximumf_def, Ideal.ofBits_def, Ideal.ofBits_zero_f32]
  rfl

/-- The second layer before the rectifier. -/
theorem ref_layer2
    (hhs : ∀ (e : Fin 800000) (k : Fin 64), hs (ix2 e k) = val_main_v100 (F := Ideal) x0 x1 x3 x4 x5 x6 x7 (ix2 e k))
    (hhd : ∀ (e : Fin 800000) (k : Fin 64), hd (ix2 e k) = val_main_v107 (F := Ideal) x0 x1 x3 x4 x5 x6 x7 (ix2 e k))
    (hea : ∀ (e : Fin 800000) (k : Fin 5), ea (ix2 e k) = x2 (ix2 e k))
    (hd1s : ∀ (k : Fin 64) (h : Fin 64), d1s (ix2 k h) = x8 (ix2 (⟨k.val, by omega⟩ : Fin 133) h))
    (hd1d : ∀ (k : Fin 64) (h : Fin 64), d1d (ix2 k h) = x8 (ix2 (⟨64 + k.val, by omega⟩ : Fin 133) h))
    (hd1e : ∀ (k : Fin 5) (h : Fin 64), d1e (ix2 k h) = x8 (ix2 (⟨128 + k.val, by omega⟩ : Fin 133) h))
    (hb1 : ∀ h : Fin 64, b1 (ix2 (0 : Fin 1) h) = x9 (ix1 h))
    (hd2 : ∀ (h : Fin 64) (h' : Fin 32), d2 (ix2 h h') = x10 (ix2 h h'))
    (hb2 : ∀ h' : Fin 32, b2 (ix2 (0 : Fin 1) h') = x11 (ix1 h'))
    (e : Fin 800000) (h' : Fin 32) :
    val_main_v117 (F := Ideal) x0 x1 x2 x3 x4 x5 x6 x7 x8 x9 x10 x11 (ix2 e h') = decodeZ1 hs hd ea d1s d1d d1e b1 d2 b2 e h' := by
  rw [val_main_v117_apply, val_main_v114_apply, val_main_v116_apply, val_main_v115_apply, Ideal.addf_def]
  unfold decodeZ1
  refine congrArg₂ (· + ·) (Finset.sum_congr rfl fun h _ => ?_) ?_
  · rw [lidx114_eq, ridx114_eq, ref_hidden1 hhs hhd hea hd1s hd1d hd1e hb1 e h, hd2 h h']
  · rw [bias2_idx_eq, hb2 h']

/-- The second layer, rectified. -/
theorem ref_hidden2
    (hhs : ∀ (e : Fin 800000) (k : Fin 64), hs (ix2 e k) = val_main_v100 (F := Ideal) x0 x1 x3 x4 x5 x6 x7 (ix2 e k))
    (hhd : ∀ (e : Fin 800000) (k : Fin 64), hd (ix2 e k) = val_main_v107 (F := Ideal) x0 x1 x3 x4 x5 x6 x7 (ix2 e k))
    (hea : ∀ (e : Fin 800000) (k : Fin 5), ea (ix2 e k) = x2 (ix2 e k))
    (hd1s : ∀ (k : Fin 64) (h : Fin 64), d1s (ix2 k h) = x8 (ix2 (⟨k.val, by omega⟩ : Fin 133) h))
    (hd1d : ∀ (k : Fin 64) (h : Fin 64), d1d (ix2 k h) = x8 (ix2 (⟨64 + k.val, by omega⟩ : Fin 133) h))
    (hd1e : ∀ (k : Fin 5) (h : Fin 64), d1e (ix2 k h) = x8 (ix2 (⟨128 + k.val, by omega⟩ : Fin 133) h))
    (hb1 : ∀ h : Fin 64, b1 (ix2 (0 : Fin 1) h) = x9 (ix1 h))
    (hd2 : ∀ (h : Fin 64) (h' : Fin 32), d2 (ix2 h h') = x10 (ix2 h h'))
    (hb2 : ∀ h' : Fin 32, b2 (ix2 (0 : Fin 1) h') = x11 (ix1 h'))
    (e : Fin 800000) (h' : Fin 32) :
    val_main_v118 (F := Ideal) x0 x1 x2 x3 x4 x5 x6 x7 x8 x9 x10 x11 (ix2 e h') = max (decodeZ1 hs hd ea d1s d1d d1e b1 d2 b2 e h') 0 := by
  rw [val_main_v118_apply, ref_layer2 hhs hhd hea hd1s hd1d hd1e hb1 hd2 hb2 e h', val_main_call5_v0_apply, val_main_call5_cst_apply,
    Ideal.maximumf_def, Ideal.ofBits_def, Ideal.ofBits_zero_f32]

/-- The output layer. -/
theorem ref_out
    (hhs : ∀ (e : Fin 800000) (k : Fin 64), hs (ix2 e k) = val_main_v100 (F := Ideal) x0 x1 x3 x4 x5 x6 x7 (ix2 e k))
    (hhd : ∀ (e : Fin 800000) (k : Fin 64), hd (ix2 e k) = val_main_v107 (F := Ideal) x0 x1 x3 x4 x5 x6 x7 (ix2 e k))
    (hea : ∀ (e : Fin 800000) (k : Fin 5), ea (ix2 e k) = x2 (ix2 e k))
    (hd1s : ∀ (k : Fin 64) (h : Fin 64), d1s (ix2 k h) = x8 (ix2 (⟨k.val, by omega⟩ : Fin 133) h))
    (hd1d : ∀ (k : Fin 64) (h : Fin 64), d1d (ix2 k h) = x8 (ix2 (⟨64 + k.val, by omega⟩ : Fin 133) h))
    (hd1e : ∀ (k : Fin 5) (h : Fin 64), d1e (ix2 k h) = x8 (ix2 (⟨128 + k.val, by omega⟩ : Fin 133) h))
    (hb1 : ∀ h : Fin 64, b1 (ix2 (0 : Fin 1) h) = x9 (ix1 h))
    (hd2 : ∀ (h : Fin 64) (h' : Fin 32), d2 (ix2 h h') = x10 (ix2 h h'))
    (hb2 : ∀ h' : Fin 32, b2 (ix2 (0 : Fin 1) h') = x11 (ix1 h'))
    (hd3 : ∀ (h' : Fin 32) (o : Fin 4), d3 (ix2 h' o) = x12 (ix2 h' o))
    (hb3 : ∀ o : Fin 4, b3 (ix2 (0 : Fin 1) o) = x13 (ix1 o))
    (e : Fin 800000) (o : Fin 4) :
    val_main_v122 (F := Ideal) x0 x1 x2 x3 x4 x5 x6 x7 x8 x9 x10 x11 x12 x13 (ix2 e o) = decodeOut hs hd ea d1s d1d d1e b1 d2 b2 d3 b3 e o := by
  rw [val_main_v122_apply, val_main_v119_apply, val_main_v121_apply, val_main_v120_apply, Ideal.addf_def]
  unfold decodeOut
  refine congrArg₂ (· + ·) (Finset.sum_congr rfl fun h' _ => ?_) ?_
  · rw [lidx119_eq, ridx119_eq, ref_hidden2 hhs hhd hea hd1s hd1d hd1e hb1 hd2 hb2 e h', hd3 h' o]
  · rw [bias3_idx_eq, hb3 o]

variable (x0 x1 x2 x3 x4 x5 x6 x7 x8 x9 x10 x11 x12 x13) (hs hd ea d1s d1d d1e b1 d2 b2 d3 b3)

/-- THE REFERENCE'S DECODER IS THE SPECIFICATION'S, for per-edge arrays that are the reference's gathered node
    features and attributes and weights that are the reference's (the first matrix cut into its three row blocks,
    each bias read as a row). -/
theorem decode_eq_reference
    (hhs : ∀ (e : Fin 800000) (k : Fin 64), hs (ix2 e k) = val_main_v100 (F := Ideal) x0 x1 x3 x4 x5 x6 x7 (ix2 e k))
    (hhd : ∀ (e : Fin 800000) (k : Fin 64), hd (ix2 e k) = val_main_v107 (F := Ideal) x0 x1 x3 x4 x5 x6 x7 (ix2 e k))
    (hea : ∀ (e : Fin 800000) (k : Fin 5), ea (ix2 e k) = x2 (ix2 e k))
    (hd1s : ∀ (k : Fin 64) (h : Fin 64), d1s (ix2 k h) = x8 (ix2 (⟨k.val, by omega⟩ : Fin 133) h))
    (hd1d : ∀ (k : Fin 64) (h : Fin 64), d1d (ix2 k h) = x8 (ix2 (⟨64 + k.val, by omega⟩ : Fin 133) h))
    (hd1e : ∀ (k : Fin 5) (h : Fin 64), d1e (ix2 k h) = x8 (ix2 (⟨128 + k.val, by omega⟩ : Fin 133) h))
    (hb1 : ∀ h : Fin 64, b1 (ix2 (0 : Fin 1) h) = x9 (ix1 h))
    (hd2 : ∀ (h : Fin 64) (h' : Fin 32), d2 (ix2 h h') = x10 (ix2 h h'))
    (hb2 : ∀ h' : Fin 32, b2 (ix2 (0 : Fin 1) h') = x11 (ix1 h'))
    (hd3 : ∀ (h' : Fin 32) (o : Fin 4), d3 (ix2 h' o) = x12 (ix2 h' o))
    (hb3 : ∀ o : Fin 4, b3 (ix2 (0 : Fin 1) o) = x13 (ix1 o)) :
    decode hs hd ea d1s d1d d1e b1 d2 b2 d3 b3 = val_main_v122 (F := Ideal) x0 x1 x2 x3 x4 x5 x6 x7 x8 x9 x10 x11 x12 x13 := by
  funext i
  obtain ⟨e, o, rfl⟩ : ∃ (e : Fin 800000) (o : Fin 4), i = ix2 e o := ⟨i 0, i 1, eq_ix2 i⟩
  rw [decode_apply]
  exact (ref_out hhs hhd hea hd1s hd1d hd1e hb1 hd2 hb2 hd3 hb3 e o).symm

end Cert.Bridge.Decode

end
-- ==== Proof.Bridge.lean ====
/-
  The kernel program's result is the reference's, at the same arguments.

  Layer by layer.  The first region's rows are the reference's projected rows times the normaliser of their node: the
  contraction over the 12 + 11 joined feature columns split in two, the global row's share being the bias row.  Gathered at
  the sources, added up at the destinations and multiplied by the destination's normaliser, they are the reference's first
  aggregate (the normaliser is a non-negative real and comes out of the sum).  With the bias and the relu that is the
  reference's first hidden array, so the second region's rows are the reference's second projection times the normaliser,
  and the same argument gives the second aggregate and, after bias and relu, the reference's final node array — as whole
  arrays.  The rows gathered at each edge's endpoints are then the reference's, and the decoder — the contraction over the
  64 + 64 + 5 joined columns split in three — gives the reference's last stage.
-/
import proofs.«163663_j28123445854866_2_alg».proof.Proof.KHost
import proofs.«163663_j28123445854866_2_alg».proof.Proof.HostReads
import proofs.«163663_j28123445854866_2_alg».proof.Proof.BridgeNodes
import proofs.«163663_j28123445854866_2_alg».proof.Proof.BridgeLayers
import proofs.«163663_j28123445854866_2_alg».proof.Proof.BridgeDecode

set_option maxRecDepth 16384

noncomputable section

namespace Cert.Bridge.Main

open Cert.KernelIdeal Cert.KernelIdeal.Gen Cert.KernelIdeal.KHost
open Idealize.ShloMosaic Idealize.ShloMosaic.TcCoe Idealize.SL.Sem
open Idealize.ShloMosaic.ValueIdx
open Cert.KernelIdeal.Region0 Cert.KernelIdeal.Region1 Cert.KernelIdeal.Region2 Cert.KernelIdeal.Region3

variable (m : (ℓ : Loc nD τ sig) → Buf (Elt Ideal) ℓ) (ρ : Dev nD → PrngReg) (c : Dev nD)

/-- The normaliser column at a node is the normaliser at that node. -/
theorem dinvCol_apply (x1 : (⟨S2x800000, .i32⟩ : BufTy).Contents (Elt Ideal)) (n : Fin 50000) :
    dinvCol (F := Ideal) x1 (ix2 n (0 : Fin 1)) = Cert.ReferenceIdeal.Read.val_main_v17 (F := Ideal) x1 (ix1 n) :=
  Cert.KernelIdeal.HostReads.column_of_nodes (Cert.ReferenceIdeal.Read.val_main_v17 (F := Ideal) x1) n

/-- The first region's rows: the reference's projected rows, times the node's normaliser. -/
theorem projected1 (n : Fin 50000) (g : Fin 64) :
    W4 m ρ c (Proc.devRef .tc main_v19) (ix2 n g) = Cert.ReferenceIdeal.Read.val_main_v6 (F := Ideal) (m ((c.tc : Thread nD τ).loc main_arg0)) (m ((c.tc : Thread nD τ).loc main_arg3)) (m ((c.tc : Thread nD τ).loc main_arg4)) (ix2 n g) * dinvCol (F := Ideal) (m ((c.tc : Thread nD τ).loc main_arg1)) (ix2 n (0 : Fin 1)) := by
  rw [W4_v19 m ρ c]
  exact Cert.Bridge.Nodes.proj1_eq_reference (m ((c.tc : Thread nD τ).loc main_arg0)) (m ((c.tc : Thread nD τ).loc main_arg3)) (m ((c.tc : Thread nD τ).loc main_arg4)) _ _ _
    (fun k g => Cert.KernelIdeal.HostReads.projection_rows _ k g)
    (fun g => (Cert.KernelIdeal.HostReads.global_product_entry _ _ g).trans (Finset.sum_congr rfl fun k _ => by rw [Cert.KernelIdeal.HostReads.global_rows]))
    n g

/-- The first aggregate, times the node's normaliser, is the reference's. -/
theorem aggregate1 (n : Fin 50000) (g : Fin 64) (s : FVec Ideal S50000x64 .f32) (hs : s = W5 m ρ c (Proc.devRef .tc main_v29)) :
    s (ix2 n g) * dinvCol (F := Ideal) (m ((c.tc : Thread nD τ).loc main_arg1)) (ix2 n (0 : Fin 1)) = Cert.ReferenceIdeal.Read.val_main_v45 (F := Ideal) (m ((c.tc : Thread nD τ).loc main_arg0)) (m ((c.tc : Thread nD τ).loc main_arg1)) (m ((c.tc : Thread nD τ).loc main_arg3)) (m ((c.tc : Thread nD τ).loc main_arg4)) (ix2 n g) := by
  subst hs
  rw [W5_v29 m ρ c]
  exact Cert.Bridge.Layers.layer1 (m ((c.tc : Thread nD τ).loc main_arg0)) (m ((c.tc : Thread nD τ).loc main_arg1)) (m ((c.tc : Thread nD τ).loc main_arg3)) (m ((c.tc : Thread nD τ).loc main_arg4)) (W4 m ρ c (Proc.devRef .tc main_v19)) (dinvCol (F := Ideal) (m ((c.tc : Thread nD τ).loc main_arg1)))
    (dinvCol_apply (m ((c.tc : Thread nD τ).loc main_arg1))) (projected1 m ρ c) n g

/-- The second region's rows: the reference's second projection, times the node's normaliser. -/
theorem projected2 (n : Fin 50000) (g : Fin 64) :
    W6 m ρ c (Proc.devRef .tc main_v31) (ix2 n g) = Cert.ReferenceIdeal.Read.val_main_v50 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (ix2 n g) * dinvCol (F := Ideal) (m ((c.tc : Thread nD τ).loc main_arg1)) (ix2 n (0 : Fin 1)) := by
  rw [W6_v31 m ρ c]
  exact Cert.Bridge.Nodes.aggProj_eq_reference (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) _ _ _ _
    (fun n k => aggregate1 m ρ c n k _ rfl) (fun k => Cert.KernelIdeal.HostReads.row_of_64 _ k) (fun k g => rfl) n g

/-- The second aggregate, times the node's normaliser, is the reference's. -/
theorem aggregate2 (n : Fin 50000) (g : Fin 64) (s : FVec Ideal S50000x64 .f32) (hs : s = W7 m ρ c (Proc.devRef .tc main_v41)) :
    s (ix2 n g) * dinvCol (F := Ideal) (m ((c.tc : Thread nD τ).loc main_arg1)) (ix2 n (0 : Fin 1)) = Cert.ReferenceIdeal.Read.val_main_v89 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (ix2 n g) := by
  subst hs
  rw [W7_v41 m ρ c]
  exact Cert.Bridge.Layers.layer2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (W6 m ρ c (Proc.devRef .tc main_v31)) (dinvCol (F := Ideal) (m ((c.tc : Thread nD τ).loc main_arg1)))
    (dinvCol_apply (m ((c.tc : Thread nD τ).loc main_arg1))) (projected2 m ρ c) n g

/-- The third region's array is the reference's final node array, entry by entry. -/
theorem nodes_apply (n : Fin 50000) (g : Fin 64) :
    W8 m ρ c (Proc.devRef .tc main_v43) (ix2 n g) = Cert.ReferenceIdeal.Read.val_main_v93 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 n g) := by
  rw [W8_v43 m ρ c]
  exact Cert.Bridge.Nodes.aggRelu_eq_reference (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) _ _ _
    (fun n g => aggregate2 m ρ c n g _ rfl) (fun g => Cert.KernelIdeal.HostReads.row_of_64 _ g) n g

/-- … and so as a whole array. -/
theorem nodes_eq : W8 m ρ c (Proc.devRef .tc main_v43) = Cert.ReferenceIdeal.Read.val_main_v93 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext i
  obtain ⟨n, g, rfl⟩ : ∃ (n : Fin 50000) (g : Fin 64), i = ix2 n g := ⟨i 0, i 1, eq_ix2 i⟩
  exact nodes_apply m ρ c n g

/-- The rows gathered at the edges' sources are the reference's. -/
theorem source_rows : W9 m ρ c (Proc.devRef .tc main_v50) = Cert.ReferenceIdeal.Read.val_main_v100 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [W9_v50 m ρ c, nodes_eq m ρ c]
  rfl

/-- The rows gathered at the edges' destinations are the reference's. -/
theorem destination_rows : W9 m ρ c (Proc.devRef .tc main_v57) = Cert.ReferenceIdeal.Read.val_main_v107 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [W9_v57 m ρ c, nodes_eq m ρ c]
  rfl

/-- The kernel program's result buffer holds the reference's last stage at the same arguments. -/
theorem kernel_eq_reference : W10 m ρ c (Proc.devRef .tc main_v69) = Cert.ReferenceIdeal.Read.val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [result_eq m ρ c]
  exact Cert.Bridge.Decode.decode_eq_reference (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) _ _ _ _ _ _ _ _ _ _ _
    (fun e k => by rw [source_rows m ρ c]) (fun e k => by rw [destination_rows m ρ c]) (fun e k => rfl)
    (fun k h => Cert.KernelIdeal.HostReads.edge_rows_first _ k h) (fun k h => Cert.KernelIdeal.HostReads.edge_rows_second _ k h) (fun k h => Cert.KernelIdeal.HostReads.edge_rows_last _ k h)
    (fun h => Cert.KernelIdeal.HostReads.row_of_64 _ h) (fun h h' => Cert.KernelIdeal.HostReads.rounded_64x32 _ h h') (fun h' => Cert.KernelIdeal.HostReads.row_of_32 _ h')
    (fun h' o => Cert.KernelIdeal.HostReads.rounded_32x4 _ h' o) (fun o => Cert.KernelIdeal.HostReads.row_of_4 _ o)

end Cert.Bridge.Main

end
-- ==== Proof.lean ====
/-
  The certificate of a two-layer graph convolution with an edge decoder, as a pipelined kernel program against a plain
  array program.

  Both programs take node features, an integer edge list, edge features, a global feature row and the weights of two
  convolution layers and a three-layer edge decoder, and return one row of four numbers per edge.  A convolution layer
  projects the node rows, gathers the projected row of each edge's source (every node also sends to itself), scales it by
  dinv(source) · dinv(destination) — dinv the inverse square root of a node's in-degree, self loop included — and adds
  the scaled rows up at each edge's destination; a bias and a relu follow.  The decoder gathers the final node rows at each
  edge's two endpoints, joins them with the edge's features and applies three dense layers.

  The kernel program computes the same thing in another arrangement.  It folds the global feature row into the first layer
  as a bias row (the contraction over the 12 + 11 joined columns split in two), scales the projected rows by dinv BEFORE
  the gather and the summed rows by dinv AFTER the scatter (a factor common to every term of a sum taken out of it: dinv is
  a non-negative real, and the extended reals distribute over such a factor), and never joins the decoder's three inputs
  (the contraction over the 64 + 64 + 5 joined columns split in three).  Its casts to a narrower float format are the
  identity on exact numbers.  No step needs the inputs to be finite.

  The three frames: the two kernel programs' frame runs, and the reference's run with its result dropped.  The idealized
  kernel is the kernel's own text read over the exact numbers (no rewrite was applied).  The value claim: the kernel
  program's run ends with its result buffer at the last boundary's contents, which the bridge identifies with the
  reference's last stage at the same arguments.
-/
import proofs.«163663_j28123445854866_2_alg».proof.Defs
import proofs.«163663_j28123445854866_2_alg».proof.Proof.Gen.Kernel
import proofs.«163663_j28123445854866_2_alg».proof.Proof.Gen.Kernel.Skeleton
import proofs.«163663_j28123445854866_2_alg».proof.Proof.Gen.Kernel.Launch
import proofs.«163663_j28123445854866_2_alg».proof.Proof.Gen.Kernel.Points
import proofs.«163663_j28123445854866_2_alg».proof.Proof.Gen.Kernel.Frame
import proofs.«163663_j28123445854866_2_alg».proof.Proof.Gen.KernelIdeal
import proofs.«163663_j28123445854866_2_alg».proof.Proof.Gen.KernelIdeal.Skeleton
import proofs.«163663_j28123445854866_2_alg».proof.Proof.Gen.KernelIdeal.Launch
import proofs.«163663_j28123445854866_2_alg».proof.Proof.Gen.KernelIdeal.Points
import proofs.«163663_j28123445854866_2_alg».proof.Proof.Gen.KernelIdeal.Frame
import proofs.«163663_j28123445854866_2_alg».proof.Proof.Gen.ReferenceIdeal
import proofs.«163663_j28123445854866_2_alg».proof.Proof.Gen.Pre_finite_inputs
import proofs.«163663_j28123445854866_2_alg».proof.Proof.KRun
import proofs.«163663_j28123445854866_2_alg».proof.Proof.RefRun
import proofs.«163663_j28123445854866_2_alg».proof.Proof.Bridge
import Idealize.ShloMosaic.Adequacy
import Idealize.ShloMosaic.Init

noncomputable section

namespace Cert.Proof

open Idealize.ShloMosaic Idealize.SL.Sem

/-- The word-level kernel program runs and leaves its arguments. -/
theorem frame_kernel : Cert.frame_Kernel (hKernel := Cert.Kernel.Gen.facts) (hPre_finite_inputs := Cert.Pre_finite_inputs.Gen.facts) :=
  fun m ρ _ => Cert.Kernel.Gen.frame m ρ

/-- The kernel program over the exact numbers runs and leaves its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments: its run, the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- From memories agreeing on the arguments both programs run, and the kernel program's result — its result buffer at the
    last boundary — is the reference's last stage at the same arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Gen.W10 m ρ c (Proc.devRef .tc Cert.KernelIdeal.main_v69), Cert.KernelIdeal.KRun.run_result m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact (Cert.Bridge.Main.kernel_eq_reference m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
